-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S4096x4096 : Shape := ⟨2, ![4096, 4096]⟩
abbrev S3x256x256 : Shape := ⟨3, ![3, 256, 256]⟩
abbrev S256 : Shape := ⟨1, ![256]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S3x256x256 : S_.BroadcastsInDim S3x256x256 (![] : Fin 0 → Fin S3x256x256.rank)
  reducesTo_S3x256x256_S_d0_1_2 : S3x256x256.ReducesTo [0, 1, 2] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S4096x256 .f32) (main_arg1 : FVec F S4096x4096 .f32) (main_arg2 : FVec F S3x256x256 .f32) (main_arg3 : FVec F S256 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S3x256x256 .f32 := Host.absf main_arg2
  let main_cst_2 : FVec F S_ .f32 := constant S_ .f32 0x7F800000#32
  let main_v10 : FVec F S3x256x256 .f32 := broadcastInDim S3x256x256 ![] bcast_S_S3x256x256 main_cst_2
  let main_v11 : IVec S3x256x256 1 := cmpf .olt main_v9 main_v10
  let main_c_3 : IVec S_ 1 := constantI S_ 1 1#1
  let main_v12 : IVec S_ 1 := (fun x v => Host.reduce IntOp.andi x v reducesTo_S3x256x256_S_d0_1_2 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S4096x256 : Shape := ⟨2, ![4096, 256]⟩
abbrev S4096x4096 : Shape := ⟨2, ![4096, 4096]⟩
abbrev S3x256x256 : Shape := ⟨3, ![3, 256, 256]⟩
abbrev S256 : Shape := ⟨1, ![256]⟩
abbrev S1x256 : Shape := ⟨2, ![1, 256]⟩
abbrev S512x4096 : Shape := ⟨2, ![512, 4096]⟩
abbrev S1024x256 : Shape := ⟨2, ![1024, 256]⟩
abbrev S512x256 : Shape := ⟨2, ![512, 256]⟩
abbrev S1x256x256 : Shape := ⟨3, ![1, 256, 256]⟩
abbrev S256x256 : Shape := ⟨2, ![256, 256]⟩
abbrev S1024x2048 : Shape := ⟨2, ![1024, 2048]⟩
abbrev S2048x256 : Shape := ⟨2, ![2048, 256]⟩

abbrev nBuf : Space → Nat
  | .hbm => 8
  | .vmem => 10
  | .smem => 0
  | _ => 0

abbrev bufTy : (tb : Table) → Fin (tcTables nBuf tb) → BufTy
  | .hbm, ⟨0, _⟩ => ⟨S4096x256, .f32⟩
  | .hbm, ⟨1, _⟩ => ⟨S4096x4096, .f32⟩
  | .hbm, ⟨2, _⟩ => ⟨S3x256x256, .f32⟩
  | .hbm, ⟨3, _⟩ => ⟨S256, .f32⟩
  | .hbm, ⟨4, _⟩ => ⟨S4096x256, .bf16⟩
  | .hbm, ⟨5, _⟩ => ⟨S3x256x256, .bf16⟩
  | .hbm, ⟨6, _⟩ => ⟨S1x256, .f32⟩
  | .hbm, ⟨7, _⟩ => ⟨S4096x256, .f32⟩
  | .local _ .vmem, ⟨0, _⟩ => ⟨S512x4096, .f32⟩
  | .local _ .vmem, ⟨1, _⟩ => ⟨S512x4096, .f32⟩
  | .local _ .vmem, ⟨2, _⟩ => ⟨S4096x256, .bf16⟩
  | .local _ .vmem, ⟨3, _⟩ => ⟨S3x256x256, .bf16⟩
  | .local _ .vmem, ⟨4, _⟩ => ⟨S1x256, .f32⟩
  | .local _ .vmem, ⟨5, _⟩ => ⟨S1024x256, .f32⟩
  | .local _ .vmem, ⟨6, _⟩ => ⟨S1024x256, .f32⟩
  | .local _ .vmem, ⟨7, _⟩ => ⟨S4096x4096, .bf16⟩
  | .local _ .vmem, ⟨8, _⟩ => ⟨S4096x256, .bf16⟩
  | .local _ .vmem, ⟨9, _⟩ => ⟨S4096x256, .bf16⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![12], ![false]⟩

def k0_cond1 (i : grid0.Coords) : BitVec 1 :=
  let arg0 : BitVec 32 := BitVec.ofNat 32 (i 0).val
  let c8_i32 : BitVec 32 := 8#32
  let v0 : BitVec 1 := Scalar.cmpi .slt arg0 c8_i32
  let v1 : BitVec 32 := Scalar.extui v0
  let c0_i32 : BitVec 32 := 0#32
  let v2 : BitVec 1 := Scalar.cmpi .ne v1 c0_i32
  v2

def k0_off1 (i : grid0.Coords) : Fin 2 → Nat :=
  let arg0 : BitVec 32 := BitVec.ofNat 32 (i 0).val
  let c512_i32 : BitVec 32 := 512#32
  let v11 : BitVec 32 := Scalar.muli arg0 c512_i32
  let v14 : Index := Scalar.indexCast v11
  let c0_5 : Index := 0#32
  ![v14.toNat, 0]
def k0_off2 (i : grid0.Coords) : Fin 2 → Nat :=
  let arg0 : BitVec 32 := BitVec.ofNat 32 (i 0).val
  let c512_i32 : BitVec 32 := 512#32
  let v11 : BitVec 32 := Scalar.muli arg0 c512_i32
  let v35 : Index := Scalar.indexCast v11
  let c0_20 : Index := 0#32
  ![v35.toNat, 0]
def k0_cond2 (i : grid0.Coords) : BitVec 1 :=
  let arg0 : BitVec 32 := BitVec.ofNat 32 (i 0).val
  let c4_i32 : BitVec 32 := 4#32
  let v3 : BitVec 1 := Scalar.cmpi .sge arg0 c4_i32
  let c8_i32_0 : BitVec 32 := 8#32
  let v4 : BitVec 1 := Scalar.cmpi .slt arg0 c8_i32_0
  let v5 : BitVec 1 := Scalar.andi v3 v4
  let v6 : BitVec 32 := Scalar.extui v5
  let c0_i32_1 : BitVec 32 := 0#32
  let v7 : BitVec 1 := Scalar.cmpi .ne v6 c0_i32_1
  v7

def k0_off3 (i : grid0.Coords) : Fin 2 → Nat :=
  let arg0 : BitVec 32 := BitVec.ofNat 32 (i 0).val
  let c4_i32_4 : BitVec 32 := 4#32
  let v11 : BitVec 32 := Scalar.subi arg0 c4_i32_4
  let c1024_i32 : BitVec 32 := 1024#32
  let v12 : BitVec 32 := Scalar.muli v11 c1024_i32
  let v13 : Index := Scalar.indexCast v12
  let c0 : Index := 0#32
  ![v13.toNat, 0]
def k0_off4 (i : grid0.Coords) : Fin 2 → Nat :=
  let arg0 : BitVec 32 := BitVec.ofNat 32 (i 0).val
  let c4_i32_4 : BitVec 32 := 4#32
  let v11 : BitVec 32 := Scalar.subi arg0 c4_i32_4
  let c1024_i32 : BitVec 32 := 1024#32
  let v12 : BitVec 32 := Scalar.muli v11 c1024_i32
  let v17 : Index := Scalar.indexCast v12
  let c0_7 : Index := 0#32
  ![v17.toNat, 0]
def k0_cond3 (i : grid0.Coords) : BitVec 1 :=
  let arg0 : BitVec 32 := BitVec.ofNat 32 (i 0).val
  let c8_i32_2 : BitVec 32 := 8#32
  let v8 : BitVec 1 := Scalar.cmpi .sge arg0 c8_i32_2
  let v9 : BitVec 32 := Scalar.extui v8
  let c0_i32_3 : BitVec 32 := 0#32
  let v10 : BitVec 1 := Scalar.cmpi .ne v9 c0_i32_3
  v10

def k0_off5 (i : grid0.Coords) : Fin 2 → Nat :=
  let arg0 : BitVec 32 := BitVec.ofNat 32 (i 0).val
  let c8_i32_4 : BitVec 32 := 8#32
  let v11 : BitVec 32 := Scalar.subi arg0 c8_i32_4
  let c1024_i32 : BitVec 32 := 1024#32
  let v12 : BitVec 32 := Scalar.muli v11 c1024_i32
  let v13 : Index := Scalar.indexCast v12
  let c2048 : Index := 2048#32
  ![v13.toNat, 2048]
def k0_off6 (i : grid0.Coords) : Fin 2 → Nat :=
  let arg0 : BitVec 32 := BitVec.ofNat 32 (i 0).val
  let c8_i32_4 : BitVec 32 := 8#32
  let v11 : BitVec 32 := Scalar.subi arg0 c8_i32_4
  let c1024_i32 : BitVec 32 := 1024#32
  let v12 : BitVec 32 := Scalar.muli v11 c1024_i32
  let v17 : Index := Scalar.indexCast v12
  let c0_6 : Index := 0#32
  ![v17.toNat, 0]
def cc0_transform_0 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3x256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bitsLt_bf16_f32 : FTy.bits .bf16 < FTy.bits .f32
  shapeCasts_S256_S1x256 : S256.ShapeCasts S1x256
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S3x256x256_S1x256x256_0_0_0 : ∀ a, (![0, 0, 0] : Fin 3 → Nat) a + S1x256x256.size a ≤ S3x256x256.size a
  h_S1x256x256 : 0 < S1x256x256.numel
  shapeCasts_S1x256x256_S256x256 : S1x256x256.ShapeCasts S256x256
  inb_S3x256x256_S1x256x256_2_0_0 : ∀ a, (![2, 0, 0] : Fin 3 → Nat) a + S1x256x256.size a ≤ S3x256x256.size a
  inb_S3x256x256_S1x256x256_1_0_0 : ∀ a, (![1, 0, 0] : Fin 3 → Nat) a + S1x256x256.size a ≤ S3x256x256.size a
  h_S512x256 : 0 < S512x256.numel
  shapeCasts_S512x256_S512x256 : S512x256.ShapeCasts S512x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  h_S1024x2048 : 0 < S1024x2048.numel
  inb_S4096x256_S2048x256_0_0 : ∀ a, (![0, 0] : Fin 2 → Nat) a + S2048x256.size a ≤ S4096x256.size a
  h_S2048x256 : 0 < S2048x256.numel
  h_S1024x256 : 0 < S1024x256.numel
  shapeCasts_S1024x256_S1024x256 : S1024x256.ShapeCasts S1024x256
  inb_S4096x256_S2048x256_2048_0 : ∀ a, (![2048, 0] : Fin 2 → Nat) a + S2048x256.size a ≤ S4096x256.size a
  inb_S1024x256_S1024x256_0_0 : ∀ a, (![0, 0] : Fin 2 → Nat) a + S1024x256.size a ≤ S1024x256.size a
  dot_S512x4096_S4096x256_S512x256_1_0_0_1_n_n_wf : DotDims.WF S512x4096 S4096x256 S512x256 [1] [0] [0] [1] [] []
  dot_S512x256_S256x256_S512x256_1_0_0_1_n_n_wf : DotDims.WF S512x256 S256x256 S512x256 [1] [0] [0] [1] [] []
  dot_S1024x2048_S2048x256_S1024x256_1_0_0_1_n_n_wf : DotDims.WF S1024x2048 S2048x256 S1024x256 [1] [0] [0] [1] [] []
  hrank0 : 0 < grid0.rank
  k0_off1_inb : ∀ i : grid0.Coords, ∀ (k0_h1 : k0_cond1 i = 1#1), ∀ a, (k0_off1 i) a + S512x4096.size a ≤ S4096x4096.size a
  k0_off1_packedbf16 : ∀ i : grid0.Coords, ∀ (k0_h1 : k0_cond1 i = 1#1), (Rect.unit (s := S4096x4096) (k0_off1 i) S512x4096.size (k0_off1_inb i k0_h1)).PackedRows (EltTy.packing .bf16)
  k0_off2_inb : ∀ i : grid0.Coords, ∀ (k0_h1 : k0_cond1 i = 1#1), ∀ a, (k0_off2 i) a + S512x256.size a ≤ S4096x256.size a
  k0_off2_packedbf16 : ∀ i : grid0.Coords, ∀ (k0_h1 : k0_cond1 i = 1#1), (Rect.unit (s := S4096x256) (k0_off2 i) S512x256.size (k0_off2_inb i k0_h1)).PackedRows (EltTy.packing .bf16)
  k0_off3_inb : ∀ i : grid0.Coords, ∀ (k0_h2 : k0_cond2 i = 1#1), ∀ a, (k0_off3 i) a + S1024x2048.size a ≤ S4096x4096.size a
  k0_off4_inb : ∀ i : grid0.Coords, ∀ (k0_h2 : k0_cond2 i = 1#1), ∀ a, (k0_off4 i) a + S1024x256.size a ≤ S4096x256.size a
  k0_off4_packedbf16 : ∀ i : grid0.Coords, ∀ (k0_h2 : k0_cond2 i = 1#1), (Rect.unit (s := S4096x256) (k0_off4 i) S1024x256.size (k0_off4_inb i k0_h2)).PackedRows (EltTy.packing .bf16)
  k0_off5_inb : ∀ i : grid0.Coords, ∀ (k0_h3 : k0_cond3 i = 1#1), ∀ a, (k0_off5 i) a + S1024x2048.size a ≤ S4096x4096.size a
  k0_off6_inb : ∀ i : grid0.Coords, ∀ (k0_h3 : k0_cond3 i = 1#1), ∀ a, (k0_off6 i) a + S1024x256.size a ≤ S4096x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .f32 = 32 ∨ (Rect.block (s := S4096x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S4096x256.size a
  hwx0_1 : ∀ i : grid0.Coords, EltTy.bits .bf16 = 32 ∨ (Rect.block (s := S4096x256) S4096x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x256x256.size a ≤ S3x256x256.size a
  hwx0_2 : ∀ i : grid0.Coords, EltTy.bits .bf16 = 32 ∨ (Rect.block (s := S3x256x256) S3x256x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x256.size a ≤ S4096x256.size a
  hwx0_4 : ∀ i : grid0.Coords, EltTy.bits .f32 = 32 ∨ (Rect.block (s := S4096x256) S1024x256.size (cc0_transform_4 i) (hinb0_4 i)).WholeWords (EltTy.packing .f32)

variable [Facts₀]

def dot_S512x4096_S4096x256_S512x256_1_0_0_1_n_n : DotDims S512x4096 S4096x256 S512x256 where
  lhsContracting := [1]
  rhsContracting := [0]
  lhsNonContracting := [0]
  rhsNonContracting := [1]
  lhsBatch := []
  rhsBatch := []
  wf := dot_S512x4096_S4096x256_S512x256_1_0_0_1_n_n_wf
def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf
def dot_S1024x2048_S2048x256_S1024x256_1_0_0_1_n_n : DotDims S1024x2048 S2048x256 S1024x256 where
  lhsContracting := [1]
  rhsContracting := [0]
  lhsNonContracting := [0]
  rhsNonContracting := [1]
  lhsBatch := []
  rhsBatch := []
  wf := dot_S1024x2048_S2048x256_S1024x256_1_0_0_1_n_n_wf

abbrev win0_0 : Pipeline.Window sig grid0 :=
  Pipeline.Window.ofSpec (Memref.whole main_arg1) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4096x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S3x256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1024x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond3 i == 1#1) | ⟨_ + 5, h⟩ => absurd h (Nat.not_lt.2 (Nat.le_add_left _ _))

class Facts : Prop extends Facts₀ where

variable [Facts]
-- ==== ReferenceIdeal.lean ====
abbrev S4096x256 : Shape := ⟨2, ![4096, 256]⟩
abbrev S4096x4096 : Shape := ⟨2, ![4096, 4096]⟩
abbrev S3x256x256 : Shape := ⟨3, ![3, 256, 256]⟩
abbrev S256 : Shape := ⟨1, ![256]⟩
abbrev S1x256x256 : Shape := ⟨3, ![1, 256, 256]⟩
abbrev S256x256 : Shape := ⟨2, ![256, 256]⟩
abbrev S_ : Shape := ⟨0, ![]⟩
abbrev S1x256 : Shape := ⟨2, ![1, 256]⟩

abbrev nBuf : Space → Nat
  | .hbm => 24
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x4096, .f32⟩
  | .hbm, ⟨2, _⟩ => ⟨S3x256x256, .f32⟩
  | .hbm, ⟨3, _⟩ => ⟨S256, .f32⟩
  | .hbm, ⟨4, _⟩ => ⟨S4096x256, .f32⟩
  | .hbm, ⟨5, _⟩ => ⟨S1x256x256, .f32⟩
  | .hbm, ⟨6, _⟩ => ⟨S256x256, .f32⟩
  | .hbm, ⟨7, _⟩ => ⟨S4096x256, .f32⟩
  | .hbm, ⟨8, _⟩ => ⟨S1x256x256, .f32⟩
  | .hbm, ⟨9, _⟩ => ⟨S256x256, .f32⟩
  | .hbm, ⟨10, _⟩ => ⟨S4096x256, .f32⟩
  | .hbm, ⟨11, _⟩ => ⟨S4096x256, .f32⟩
  | .hbm, ⟨12, _⟩ => ⟨S4096x256, .f32⟩
  | .hbm, ⟨13, _⟩ => ⟨S_, .f32⟩
  | .hbm, ⟨14, _⟩ => ⟨S4096x256, .f32⟩
  | .hbm, ⟨15, _⟩ => ⟨S4096x256, .f32⟩
  | .hbm, ⟨16, _⟩ => ⟨S4096x256, .f32⟩
  | .hbm, ⟨17, _⟩ => ⟨S1x256x256, .f32⟩
  | .hbm, ⟨18, _⟩ => ⟨S256x256, .f32⟩
  | .hbm, ⟨19, _⟩ => ⟨S4096x256, .f32⟩
  | .hbm, ⟨20, _⟩ => ⟨S4096x256, .f32⟩
  | .hbm, ⟨21, _⟩ => ⟨S1x256, .f32⟩
  | .hbm, ⟨22, _⟩ => ⟨S4096x256, .f32⟩
  | .hbm, ⟨23, _⟩ => ⟨S4096x256, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩

abbrev nD : Nat := 1
abbrev τ : Topo := Topo.v7x

variable {F : FTy → Type} [FloatOps F]

class Facts₀ : Prop where
  slices_S3x256x256_S1x256x256_0_0_0 : S3x256x256.Slices ![0, 0, 0] S1x256x256
  shapeCasts_S1x256x256_S256x256 : S1x256x256.ShapeCasts S256x256
  slices_S3x256x256_S1x256x256_1_0_0 : S3x256x256.Slices ![1, 0, 0] S1x256x256
  bcast_S_S4096x256 : S_.BroadcastsInDim S4096x256 (![] : Fin 0 → Fin S4096x256.rank)
  slices_S3x256x256_S1x256x256_2_0_0 : S3x256x256.Slices ![2, 0, 0] S1x256x256
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  dot_S4096x4096_S4096x256_S4096x256_1_0_0_1_n_n_wf : DotDims.WF S4096x4096 S4096x256 S4096x256 [1] [0] [0] [1] [] []
  dot_S4096x256_S256x256_S4096x256_1_0_0_1_n_n_wf : DotDims.WF S4096x256 S256x256 S4096x256 [1] [0] [0] [1] [] []

variable [Facts₀]

def dot_S4096x4096_S4096x256_S4096x256_1_0_0_1_n_n : DotDims S4096x4096 S4096x256 S4096x256 where
  lhsContracting := [1]
  rhsContracting := [0]
  lhsNonContracting := [0]
  rhsNonContracting := [1]
  lhsBatch := []
  rhsBatch := []
  wf := dot_S4096x4096_S4096x256_S4096x256_1_0_0_1_n_n_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf

class Facts : Prop extends Facts₀ where

variable [Facts]
-- ==== Proof.ChebBody.lean ====
/-
  The kernel body of the Chebyshev graph convolution, at a symbolic grid point, for any float instance.

  The grid has twelve points. At points 0..7 the body converts strip t of L (rows 512t .. 512t+511) and keeps it in the
  first scratch array, forms the strip of T1 = L x, and stores rows 512t.. of Y = 2 (T1 W2) in the second scratch array and of
  A = x (W0 - W2) + T1 W1 + b in the third. At points 4..7 it then adds, for the 1024-row block p = t - 4, the left half
  of the second product, L[rows, :2048] Y[:2048], into the third array. At points 8..11 it writes the output block
  p = t - 8 as L[rows, 2048:] Y[2048:] plus the third array's rows.

  What each scratch array holds after a point is the array before it with the rows the point stores replaced
  (`setRows`); the three theorems `run_first`, `run_mid`, `run_last` say so for the three kinds of point.
-/
import proofs.«145050_g80676665688617_cont_sun_m_757_33_alg».proof.Proof.Gen.KernelIdeal
import proofs.«145050_g80676665688617_cont_sun_m_757_33_alg».proof.Proof.Gen.KernelIdeal.Skeleton
import proofs.«145050_g80676665688617_cont_sun_m_757_33_alg».proof.Proof.Gen.KernelIdeal.Launch
import proofs.«145050_g80676665688617_cont_sun_m_757_33_alg».proof.Proof.Gen.KernelIdeal.Points
import Idealize.ShloMosaic.Lib.Writes
import Idealize.ShloMosaic.Lib.WritesUnit
import Idealize.ShloMosaic.Lib.ValueIdx
import Idealize.ShloMosaic.Lib.Pipeline.FrameBody
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## Rows of a matrix replaced -/

/-- The matrix `a` with its rows `o .. o + W - 1` replaced by the rows of `w`. -/
def setRows {α : Type} {n k W : ℕ} (o : ℕ) (a : (⟨2, ![n, k]⟩ : Shape).Idx → α) (w : (⟨2, ![W, k]⟩ : Shape).Idx → α) :
    (⟨2, ![n, k]⟩ : Shape).Idx → α :=
  fun y => if h : o ≤ (y 0).val ∧ (y 0).val < o + W then w (ix2 ⟨(y 0).val - o, by omega⟩ (y 1)) else a y

theorem setRows_in {α : Type} {n k W : ℕ} (o : ℕ) (a : (⟨2, ![n, k]⟩ : Shape).Idx → α) (w : (⟨2, ![W, k]⟩ : Shape).Idx → α)
    (y : (⟨2, ![n, k]⟩ : Shape).Idx) (h : o ≤ (y 0).val ∧ (y 0).val < o + W) :
    setRows o a w y = w (ix2 ⟨(y 0).val - o, by omega⟩ (y 1)) := dif_pos h

theorem setRows_out {α : Type} {n k W : ℕ} (o : ℕ) (a : (⟨2, ![n, k]⟩ : Shape).Idx → α) (w : (⟨2, ![W, k]⟩ : Shape).Idx → α)
    (y : (⟨2, ![n, k]⟩ : Shape).Idx) (h : (y 0).val < o ∨ o + W ≤ (y 0).val) : setRows o a w y = a y :=
  dif_neg (by omega)

/-- A store of whole rows `o .. o + W - 1` through a view of an `n × k` buffer, read back: the rows replaced. -/
theorem read_writes_rows {sig' : RefSig} {κ : Kind} {sp : Space} {e : EltTy} {Val : EltTy → Type} {n k W : ℕ}
    (v : View sig' κ sp (⟨2, ![n, k]⟩ : Shape) e) (f : v.ty.Contents Val) {off : Fin 2 → ℕ} (o : ℕ)
    (inb : ∀ a : Fin 2, off a + (![W, k] : Fin 2 → ℕ) a ≤ (![n, k] : Fin 2 → ℕ) a)
    (w : (⟨2, ![W, k]⟩ : Shape).Idx → Val e) (L : List (View.Piece Val (⟨2, ![n, k]⟩ : Shape) e)) (hoff : off = ![o, 0]) :
    v.read Val (v.writes Val f ((⟨Rect.unit (s := ⟨2, ![n, k]⟩) off ![W, k] inb, w⟩ : View.Piece Val (⟨2, ![n, k]⟩ : Shape) e) :: L))
      = setRows o (v.read Val (v.writes Val f L)) w := by
  funext y
  unfold setRows
  by_cases h : o ≤ (y 0).val ∧ (y 0).val < o + W
  · rw [dif_pos h]
    exact View.read_writes_cons_rows_of_mem v f inb w L y (ix2 ⟨(y 0).val - o, by omega⟩ (y 1)) hoff
      (by have := h.1; show (y 0).val = o + ((y 0).val - o); omega) rfl
  · rw [dif_neg h]
    exact View.read_writes_cons_rows_of_not_mem (W := W) v f inb w L y hoff rfl (by omega)

/-! ## The points by kind, and the offsets there -/

/-- Points 0..3, 4..7 and 8..11, by their position `p = 0..3` within the kind. -/
def ptA (p : Fin 4) : Fin grid0.N := ⟨p.val, by have := p.isLt; have : grid0.N = 12 := N_0; omega⟩
def ptB (p : Fin 4) : Fin grid0.N := ⟨p.val + 4, by have := p.isLt; have : grid0.N = 12 := N_0; omega⟩
def ptC (p : Fin 4) : Fin grid0.N := ⟨p.val + 8, by have := p.isLt; have : grid0.N = 12 := N_0; omega⟩

theorem cond_A : ∀ p : Fin 4, k0_cond1 (grid0.coords (ptA p)) = 1#1 ∧ ¬ k0_cond2 (grid0.coords (ptA p)) = 1#1 ∧ ¬ k0_cond3 (grid0.coords (ptA p)) = 1#1 := by decide +kernel
theorem cond_B : ∀ p : Fin 4, k0_cond1 (grid0.coords (ptB p)) = 1#1 ∧ k0_cond2 (grid0.coords (ptB p)) = 1#1 ∧ ¬ k0_cond3 (grid0.coords (ptB p)) = 1#1 := by decide +kernel
theorem cond_C : ∀ p : Fin 4, ¬ k0_cond1 (grid0.coords (ptC p)) = 1#1 ∧ ¬ k0_cond2 (grid0.coords (ptC p)) = 1#1 ∧ k0_cond3 (grid0.coords (ptC p)) = 1#1 := by decide +kernel

theorem off1_A : ∀ p : Fin 4, k0_off1 (grid0.coords (ptA p)) = ![512 * p.val, 0] := by decide +kernel
theorem off2_A : ∀ p : Fin 4, k0_off2 (grid0.coords (ptA p)) = ![512 * p.val, 0] := by decide +kernel
theorem off1_B : ∀ p : Fin 4, k0_off1 (grid0.coords (ptB p)) = ![512 * p.val + 2048, 0] := by decide +kernel
theorem off2_B : ∀ p : Fin 4, k0_off2 (grid0.coords (ptB p)) = ![512 * p.val + 2048, 0] := by decide +kernel
theorem off3_B : ∀ p : Fin 4, k0_off3 (grid0.coords (ptB p)) = ![1024 * p.val, 0] := by decide +kernel
theorem off4_B : ∀ p : Fin 4, k0_off4 (grid0.coords (ptB p)) = ![1024 * p.val, 0] := by decide +kernel
theorem off5_C : ∀ p : Fin 4, k0_off5 (grid0.coords (ptC p)) = ![1024 * p.val, 2048] := by decide +kernel
theorem off6_C : ∀ p : Fin 4, k0_off6 (grid0.coords (ptC p)) = ![1024 * p.val, 0] := by decide +kernel
instance closedOff1_A (p : Fin 4) : ClosedOff (k0_off1 (grid0.coords (ptA p))) := ⟨_, off1_A p⟩
instance closedOff2_A (p : Fin 4) : ClosedOff (k0_off2 (grid0.coords (ptA p))) := ⟨_, off2_A p⟩
instance closedOff1_B (p : Fin 4) : ClosedOff (k0_off1 (grid0.coords (ptB p))) := ⟨_, off1_B p⟩
instance closedOff2_B (p : Fin 4) : ClosedOff (k0_off2 (grid0.coords (ptB p))) := ⟨_, off2_B p⟩
instance closedOff3_B (p : Fin 4) : ClosedOff (k0_off3 (grid0.coords (ptB p))) := ⟨_, off3_B p⟩
instance closedOff4_B (p : Fin 4) : ClosedOff (k0_off4 (grid0.coords (ptB p))) := ⟨_, off4_B p⟩
instance closedOff5_C (p : Fin 4) : ClosedOff (k0_off5 (grid0.coords (ptC p))) := ⟨_, off5_C p⟩
instance closedOff6_C (p : Fin 4) : ClosedOff (k0_off6 (grid0.coords (ptC p))) := ⟨_, off6_C p⟩

/-! ## What a point stores -/

/-- The scratch arrays (whole): the converted L, Y and the accumulator. -/
abbrev sc0 : Memref sig .tc .vmem S4096x4096 .bf16 := Memref.whole cc0_scratch0
abbrev sc1 : Memref sig .tc .vmem S4096x256 .bf16 := Memref.whole cc0_scratch1
abbrev sc2 : Memref sig .tc .vmem S4096x256 .bf16 := Memref.whole cc0_scratch2

/-- The boxes the body loads whole windows through. -/
abbrev rL : Rect S512x4096 := Rect.unit (s := S512x4096) ![0, 0] S512x4096.size inb_S512x4096_S512x4096_0_0
abbrev rX : Rect S4096x256 := Rect.unit (s := S4096x256) ![0, 0] S4096x256.size inb_S4096x256_S4096x256_0_0
abbrev rW0 : Rect S3x256x256 := Rect.unit (s := S3x256x256) ![0, 0, 0] S1x256x256.size inb_S3x256x256_S1x256x256_0_0_0
abbrev rW1 : Rect S3x256x256 := Rect.unit (s := S3x256x256) ![1, 0, 0] S1x256x256.size inb_S3x256x256_S1x256x256_1_0_0
abbrev rW2 : Rect S3x256x256 := Rect.unit (s := S3x256x256) ![2, 0, 0] S1x256x256.size inb_S3x256x256_S1x256x256_2_0_0
abbrev rB : Rect S1x256 := Rect.unit (s := S1x256) ![0, 0] S1x256.size inb_S1x256_S1x256_0_0
abbrev rTop : Rect S4096x256 := Rect.unit (s := S4096x256) ![0, 0] S2048x256.size inb_S4096x256_S2048x256_0_0
abbrev rBot : Rect S4096x256 := Rect.unit (s := S4096x256) ![2048, 0] S2048x256.size inb_S4096x256_S2048x256_2048_0

section Stored

variable (x0 : Vec F S512x4096 .f32) (x1 : Vec F S4096x256 .bf16) (x2 : Vec F S3x256x256 .bf16) (x3 : Vec F S1x256 .f32)

/-- The strip of L as stored, of Y, and of the accumulator (the last reads the strip's own rows of x, so it depends on
    the point `i`, a streaming one: `h`). -/
def stL : Vec F S512x4096 .bf16 := k0_pay5 (View.ld x0 rL)
def stY : Vec F S512x256 .bf16 := k0_pay7 (View.ld x0 rL) (View.ld x1 rX) (View.ld x2 rW2)
def stA (i : grid0.Coords) (h : k0_cond1 i = 1#1) : Vec F S512x256 .bf16 :=
  k0_pay1 (k0_pay8 (View.ld x2 rW0) (View.ld x2 rW2) (View.ld x1 (Rect.unit (s := S4096x256) (k0_off2 i) S512x256.size (k0_off2_inb i h))))
    (k0_pay9 (View.ld x0 rL) (View.ld x1 rX) (View.ld x2 rW1)) (View.ld x3 rB)

end Stored

/-- The accumulator's block `p` after the left half is added: from the three scratch arrays as the streaming part of the
    point left them. -/
def accB (p : Fin 4) (b6 : Vec F S4096x4096 .bf16) (b7 b8 : Vec F S4096x256 .bf16) : Vec F S1024x256 .bf16 :=
  k0_pay2 (View.ld b6 (Rect.unit (s := S4096x4096) (k0_off3 (grid0.coords (ptB p))) S1024x2048.size (k0_off3_inb _ (cond_B p).2.1)))
    (View.ld b7 rTop)
    (View.ld b8 (Rect.unit (s := S4096x256) (k0_off4 (grid0.coords (ptB p))) S1024x256.size (k0_off4_inb _ (cond_B p).2.1)))

/-- The output block `p`: from the three scratch arrays. -/
def outB (p : Fin 4) (a6 : Vec F S4096x4096 .bf16) (a7 a8 : Vec F S4096x256 .bf16) : Vec F S1024x256 .f32 :=
  k0_pay3 (View.ld a6 (Rect.unit (s := S4096x4096) (k0_off5 (grid0.coords (ptC p))) S1024x2048.size (k0_off5_inb _ (cond_C p).2.2)))
    (View.ld a7 rBot)
    (View.ld a8 (Rect.unit (s := S4096x256) (k0_off6 (grid0.coords (ptC p))) S1024x256.size (k0_off6_inb _ (cond_C p).2.2)))

/-! ## The body's three runs -/

section Runs

variable (c : Dev nD) (p : Fin 4)
  (M0 : Memref sig .tc .vmem S512x4096 .f32) (h0 : M0.IsWhole)
  (M1 : Memref sig .tc .vmem S4096x256 .bf16) (h1 : M1.IsWhole)
  (M2 : Memref sig .tc .vmem S3x256x256 .bf16) (h2 : M2.IsWhole)
  (M3 : Memref sig .tc .vmem S1x256 .f32) (h3 : M3.IsWhole)
  (M4 : Memref sig .tc .vmem S1024x256 .f32) (h4 : M4.IsWhole)
  (x0 : Vec F S512x4096 .f32) (x1 : Vec F S4096x256 .bf16) (x2 : Vec F S3x256x256 .bf16) (x3 : Vec F S1x256 .f32)
  (a6 : Vec F S4096x4096 .bf16) (a7 a8 : Vec F S4096x256 .bf16)

/-- The body at a point of grid coordinates `i`, on the five staging buffers and the three scratch arrays. -/
abbrev body (i : grid0.Coords) : Prog (TpuEff nD τ sig (Elt F) Λ₀ .tc) PUnit :=
  cc0__cheb_kernel (F := F) i M0 h0 M1 h1 M2 h2 M3 h3 M4 h4 sc0 (Memref.isWhole_whole _) sc1 (Memref.isWhole_whole _) sc2 (Memref.isWhole_whole _)

/-- Points 0..3: the three strips are stored; the output's buffer (`O`) is not touched. -/
theorem run_first (O : sProp 𝕄) (Q : PUnit → sProp 𝕄) :
    iprop(owns (c : Thread nD τ) M0 fullShare x0 ∗ owns (c : Thread nD τ) M1 fullShare x1 ∗ owns (c : Thread nD τ) M2 fullShare x2
      ∗ owns (c : Thread nD τ) M3 fullShare x3 ∗ O
      ∗ owns (c : Thread nD τ) sc0 fullShare a6 ∗ owns (c : Thread nD τ) sc1 fullShare a7 ∗ owns (c : Thread nD τ) sc2 fullShare a8
      ∗ (iprop(owns (c : Thread nD τ) M0 fullShare x0 ∗ owns (c : Thread nD τ) M1 fullShare x1 ∗ owns (c : Thread nD τ) M2 fullShare x2
          ∗ owns (c : Thread nD τ) M3 fullShare x3 ∗ O
          ∗ owns (c : Thread nD τ) sc0 fullShare (setRows (512 * p.val) a6 (stL x0))
          ∗ owns (c : Thread nD τ) sc1 fullShare (setRows (512 * p.val) a7 (stY x0 x1 x2))
          ∗ owns (c : Thread nD τ) sc2 fullShare (setRows (512 * p.val) a8 (stA x0 x1 x2 x3 (grid0.coords (ptA p)) (cond_A p).1))) -∗ Q ⟨⟩))
      ⊢ wp frame (wpE (defs₀ (F := F)) Variants.none c none) Set.univ (body M0 h0 M1 h1 M2 h2 M3 h3 M4 h4 (grid0.coords (ptA p))) Q := by
  have hc1 := (cond_A p).1
  have hc2 := (cond_A p).2.1
  have hc3 := (cond_A p).2.2
  unfold owns
  iintro ⟨⟨%f0, %hf0, H0⟩, ⟨%f1, %hf1, H1⟩, ⟨%f2, %hf2, H2⟩, ⟨%f3, %hf3, H3⟩, HO, ⟨%f6, %hf6, H6⟩, ⟨%f7, %hf7, H7⟩, ⟨%f8, %hf8, H8⟩, Hk⟩
  subst hf0 hf1 hf2 hf3 hf6 hf7 hf8
  sl_exec! (disch := assumption)
  sl_step
  iapply Hk
  isplitl [H0]; · iexists f0; isplitr; (· ipureintro; rfl); iexact H0
  isplitl [H1]; · iexists f1; isplitr; (· ipureintro; rfl); iexact H1
  isplitl [H2]; · iexists f2; isplitr; (· ipureintro; rfl); iexact H2
  isplitl [H3]; · iexists f3; isplitr; (· ipureintro; rfl); iexact H3
  isplitl [HO]; · iexact HO
  isplitl [H6]
  · iexists _; isplitr; swap; (· iexact H6); ipureintro
    exact read_writes_rows sc0.view f6 (512 * p.val) _ _ [] (off1_A p)
  isplitl [H7]
  · iexists _; isplitr; swap; (· iexact H7); ipureintro
    exact read_writes_rows sc1.view f7 (512 * p.val) _ _ [] (off2_A p)
  · iexists _; isplitr; swap; (· iexact H8); ipureintro
    exact read_writes_rows sc2.view f8 (512 * p.val) _ _ [] (off2_A p)

/-- Points 4..7: the three strips are stored, then block `p` of the accumulator gets the left half added. -/
theorem run_mid (O : sProp 𝕄) (Q : PUnit → sProp 𝕄) :
    iprop(owns (c : Thread nD τ) M0 fullShare x0 ∗ owns (c : Thread nD τ) M1 fullShare x1 ∗ owns (c : Thread nD τ) M2 fullShare x2
      ∗ owns (c : Thread nD τ) M3 fullShare x3 ∗ O
      ∗ owns (c : Thread nD τ) sc0 fullShare a6 ∗ owns (c : Thread nD τ) sc1 fullShare a7 ∗ owns (c : Thread nD τ) sc2 fullShare a8
      ∗ (iprop(owns (c : Thread nD τ) M0 fullShare x0 ∗ owns (c : Thread nD τ) M1 fullShare x1 ∗ owns (c : Thread nD τ) M2 fullShare x2
          ∗ owns (c : Thread nD τ) M3 fullShare x3 ∗ O
          ∗ owns (c : Thread nD τ) sc0 fullShare (setRows (512 * p.val + 2048) a6 (stL x0))
          ∗ owns (c : Thread nD τ) sc1 fullShare (setRows (512 * p.val + 2048) a7 (stY x0 x1 x2))
          ∗ owns (c : Thread nD τ) sc2 fullShare (setRows (1024 * p.val) (setRows (512 * p.val + 2048) a8 (stA x0 x1 x2 x3 (grid0.coords (ptB p)) (cond_B p).1))
              (accB p (setRows (512 * p.val + 2048) a6 (stL x0)) (setRows (512 * p.val + 2048) a7 (stY x0 x1 x2))
                (setRows (512 * p.val + 2048) a8 (stA x0 x1 x2 x3 (grid0.coords (ptB p)) (cond_B p).1))))) -∗ Q ⟨⟩))
      ⊢ wp frame (wpE (defs₀ (F := F)) Variants.none c none) Set.univ (body M0 h0 M1 h1 M2 h2 M3 h3 M4 h4 (grid0.coords (ptB p))) Q := by
  have hc1 := (cond_B p).1
  have hc2 := (cond_B p).2.1
  have hc3 := (cond_B p).2.2
  unfold owns
  iintro ⟨⟨%f0, %hf0, H0⟩, ⟨%f1, %hf1, H1⟩, ⟨%f2, %hf2, H2⟩, ⟨%f3, %hf3, H3⟩, HO, ⟨%f6, %hf6, H6⟩, ⟨%f7, %hf7, H7⟩, ⟨%f8, %hf8, H8⟩, Hk⟩
  subst hf0 hf1 hf2 hf3 hf6 hf7 hf8
  sl_exec! (disch := assumption)
  sl_step
  iapply Hk
  have e6 := read_writes_rows sc0.view f6 (512 * p.val + 2048) (k0_off1_inb _ hc1) (stL (M0.view.read (Elt F) f0)) [] (off1_B p)
  have e7 := read_writes_rows sc1.view f7 (512 * p.val + 2048) (k0_off2_inb _ hc1) (stY (M0.view.read (Elt F) f0) (M1.view.read (Elt F) f1) (M2.view.read (Elt F) f2)) [] (off2_B p)
  have e8 := read_writes_rows sc2.view f8 (512 * p.val + 2048) (k0_off2_inb _ hc1)
    (stA (M0.view.read (Elt F) f0) (M1.view.read (Elt F) f1) (M2.view.read (Elt F) f2) (M3.view.read (Elt F) f3) (grid0.coords (ptB p)) hc1) [] (off2_B p)
  isplitl [H0]; · iexists f0; isplitr; (· ipureintro; rfl); iexact H0
  isplitl [H1]; · iexists f1; isplitr; (· ipureintro; rfl); iexact H1
  isplitl [H2]; · iexists f2; isplitr; (· ipureintro; rfl); iexact H2
  isplitl [H3]; · iexists f3; isplitr; (· ipureintro; rfl); iexact H3
  isplitl [HO]; · iexact HO
  isplitl [H6]
  · iexists _; isplitr; swap; (· iexact H6); ipureintro
    exact e6
  isplitl [H7]
  · iexists _; isplitr; swap; (· iexact H7); ipureintro
    exact e7
  · iexists _; isplitr; swap; (· iexact H8); ipureintro
    refine (read_writes_rows sc2.view f8 (1024 * p.val) (k0_off4_inb _ hc2) _ _ (off4_B p)).trans ?_
    have key : ∀ (u6 : Vec F S4096x4096 .bf16) (u7 u8 : Vec F S4096x256 .bf16),
        u6 = setRows (512 * p.val + 2048) (sc0.view.read (Elt F) f6) (stL (M0.view.read (Elt F) f0)) →
        u7 = setRows (512 * p.val + 2048) (sc1.view.read (Elt F) f7) (stY (M0.view.read (Elt F) f0) (M1.view.read (Elt F) f1) (M2.view.read (Elt F) f2)) →
        u8 = setRows (512 * p.val + 2048) (sc2.view.read (Elt F) f8) (stA (M0.view.read (Elt F) f0) (M1.view.read (Elt F) f1) (M2.view.read (Elt F) f2) (M3.view.read (Elt F) f3) (grid0.coords (ptB p)) hc1) →
        setRows (1024 * p.val) u8 (accB p u6 u7 u8)
          = setRows (1024 * p.val) (setRows (512 * p.val + 2048) (sc2.view.read (Elt F) f8) (stA (M0.view.read (Elt F) f0) (M1.view.read (Elt F) f1) (M2.view.read (Elt F) f2) (M3.view.read (Elt F) f3) (grid0.coords (ptB p)) (cond_B p).1))
              (accB p (setRows (512 * p.val + 2048) (sc0.view.read (Elt F) f6) (stL (M0.view.read (Elt F) f0))) (setRows (512 * p.val + 2048) (sc1.view.read (Elt F) f7) (stY (M0.view.read (Elt F) f0) (M1.view.read (Elt F) f1) (M2.view.read (Elt F) f2)))
                (setRows (512 * p.val + 2048) (sc2.view.read (Elt F) f8) (stA (M0.view.read (Elt F) f0) (M1.view.read (Elt F) f1) (M2.view.read (Elt F) f2) (M3.view.read (Elt F) f3) (grid0.coords (ptB p)) (cond_B p).1))) := by
      intro u6 u7 u8 h6 h7 h8; subst h6 h7 h8; rfl
    exact key _ _ _ e6 e7 e8

/-- Every row replaced: the new rows. -/
theorem setRows_all {α : Type} {n k : ℕ} (a w : (⟨2, ![n, k]⟩ : Shape).Idx → α) : setRows 0 a w = w := by
  funext y
  rw [setRows_in 0 a w y ⟨Nat.zero_le _, by have := idx2_lt0 y; omega⟩]
  exact congrArg w (funext fun d => Fin.ext (by match d with | ⟨0, _⟩ => rfl | ⟨1, _⟩ => rfl))

/-- Points 8..11: the output's buffer gets block `p`; the scratch arrays are only read. -/
theorem run_last (Q : PUnit → sProp 𝕄) :
    iprop(owns (c : Thread nD τ) M0 fullShare x0 ∗ owns (c : Thread nD τ) M1 fullShare x1 ∗ owns (c : Thread nD τ) M2 fullShare x2
      ∗ owns (c : Thread nD τ) M3 fullShare x3 ∗ (∃ d, owns (c : Thread nD τ) M4 fullShare d)
      ∗ owns (c : Thread nD τ) sc0 fullShare a6 ∗ owns (c : Thread nD τ) sc1 fullShare a7 ∗ owns (c : Thread nD τ) sc2 fullShare a8
      ∗ (iprop(owns (c : Thread nD τ) M0 fullShare x0 ∗ owns (c : Thread nD τ) M1 fullShare x1 ∗ owns (c : Thread nD τ) M2 fullShare x2
          ∗ owns (c : Thread nD τ) M3 fullShare x3 ∗ owns (c : Thread nD τ) M4 fullShare (outB p a6 a7 a8)
          ∗ owns (c : Thread nD τ) sc0 fullShare a6 ∗ owns (c : Thread nD τ) sc1 fullShare a7 ∗ owns (c : Thread nD τ) sc2 fullShare a8) -∗ Q ⟨⟩))
      ⊢ wp frame (wpE (defs₀ (F := F)) Variants.none c none) Set.univ (body M0 h0 M1 h1 M2 h2 M3 h3 M4 h4 (grid0.coords (ptC p))) Q := by
  have hc1 := (cond_C p).1
  have hc2 := (cond_C p).2.1
  have hc3 := (cond_C p).2.2
  unfold owns
  iintro ⟨⟨%f0, %hf0, H0⟩, ⟨%f1, %hf1, H1⟩, ⟨%f2, %hf2, H2⟩, ⟨%f3, %hf3, H3⟩, ⟨%d4, %f4, %hf4, H4⟩, ⟨%f6, %hf6, H6⟩, ⟨%f7, %hf7, H7⟩, ⟨%f8, %hf8, H8⟩, Hk⟩
  subst hf0 hf1 hf2 hf3 hf6 hf7 hf8
  sl_exec! (disch := assumption)
  sl_step
  iapply Hk
  isplitl [H0]; · iexists f0; isplitr; (· ipureintro; rfl); iexact H0
  isplitl [H1]; · iexists f1; isplitr; (· ipureintro; rfl); iexact H1
  isplitl [H2]; · iexists f2; isplitr; (· ipureintro; rfl); iexact H2
  isplitl [H3]; · iexists f3; isplitr; (· ipureintro; rfl); iexact H3
  isplitl [H4]
  · iexists _; isplitr; swap; (· iexact H4); ipureintro
    exact (read_writes_rows M4.view M4.view.junk 0 inb_S1024x256_S1024x256_0_0 _ [] rfl).trans (setRows_all _ _)
  isplitl [H6]; · iexists f6; isplitr; (· ipureintro; rfl); iexact H6
  isplitl [H7]; · iexists f7; isplitr; (· ipureintro; rfl); iexact H7
  · iexists f8; isplitr; (· ipureintro; rfl); iexact H8

end Runs

end Cert.KernelIdeal.Body

end
-- ==== Proof.ChebInv.lean ====
/-
  The scratch arrays in closed form, for any float instance.

  Row r of the converted L, of Y and of the streamed accumulator depends only on strip r / 512 of L (and on x, the
  weights and the bias); block q of the accumulator after the left half is added, and output block q, depend on
  those whole arrays. `Inv s` says that after `s` strips (and `s - 4` left halves) the three scratch arrays agree
  with these closed forms on the rows written so far; each kind of point preserves it, and once all eight strips are in,
  the output block a point writes is the closed form's.
-/
import proofs.«145050_g80676665688617_cont_sun_m_757_33_alg».proof.Proof.ChebBody

set_option maxRecDepth 16384

noncomputable section

namespace Cert.KernelIdeal.Body

open Cert.KernelIdeal Cert.KernelIdeal.Gen
open Idealize.ShloMosaic Idealize.ShloMosaic.ValueIdx

variable {F : FTy → Type} [FloatOps F]

/-- The strip (of 512 rows) and the block (of 1024 rows) a row lies in. -/
def stripOf (r : Fin 4096) : Fin 8 := ⟨r.val / 512, by have := r.isLt; omega⟩
def blockOf (r : Fin 4096) : Fin 4 := ⟨r.val / 1024, by have := r.isLt; omega⟩
/-- The streaming point of strip `j`. -/
def ptS (j : Fin 8) : Fin grid0.N := ⟨j.val, by have := j.isLt; have : grid0.N = 12 := N_0; omega⟩
theorem cond1_S : ∀ j : Fin 8, k0_cond1 (grid0.coords (ptS j)) = 1#1 := by decide +kernel

/-- Two matrices that agree on rows `o .. o + W - 1` load the same through a box of those rows. -/
theorem ld_congr_rows {α : EltTy} {n k W K : ℕ} (a b : (⟨2, ![n, k]⟩ : Shape).Idx → Elt F α) {off : Fin 2 → ℕ}
    (inb : ∀ d : Fin 2, off d + (![W, K] : Fin 2 → ℕ) d ≤ (![n, k] : Fin 2 → ℕ) d) (o : ℕ) (hoff : off 0 = o)
    (h : ∀ y : (⟨2, ![n, k]⟩ : Shape).Idx, o ≤ (y 0).val → (y 0).val < o + W → a y = b y) :
    View.ld a (Rect.unit (s := ⟨2, ![n, k]⟩) off ![W, K] inb) = View.ld b (Rect.unit (s := ⟨2, ![n, k]⟩) off ![W, K] inb) :=
  funext fun x => h _ (by show o ≤ off 0 + 1 * (x 0).val; omega)
    (by have hx : (x 0).val < W := (x 0).isLt; show off 0 + 1 * (x 0).val < o + W; omega)

section Spec

variable (X0 : Fin 8 → Vec F S512x4096 .f32) (X1 : Vec F S4096x256 .bf16) (X2 : Vec F S3x256x256 .bf16) (X3 : Vec F S1x256 .f32)

/-- The converted L, Y = 2 (T1 W2), and the streamed accumulator x (W0 - W2) + T1 W1 + b, row by row from the strips. -/
def LBn : Vec F S4096x4096 .bf16 := fun y =>
  stL (X0 (stripOf (y 0))) (ix2 ⟨(y 0).val % 512, Nat.mod_lt _ (by norm_num)⟩ (y 1))
def YYn : Vec F S4096x256 .bf16 := fun y =>
  stY (X0 (stripOf (y 0))) X1 X2 (ix2 ⟨(y 0).val % 512, Nat.mod_lt _ (by norm_num)⟩ (y 1))
def stAj (j : Fin 8) : Vec F S512x256 .bf16 := stA (X0 j) X1 X2 X3 (grid0.coords (ptS j)) (cond1_S j)
def A1n : Vec F S4096x256 .bf16 := fun y =>
  stAj X0 X1 X2 X3 (stripOf (y 0)) (ix2 ⟨(y 0).val % 512, Nat.mod_lt _ (by norm_num)⟩ (y 1))
/-- The accumulator with the left half of the second product added, block by block. -/
def A2n : Vec F S4096x256 .bf16 := fun y =>
  accB (blockOf (y 0)) (LBn X0) (YYn X0 X1 X2) (A1n X0 X1 X2 X3) (ix2 ⟨(y 0).val % 1024, Nat.mod_lt _ (by norm_num)⟩ (y 1))
/-- Output block `q`. -/
def OUTn (q : Fin 4) : Vec F S1024x256 .f32 := outB q (LBn X0) (YYn X0 X1 X2) (A2n X0 X1 X2 X3)

theorem LBn_row (j : Fin 8) (y : S4096x4096.Idx) (h : 512 * j.val ≤ (y 0).val ∧ (y 0).val < 512 * j.val + 512) :
    LBn X0 y = stL (X0 j) (ix2 ⟨(y 0).val - 512 * j.val, by omega⟩ (y 1)) := by
  unfold LBn
  have hs : stripOf (y 0) = j := Fin.ext (by show (y 0).val / 512 = j.val; omega)
  rw [hs]
  exact congrArg (fun a => stL (X0 j) (ix2 a (y 1))) (Fin.ext (by show (y 0).val % 512 = (y 0).val - 512 * j.val; omega))

theorem YYn_row (j : Fin 8) (y : S4096x256.Idx) (h : 512 * j.val ≤ (y 0).val ∧ (y 0).val < 512 * j.val + 512) :
    YYn X0 X1 X2 y = stY (X0 j) X1 X2 (ix2 ⟨(y 0).val - 512 * j.val, by omega⟩ (y 1)) := by
  unfold YYn
  have hs : stripOf (y 0) = j := Fin.ext (by show (y 0).val / 512 = j.val; omega)
  rw [hs]
  exact congrArg (fun a => stY (X0 j) X1 X2 (ix2 a (y 1))) (Fin.ext (by show (y 0).val % 512 = (y 0).val - 512 * j.val; omega))

theorem A1n_row (j : Fin 8) (y : S4096x256.Idx) (h : 512 * j.val ≤ (y 0).val ∧ (y 0).val < 512 * j.val + 512) :
    A1n X0 X1 X2 X3 y = stA (X0 j) X1 X2 X3 (grid0.coords (ptS j)) (cond1_S j) (ix2 ⟨(y 0).val - 512 * j.val, by omega⟩ (y 1)) := by
  unfold A1n
  have hs : stripOf (y 0) = j := Fin.ext (by show (y 0).val / 512 = j.val; omega)
  rw [hs]
  exact congrArg (fun a => stAj X0 X1 X2 X3 j (ix2 a (y 1)))
    (Fin.ext (by show (y 0).val % 512 = (y 0).val - 512 * j.val; omega))

theorem A2n_row (q : Fin 4) (y : S4096x256.Idx) (h : 1024 * q.val ≤ (y 0).val ∧ (y 0).val < 1024 * q.val + 1024) :
    A2n X0 X1 X2 X3 y = accB q (LBn X0) (YYn X0 X1 X2) (A1n X0 X1 X2 X3) (ix2 ⟨(y 0).val - 1024 * q.val, by omega⟩ (y 1)) := by
  unfold A2n
  have hs : blockOf (y 0) = q := Fin.ext (by show (y 0).val / 1024 = q.val; omega)
  rw [hs]
  exact congrArg (fun a => accB q (LBn X0) (YYn X0 X1 X2) (A1n X0 X1 X2 X3) (ix2 a (y 1)))
    (Fin.ext (by show (y 0).val % 1024 = (y 0).val - 1024 * q.val; omega))

/-- After `s` strips: the first two scratch arrays agree with the closed forms on rows below `512 s`; the third with the
    completed accumulator on the blocks whose left half is in (`s - 4` of them), with the streamed one on the rest. -/
structure Inv (s : ℕ) (a6 : Vec F S4096x4096 .bf16) (a7 a8 : Vec F S4096x256 .bf16) : Prop where
  h6 : ∀ y : S4096x4096.Idx, (y 0).val < 512 * s → a6 y = LBn X0 y
  h7 : ∀ y : S4096x256.Idx, (y 0).val < 512 * s → a7 y = YYn X0 X1 X2 y
  h8a : ∀ y : S4096x256.Idx, (y 0).val < 1024 * (s - 4) → a8 y = A2n X0 X1 X2 X3 y
  h8b : ∀ y : S4096x256.Idx, 1024 * (s - 4) ≤ (y 0).val → (y 0).val < 512 * s → a8 y = A1n X0 X1 X2 X3 y

theorem inv_zero (a6 : Vec F S4096x4096 .bf16) (a7 a8 : Vec F S4096x256 .bf16) : Inv X0 X1 X2 X3 0 a6 a7 a8 :=
  ⟨fun y h => absurd h (by omega), fun y h => absurd h (by omega), fun y h => absurd h (by omega), fun y _ h => absurd h (by omega)⟩

variable {a6 : Vec F S4096x4096 .bf16} {a7 a8 : Vec F S4096x256 .bf16}

/-- A strip stored keeps agreement on the earlier rows and adds its own. -/
theorem agree_strip6 (j : Fin 8) (o : ℕ) (ho : o = 512 * j.val) (h : ∀ y : S4096x4096.Idx, (y 0).val < 512 * j.val → a6 y = LBn X0 y) (y : S4096x4096.Idx)
    (hy : (y 0).val < 512 * (j.val + 1)) : setRows o a6 (stL (X0 j)) y = LBn X0 y := by
  subst ho
  by_cases hlt : (y 0).val < 512 * j.val
  · rw [setRows_out _ _ _ y (Or.inl hlt)]; exact h y hlt
  · rw [setRows_in _ _ _ y ⟨by omega, by omega⟩, LBn_row X0 j y ⟨by omega, by omega⟩]

theorem agree_strip7 (j : Fin 8) (o : ℕ) (ho : o = 512 * j.val) (h : ∀ y : S4096x256.Idx, (y 0).val < 512 * j.val → a7 y = YYn X0 X1 X2 y) (y : S4096x256.Idx)
    (hy : (y 0).val < 512 * (j.val + 1)) : setRows o a7 (stY (X0 j) X1 X2) y = YYn X0 X1 X2 y := by
  subst ho
  by_cases hlt : (y 0).val < 512 * j.val
  · rw [setRows_out _ _ _ y (Or.inl hlt)]; exact h y hlt
  · rw [setRows_in _ _ _ y ⟨by omega, by omega⟩, YYn_row X0 X1 X2 j y ⟨by omega, by omega⟩]

theorem agree_strip8 (j : Fin 8) (o : ℕ) (ho : o = 512 * j.val) (lo : ℕ) (h : ∀ y : S4096x256.Idx, lo ≤ (y 0).val → (y 0).val < 512 * j.val → a8 y = A1n X0 X1 X2 X3 y)
    (y : S4096x256.Idx) (hlo : lo ≤ (y 0).val) (hy : (y 0).val < 512 * (j.val + 1)) :
    setRows o a8 (stA (X0 j) X1 X2 X3 (grid0.coords (ptS j)) (cond1_S j)) y = A1n X0 X1 X2 X3 y := by
  subst ho
  by_cases hlt : (y 0).val < 512 * j.val
  · rw [setRows_out _ _ _ y (Or.inl hlt)]; exact h y hlo hlt
  · rw [setRows_in _ _ _ y ⟨by omega, by omega⟩, A1n_row X0 X1 X2 X3 j y ⟨by omega, by omega⟩]

/-- Points 0..3 (strip `p`): no left half yet. -/
theorem inv_first (p : Fin 4) (hI : Inv X0 X1 X2 X3 p.val a6 a7 a8) :
    Inv X0 X1 X2 X3 (p.val + 1) (setRows (512 * p.val) a6 (stL (X0 ⟨p.val, by have := p.isLt; omega⟩)))
      (setRows (512 * p.val) a7 (stY (X0 ⟨p.val, by have := p.isLt; omega⟩) X1 X2))
      (setRows (512 * p.val) a8 (stA (X0 ⟨p.val, by have := p.isLt; omega⟩) X1 X2 X3 (grid0.coords (ptA p)) (cond_A p).1)) := by
  have hp := p.isLt
  exact ⟨fun y hy => agree_strip6 X0 ⟨p.val, by omega⟩ _ rfl hI.h6 y hy,
    fun y hy => agree_strip7 X0 X1 X2 ⟨p.val, by omega⟩ _ rfl hI.h7 y hy,
    fun y hy => absurd hy (by omega),
    fun y _ hy => agree_strip8 X0 X1 X2 X3 ⟨p.val, by omega⟩ _ rfl 0 (fun y _ h => hI.h8b y (by omega) h) y (Nat.zero_le _) hy⟩

/-- Points 4..7 (strip `p + 4`, then the left half of block `p`): the block's rows of the first and third arrays, and the
    top 2048 rows of the second, are all in by then, so the block added is the closed form's. -/
theorem inv_mid (p : Fin 4) (hI : Inv X0 X1 X2 X3 (p.val + 4) a6 a7 a8)
    (b6 : Vec F S4096x4096 .bf16) (b7 b8 : Vec F S4096x256 .bf16)
    (hb6 : b6 = setRows (512 * p.val + 2048) a6 (stL (X0 ⟨p.val + 4, by have := p.isLt; omega⟩)))
    (hb7 : b7 = setRows (512 * p.val + 2048) a7 (stY (X0 ⟨p.val + 4, by have := p.isLt; omega⟩) X1 X2))
    (hb8 : b8 = setRows (512 * p.val + 2048) a8 (stA (X0 ⟨p.val + 4, by have := p.isLt; omega⟩) X1 X2 X3 (grid0.coords (ptB p)) (cond_B p).1)) :
    Inv X0 X1 X2 X3 (p.val + 5) b6 b7 (setRows (1024 * p.val) b8 (accB p b6 b7 b8)) := by
  have hp := p.isLt
  have g6 : ∀ y : S4096x4096.Idx, (y 0).val < 512 * (p.val + 5) → b6 y = LBn X0 y := fun y hy => by
    rw [hb6]; exact agree_strip6 X0 ⟨p.val + 4, by omega⟩ _ (by show 512 * p.val + 2048 = 512 * (p.val + 4); omega) hI.h6 y hy
  have g7 : ∀ y : S4096x256.Idx, (y 0).val < 512 * (p.val + 5) → b7 y = YYn X0 X1 X2 y := fun y hy => by
    rw [hb7]; exact agree_strip7 X0 X1 X2 ⟨p.val + 4, by omega⟩ _ (by show 512 * p.val + 2048 = 512 * (p.val + 4); omega) hI.h7 y hy
  have g8 : ∀ y : S4096x256.Idx, 1024 * p.val ≤ (y 0).val → (y 0).val < 512 * (p.val + 5) → b8 y = A1n X0 X1 X2 X3 y := fun y hlo hy => by
    rw [hb8]; exact agree_strip8 X0 X1 X2 X3 ⟨p.val + 4, by omega⟩ _ (by show 512 * p.val + 2048 = 512 * (p.val + 4); omega) (1024 * p.val)
      (fun y hl h => hI.h8b y (by omega) h) y hlo hy
  have g8lo : ∀ y : S4096x256.Idx, (y 0).val < 1024 * p.val → b8 y = A2n X0 X1 X2 X3 y := fun y h => by
    rw [hb8, setRows_out _ _ _ y (Or.inl (by omega))]; exact hI.h8a y (by omega)
  have e6 : View.ld b6 (Rect.unit (s := S4096x4096) (k0_off3 (grid0.coords (ptB p))) S1024x2048.size (k0_off3_inb _ (cond_B p).2.1))
      = View.ld (LBn X0) (Rect.unit (s := S4096x4096) (k0_off3 (grid0.coords (ptB p))) S1024x2048.size (k0_off3_inb _ (cond_B p).2.1)) :=
    ld_congr_rows b6 (LBn X0) _ (1024 * p.val) (by rw [off3_B]; rfl) (fun y h1 h2 => g6 y (by omega))
  have e7 : View.ld b7 rTop = View.ld (YYn X0 X1 X2) rTop :=
    ld_congr_rows b7 (YYn X0 X1 X2) _ 0 rfl (fun y h1 h2 => g7 y (by omega))
  have e8 : View.ld b8 (Rect.unit (s := S4096x256) (k0_off4 (grid0.coords (ptB p))) S1024x256.size (k0_off4_inb _ (cond_B p).2.1))
      = View.ld (A1n X0 X1 X2 X3) (Rect.unit (s := S4096x256) (k0_off4 (grid0.coords (ptB p))) S1024x256.size (k0_off4_inb _ (cond_B p).2.1)) :=
    ld_congr_rows b8 (A1n X0 X1 X2 X3) _ (1024 * p.val) (by rw [off4_B]; rfl) (fun y h1 h2 => g8 y h1 (by omega))
  have hacc : accB p b6 b7 b8 = accB p (LBn X0) (YYn X0 X1 X2) (A1n X0 X1 X2 X3) := by
    unfold accB; rw [e6, e7, e8]
  refine ⟨g6, g7, fun y hy => ?_, fun y hlo hy => ?_⟩
  · by_cases hlt : (y 0).val < 1024 * p.val
    · rw [setRows_out _ _ _ y (Or.inl hlt)]; exact g8lo y hlt
    · rw [setRows_in _ _ _ y ⟨by omega, by omega⟩, A2n_row X0 X1 X2 X3 p y ⟨by omega, by omega⟩, hacc]
  · rw [setRows_out _ _ _ y (Or.inr (by omega))]; exact g8 y (by omega) hy

/-- Points 8..11: all eight strips and all four left halves are in, so the block written is the closed form's. -/
theorem out_last (p : Fin 4) (hI : Inv X0 X1 X2 X3 8 a6 a7 a8) : outB p a6 a7 a8 = OUTn X0 X1 X2 X3 p := by
  have e6 : a6 = LBn X0 := funext fun y => hI.h6 y (by have := idx2_lt0 y; omega)
  have e7 : a7 = YYn X0 X1 X2 := funext fun y => hI.h7 y (by have := idx2_lt0 y; omega)
  have e8 : a8 = A2n X0 X1 X2 X3 := funext fun y => hI.h8a y (by have := idx2_lt0 y; omega)
  subst e6 e7 e8; rfl

end Spec

end Cert.KernelIdeal.Body

end
-- ==== Proof.ChebFrame.lean ====
/-
  The frame run of the Chebyshev graph-convolution kernel, for any float instance.

  The proof data: every input window's staging buffer holds the window's block of its array at every point; the
  region's invariant before point n > 0 holds the three scratch arrays at contents that agree with the closed forms
  of Proof/ChebInv.lean on the rows written by then (before point 0 they hold anything); the output window is
  idle at points 0..7 and at point 8 + p holds the closed form's block p. The body obligation is the three runs of
  Proof/ChebBody.lean, one per kind of point.
-/
import proofs.«145050_g80676665688617_cont_sun_m_757_33_alg».proof.Proof.Gen.KernelIdeal.Frame
import proofs.«145050_g80676665688617_cont_sun_m_757_33_alg».proof.Proof.ChebInv

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The points, and the output window's schedule -/

theorem pt_cases (t : Fin cfg0.N) : (∃ p, t = ptA p) ∨ (∃ p, t = ptB p) ∨ (∃ p, t = ptC p) := by
  have hN : t.val < 12 := lt_of_lt_of_eq t.isLt N_0
  by_cases h1 : t.val < 4
  · exact Or.inl ⟨⟨t.val, h1⟩, Fin.ext rfl⟩
  · by_cases h2 : t.val < 8
    · exact Or.inr (Or.inl ⟨⟨t.val - 4, by omega⟩, Fin.ext (by show t.val = t.val - 4 + 4; omega)⟩)
    · exact Or.inr (Or.inr ⟨⟨t.val - 8, by omega⟩, Fin.ext (by show t.val = t.val - 8 + 8; omega)⟩)

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem idle4_A : ∀ p : Fin 4, cfg0.idle 4 (grid0.coords (ptA p)) = true := by decide +kernel
theorem idle4_B : ∀ p : Fin 4, cfg0.idle 4 (grid0.coords (ptB p)) = true := by decide +kernel
theorem live4_C : ∀ p : Fin 4, cfg0.idle 4 (grid0.coords (ptC p)) = false := by decide +kernel
theorem noFlush4_A : ∀ p : Fin 4, (cfg0.win 4).flush (ptA p) = false := by decide +kernel
theorem noFlush4_B : ∀ p : Fin 4, (cfg0.win 4).flush (ptB p) = false := by decide +kernel

/-! ## The inputs as the body finds them -/

/-- Strip `j` of L, and x, the weights and the bias row (each the one block of its window). -/
def X0 (c : Dev nD) (j : Fin 8) : Vec F S512x4096 .f32 := iblk m c 0 (ptS j)
def X1 (c : Dev nD) : Vec F S4096x256 .bf16 := iblk m c 1 (ptS 0)
def X2 (c : Dev nD) : Vec F S3x256x256 .bf16 := iblk m c 2 (ptS 0)
def X3 (c : Dev nD) : Vec F S1x256 .f32 := iblk m c 3 (ptS 0)

theorem iblk1_eq (c : Dev nD) (t : Fin cfg0.N) : (iblk m c 1 t : Vec F S4096x256 .bf16) = X1 m c := rfl
theorem iblk2_eq (c : Dev nD) (t : Fin cfg0.N) : (iblk m c 2 t : Vec F S3x256x256 .bf16) = X2 m c := rfl
theorem iblk3_eq (c : Dev nD) (t : Fin cfg0.N) : (iblk m c 3 t : Vec F S1x256 .f32) = X3 m c := rfl

/-- The block of the output window a point leaves: block `p` at point `8 + p` (at the idle points nothing reads it). -/
def outAt (c : Dev nD) (t : Fin cfg0.N) : Vec F S1024x256 .f32 :=
  OUTn (X0 m c) (X1 m c) (X2 m c) (X3 m c) ⟨(t.val - 8) % 4, Nat.mod_lt _ (by norm_num)⟩

theorem outAt_C (c : Dev nD) (p : Fin 4) : outAt m c (ptC p) = OUTn (X0 m c) (X1 m c) (X2 m c) (X3 m c) p := by
  unfold outAt
  exact congrArg _ (Fin.ext (by show (p.val + 8 - 8) % 4 = p.val; have := p.isLt; omega))

/-! ## The invariant and the proof data -/

/-- The class invariant with the three scratch arrays as memrefs owned at some contents. -/
theorem PhiA0_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d)) ∗ (∃ r, prngReg c r)) := by
  unfold Pipeline.ΦA; rw [scopedRest0_eq]; simp only [sc0, sc1, sc2, owns_whole]; try rfl

/-- The scratch arrays at contents that agree with the closed forms after `s` strips, and the generator register. -/
def Held (c : Dev nD) (s : ℕ) : sProp 𝕄 :=
  iprop((∃ a6 a7 a8, owns (c : Thread nD τ) sc0 fullShare a6 ∗ owns (c : Thread nD τ) sc1 fullShare a7 ∗ owns (c : Thread nD τ) sc2 fullShare a8
      ∗ ⌜Inv (X0 m c) (X1 m c) (X2 m c) (X3 m c) s a6 a7 a8⌝) ∗ (∃ r, prngReg c r))

/-- The region invariant before point `n`. -/
def PhiS (c : Dev nD) : ℕ → sProp 𝕄
  | 0 => Pipeline.ΦA spec0 c
  | n + 1 => Held m c (min (n + 1) 8)

/-- Before any point the scratch arrays are held in agreement with the closed forms on the rows written so far. -/
theorem PhiS_held (c : Dev nD) (n : ℕ) : PhiS m c n ⊢ Held m c (min n 8) := by
  cases n with
  | zero =>
    show Pipeline.ΦA spec0 c ⊢ Held m c 0
    rw [PhiA0_eq]; unfold Held
    iintro ⟨⟨⟨%a6, H6⟩, ⟨%a7, H7⟩, ⟨%a8, H8⟩⟩, Hg⟩
    isplitr [Hg]
    · iexists a6; iexists a7; iexists a8
      isplitl [H6]; · iexact H6
      isplitl [H7]; · iexact H7
      isplitl [H8]; · iexact H8
      ipureintro; exact inv_zero _ _ _ _ _ _ _
    · iexact Hg
  | succ n => exact Entails.refl _

/-- The scratch arrays held in any agreement give the class invariant back. -/
theorem Held_out (c : Dev nD) (s : ℕ) : Held m c s ⊢ Pipeline.ΦA spec0 c := by
  rw [PhiA0_eq]; unfold Held
  iintro ⟨⟨%a6, %a7, %a8, H6, H7, H8, -⟩, Hg⟩
  isplitr [Hg]
  · isplitl [H6]; · iexists a6; iexact H6
    isplitl [H7]; · iexists a7; iexact H7
    iexists a8; iexact H8
  · iexact Hg

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ t := PhiS m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

theorem iblk0_A (c : Dev nD) (p : Fin 4) : (iblk m c 0 (ptA p) : Vec F S512x4096 .f32) = X0 m c ⟨p.val, by have := p.isLt; omega⟩ := rfl
theorem iblk0_B (c : Dev nD) (p : Fin 4) : (iblk m c 0 (ptB p) : Vec F S512x4096 .f32) = X0 m c ⟨p.val + 4, by have := p.isLt; omega⟩ := rfl

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

set_option maxHeartbeats 1600000 in
/-- Points 0..3. -/
theorem sound_A (c : Dev nD) (p : Fin 4) :
    bodyPre m c (ptA p) ⊢ wp frame (wpE (defs₀ (F := F)) Variants.none c none) Set.univ (bodyAt0 (ptA p)) (fun _ => bodyPost m c (ptA p)) := by
  unfold bodyPre bodyPost bodyAt0
  simp only [before0_0, before0_1, before0_2, before0_3]
  rw [show (dats m 0 c).owesAt () (ptA p).succ = (dats m 0 c).owesAt () (ptA p).castSucc from rfl]
  rw [show (dats m 0 c).leavesExact 0 (ptA p) = owns (c : Thread nD τ) (st0_0 (ptA p)) fullShare ((dats m 0 c).after 0 (ptA p)) from by
    unfold Dat.leavesExact; rw [live0 (ptA p)], after0_0]
  rw [show (dats m 0 c).leavesExact 1 (ptA p) = owns (c : Thread nD τ) (st0_1 (ptA p)) fullShare ((dats m 0 c).after 1 (ptA p)) from by
    unfold Dat.leavesExact; rw [live1 (ptA p)], after0_1]
  rw [show (dats m 0 c).leavesExact 2 (ptA p) = owns (c : Thread nD τ) (st0_2 (ptA p)) fullShare ((dats m 0 c).after 2 (ptA p)) from by
    unfold Dat.leavesExact; rw [live2 (ptA p)], after0_2]
  rw [show (dats m 0 c).leavesExact 3 (ptA p) = owns (c : Thread nD τ) (st0_3 (ptA p)) fullShare ((dats m 0 c).after 3 (ptA p)) from by
    unfold Dat.leavesExact; rw [live3 (ptA p)], after0_3]
  rw [Dat.leavesExact_idle (dats m 0 c) 4 (ptA p) (idle4_A p) (noFlush4_A p)]
  rw [iblk0_A m c p, iblk1_eq m c (ptA p), iblk2_eq m c (ptA p), iblk3_eq m c (ptA p)]
  have hmin : min (p.val + 1) 8 = p.val + 1 := by have := p.isLt; omega
  have hmin' : min p.val 8 = p.val := by have := p.isLt; omega
  rw [show (dats m 0 c).Φ (ptA p).succ = Held m c (min (p.val + 1) 8) from rfl,
    show (dats m 0 c).Φ (ptA p).castSucc = PhiS m c p.val from rfl, hmin]
  have hΦ : PhiS m c p.val ⊢ Held m c p.val := (PhiS_held m c p.val).trans (by rw [hmin'])
  unfold Held at hΦ ⊢
  iintro ⟨HP, Ho, ⟨%d0, H0⟩, ⟨%d1, H1⟩, ⟨%d2, H2⟩, ⟨%d3, H3⟩, H4⟩
  ihave HP' := (hΦ) $$ HP
  icases HP' with ⟨⟨%a6, %a7, %a8, H6, H7, H8, %hI⟩, Hg⟩
  iapply (run_first c p _ _ _ _ _ _ _ _ _ _ (X0 m c ⟨p.val, by have := p.isLt; omega⟩) (X1 m c) (X2 m c) (X3 m c) a6 a7 a8 _ _)
  isplitl [H0]; · iexact H0
  isplitl [H1]; · iexact H1
  isplitl [H2]; · iexact H2
  isplitl [H3]; · iexact H3
  isplitl [H4]; · iexact H4
  isplitl [H6]; · iexact H6
  isplitl [H7]; · iexact H7
  isplitl [H8]; · iexact H8
  iintro ⟨H0, H1, H2, H3, H4, H6, H7, H8⟩
  isplitl [H6 H7 H8 Hg]
  · isplitr [Hg]
    · iexists _; iexists _; iexists _
      isplitl [H6]; · iexact H6
      isplitl [H7]; · iexact H7
      isplitl [H8]; · iexact H8
      ipureintro
      exact inv_first (X0 m c) (X1 m c) (X2 m c) (X3 m c) p hI
    · iexact Hg
  isplitl [Ho]; · iexact Ho
  isplitl [H0]; · iexact H0
  isplitl [H1]; · iexact H1
  isplitl [H2]; · iexact H2
  isplitl [H3]; · iexact H3
  iexact H4

set_option maxHeartbeats 1600000 in
/-- Points 4..7. -/
theorem sound_B (c : Dev nD) (p : Fin 4) :
    bodyPre m c (ptB p) ⊢ wp frame (wpE (defs₀ (F := F)) Variants.none c none) Set.univ (bodyAt0 (ptB p)) (fun _ => bodyPost m c (ptB p)) := by
  unfold bodyPre bodyPost bodyAt0
  simp only [before0_0, before0_1, before0_2, before0_3]
  rw [show (dats m 0 c).owesAt () (ptB p).succ = (dats m 0 c).owesAt () (ptB p).castSucc from rfl]
  rw [show (dats m 0 c).leavesExact 0 (ptB p) = owns (c : Thread nD τ) (st0_0 (ptB p)) fullShare ((dats m 0 c).after 0 (ptB p)) from by
    unfold Dat.leavesExact; rw [live0 (ptB p)], after0_0]
  rw [show (dats m 0 c).leavesExact 1 (ptB p) = owns (c : Thread nD τ) (st0_1 (ptB p)) fullShare ((dats m 0 c).after 1 (ptB p)) from by
    unfold Dat.leavesExact; rw [live1 (ptB p)], after0_1]
  rw [show (dats m 0 c).leavesExact 2 (ptB p) = owns (c : Thread nD τ) (st0_2 (ptB p)) fullShare ((dats m 0 c).after 2 (ptB p)) from by
    unfold Dat.leavesExact; rw [live2 (ptB p)], after0_2]
  rw [show (dats m 0 c).leavesExact 3 (ptB p) = owns (c : Thread nD τ) (st0_3 (ptB p)) fullShare ((dats m 0 c).after 3 (ptB p)) from by
    unfold Dat.leavesExact; rw [live3 (ptB p)], after0_3]
  rw [Dat.leavesExact_idle (dats m 0 c) 4 (ptB p) (idle4_B p) (noFlush4_B p)]
  rw [iblk0_B m c p, iblk1_eq m c (ptB p), iblk2_eq m c (ptB p), iblk3_eq m c (ptB p)]
  have hmin : min (p.val + 4 + 1) 8 = p.val + 5 := by have := p.isLt; omega
  have hmin' : min (p.val + 4) 8 = p.val + 4 := by have := p.isLt; omega
  rw [show (dats m 0 c).Φ (ptB p).succ = Held m c (min (p.val + 4 + 1) 8) from rfl,
    show (dats m 0 c).Φ (ptB p).castSucc = PhiS m c (p.val + 4) from rfl, hmin]
  have hΦ : PhiS m c (p.val + 4) ⊢ Held m c (p.val + 4) := (PhiS_held m c (p.val + 4)).trans (by rw [hmin'])
  unfold Held at hΦ ⊢
  iintro ⟨HP, Ho, ⟨%d0, H0⟩, ⟨%d1, H1⟩, ⟨%d2, H2⟩, ⟨%d3, H3⟩, H4⟩
  ihave HP' := (hΦ) $$ HP
  icases HP' with ⟨⟨%a6, %a7, %a8, H6, H7, H8, %hI⟩, Hg⟩
  iapply (run_mid c p _ _ _ _ _ _ _ _ _ _ (X0 m c ⟨p.val + 4, by have := p.isLt; omega⟩) (X1 m c) (X2 m c) (X3 m c) a6 a7 a8 _ _)
  isplitl [H0]; · iexact H0
  isplitl [H1]; · iexact H1
  isplitl [H2]; · iexact H2
  isplitl [H3]; · iexact H3
  isplitl [H4]; · iexact H4
  isplitl [H6]; · iexact H6
  isplitl [H7]; · iexact H7
  isplitl [H8]; · iexact H8
  iintro ⟨H0, H1, H2, H3, H4, H6, H7, H8⟩
  isplitl [H6 H7 H8 Hg]
  · isplitr [Hg]
    · iexists _; iexists _; iexists _
      isplitl [H6]; · iexact H6
      isplitl [H7]; · iexact H7
      isplitl [H8]; · iexact H8
      ipureintro
      exact inv_mid (X0 m c) (X1 m c) (X2 m c) (X3 m c) p hI _ _ _ rfl rfl rfl
    · iexact Hg
  isplitl [Ho]; · iexact Ho
  isplitl [H0]; · iexact H0
  isplitl [H1]; · iexact H1
  isplitl [H2]; · iexact H2
  isplitl [H3]; · iexact H3
  iexact H4

set_option maxHeartbeats 1600000 in
/-- Points 8..11. -/
theorem sound_C (c : Dev nD) (p : Fin 4) :
    bodyPre m c (ptC p) ⊢ wp frame (wpE (defs₀ (F := F)) Variants.none c none) Set.univ (bodyAt0 (ptC p)) (fun _ => bodyPost m c (ptC p)) := by
  unfold bodyPre bodyPost bodyAt0
  simp only [before0_0, before0_1, before0_2, before0_3]
  rw [show (dats m 0 c).owesAt () (ptC p).succ = (dats m 0 c).owesAt () (ptC p).castSucc from rfl]
  rw [show (dats m 0 c).leavesExact 0 (ptC p) = owns (c : Thread nD τ) (st0_0 (ptC p)) fullShare ((dats m 0 c).after 0 (ptC p)) from by
    unfold Dat.leavesExact; rw [live0 (ptC p)], after0_0]
  rw [show (dats m 0 c).leavesExact 1 (ptC p) = owns (c : Thread nD τ) (st0_1 (ptC p)) fullShare ((dats m 0 c).after 1 (ptC p)) from by
    unfold Dat.leavesExact; rw [live1 (ptC p)], after0_1]
  rw [show (dats m 0 c).leavesExact 2 (ptC p) = owns (c : Thread nD τ) (st0_2 (ptC p)) fullShare ((dats m 0 c).after 2 (ptC p)) from by
    unfold Dat.leavesExact; rw [live2 (ptC p)], after0_2]
  rw [show (dats m 0 c).leavesExact 3 (ptC p) = owns (c : Thread nD τ) (st0_3 (ptC p)) fullShare ((dats m 0 c).after 3 (ptC p)) from by
    unfold Dat.leavesExact; rw [live3 (ptC p)], after0_3]
  rw [show (dats m 0 c).leavesExact 4 (ptC p) = owns (c : Thread nD τ) (st0_4 (ptC p)) fullShare ((dats m 0 c).after 4 (ptC p)) from by
    unfold Dat.leavesExact; rw [live4_C p], after0_4, outAt_C m c p]
  rw [iblk1_eq m c (ptC p), iblk2_eq m c (ptC p), iblk3_eq m c (ptC p)]
  have hmin : min (p.val + 8 + 1) 8 = 8 := by omega
  have hmin' : min (p.val + 8) 8 = 8 := by omega
  rw [show (dats m 0 c).Φ (ptC p).succ = Held m c (min (p.val + 8 + 1) 8) from rfl,
    show (dats m 0 c).Φ (ptC p).castSucc = PhiS m c (p.val + 8) from rfl, hmin]
  have hΦ : PhiS m c (p.val + 8) ⊢ Held m c 8 := (PhiS_held m c (p.val + 8)).trans (by rw [hmin'])
  unfold Held at hΦ ⊢
  iintro ⟨HP, Ho, ⟨%d0, H0⟩, ⟨%d1, H1⟩, ⟨%d2, H2⟩, ⟨%d3, H3⟩, ⟨%d4, H4⟩⟩
  ihave HP' := (hΦ) $$ HP
  icases HP' with ⟨⟨%a6, %a7, %a8, H6, H7, H8, %hI⟩, Hg⟩
  rw [← out_last (X0 m c) (X1 m c) (X2 m c) (X3 m c) p hI]
  iapply (run_last c p _ _ _ _ _ _ _ _ _ _ (iblk m c 0 (ptC p)) (X1 m c) (X2 m c) (X3 m c) a6 a7 a8 _)
  isplitl [H0]; · iexact H0
  isplitl [H1]; · iexact H1
  isplitl [H2]; · iexact H2
  isplitl [H3]; · iexact H3
  isplitl [H4]; · iexists _; iexact H4
  isplitl [H6]; · iexact H6
  isplitl [H7]; · iexact H7
  isplitl [H8]; · iexact H8
  iintro ⟨H0, H1, H2, H3, H4, H6, H7, H8⟩
  isplitl [H6 H7 H8 Hg]
  · isplitr [Hg]
    · iexists _; iexists _; iexists _
      isplitl [H6]; · iexact H6
      isplitl [H7]; · iexact H7
      isplitl [H8]; · iexact H8
      ipureintro
      exact hI
    · iexact Hg
  isplitl [Ho]; · iexact Ho
  isplitl [H0]; · iexact H0
  isplitl [H1]; · iexact H1
  isplitl [H2]; · iexact H2
  isplitl [H3]; · iexact H3
  iexact H4

/-- The body at any point. -/
theorem sound_body (c : Dev nD) (t : Fin cfg0.N) :
    bodyPre m c t ⊢ wp frame (wpE (defs₀ (F := F)) Variants.none c none) Set.univ (bodyAt0 t) (fun _ => bodyPost m c t) := by
  rcases pt_cases t with ⟨p, rfl⟩ | ⟨p, rfl⟩ | ⟨p, rfl⟩
  · exact sound_A m c p
  · exact sound_B m c p
  · exact sound_C m c p

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := Entails.refl _

/-- After the last point the invariant gives the class invariant back: the scratch arrays' contents are forgotten. -/
theorem hout (c : Dev nD) : (dats m 0 c).Φ (Fin.last cfg0.N) ⊢ Pipeline.ΦA spec0 c :=
  Held_out m c _

/-! ## The run and the frame -/

set_option backward.isDefEq.respectTransparency.types false in
/-- Every weakly fair execution of @main terminates, and every final state has every array of the pipeline at what the
    library computes from the proof data and every other unscoped buffer at its contents at the region's entry. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame claim's post, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Body

end
-- ==== Proof.ChebFinal.lean ====
/-
  The output array after the run, for any float instance.

  The output window is written back at points 8..11 only, point 8 + p writing rows 1024 p .. 1024 p + 1023: the four
  blocks tile the array, so it ends holding, at row r, row r mod 1024 of the closed-form block r / 1024.
-/
import proofs.«145050_g80676665688617_cont_sun_m_757_33_alg».proof.Proof.ChebFrame
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable {F : FTy → Type} [FloatOps F]

variable (m : (ℓ : Loc nD τ sig) → Buf (Elt F) ℓ) (ρ : Dev nD → PrngReg)

/-- The whole output: block `r / 1024` of the closed form at row `r mod 1024`. -/
def outAll (c : Dev nD) : S4096x256.Idx → Elt F .f32 := fun i =>
  OUTn (X0 m c) (X1 m c) (X2 m c) (X3 m c) (blockOf (i 0)) (ix2 ⟨(i 0).val % 1024, Nat.mod_lt _ (by norm_num)⟩ (i 1))

theorem flush4_iff : ∀ t : Fin cfg0.N, (cfg0.win 4).flush t = true ↔ 8 ≤ t.val := by decide +kernel
theorem idx4_C : ∀ p : Fin 4, win0_4.index (ptC p) = ![p.val, 0] := by decide +kernel

/-- An index of the output array is in point `t`'s block iff each coordinate is in the block's range on its axis. -/
theorem mem_blk4 (t : Fin cfg0.N) (i : S4096x256.Idx) :
    i ∈ ((cfg0.win 4).blk t).view.set ↔ ∀ a : Fin 2, win0_4.index t a * S1024x256.size a ≤ (i a).val ∧ (i a).val < win0_4.index t a * S1024x256.size a + S1024x256.size a := by
  show i ∈ ((View.whole main_v3).slice (win0_4.rect t)).set ↔ _
  rw [View.set_slice_whole, Rect.mem_set_unit]
  exact Iff.rfl

/-- What point `8 + p` writes back is block `p` of the whole output. -/
theorem flushed4_C (c : Dev nD) (p : Fin 4) :
    (dats m 0 c).flushed 4 (ptC p) = ((cfg0.win 4).blk (ptC p)).view.read (Elt F) (outAll m c) := by
  show (cfg0.win 4).cut (grid0.coords (ptC p)) ((dats m 0 c).after 4 (ptC p)) = _
  rw [after0_4, outAt_C]
  funext j
  show OUTn (X0 m c) (X1 m c) (X2 m c) (X3 m c) p j = outAll m c (((cfg0.win 4).blk (ptC p)).view.emb j)
  have hj0 : (j 0).val < 1024 := (j 0).isLt
  have hp := p.isLt
  have e : ((cfg0.win 4).blk (ptC p)).view.emb j = (ix2 ⟨1024 * p.val + (j 0).val, by omega⟩ (j 1) : S4096x256.Idx) := by
    funext a; apply Fin.ext
    match a with
    | ⟨0, _⟩ => show win0_4.index (ptC p) (0 : Fin 2) * 1024 + 1 * (j 0).val = 1024 * p.val + (j 0).val; rw [idx4_C p]; show p.val * 1024 + 1 * (j 0).val = _; omega
    | ⟨1, _⟩ => show win0_4.index (ptC p) (1 : Fin 2) * 256 + 1 * (j 1).val = (j 1).val; rw [idx4_C p]; show 0 * 256 + 1 * (j 1).val = _; omega
  rw [e]
  unfold outAll
  have hb : blockOf ((ix2 ⟨1024 * p.val + (j 0).val, by omega⟩ (j 1) : S4096x256.Idx) 0) = p :=
    Fin.ext (by show (1024 * p.val + (j 0).val) / 1024 = p.val; omega)
  rw [hb]
  refine congrArg (OUTn (X0 m c) (X1 m c) (X2 m c) (X3 m c) p) (funext fun a => Fin.ext ?_)
  match a with
  | ⟨0, _⟩ => show (j 0).val = (1024 * p.val + (j 0).val) % 1024; omega
  | ⟨1, _⟩ => rfl

/-- The array after the run. -/
theorem final4 (c : Dev nD) : (dats m 0 c).arrAt 4 cfg0.N = outAll m c := by
  refine (dats m 0 c).arrAt_eq_of_cover 4 (outAll m c) (fun t hf => ?_) (fun i => ?_)
  · have h8 := (flush4_iff t).mp hf
    have hN : t.val < 12 := lt_of_lt_of_eq t.isLt N_0
    have ht : t = ptC ⟨t.val - 8, by omega⟩ := Fin.ext (by show t.val = t.val - 8 + 8; omega)
    rw [ht]; exact flushed4_C m c _
  · have hi0 : (i 0).val < 4096 := (i 0).isLt
    have hi1 : (i 1).val < 256 := (i 1).isLt
    refine ⟨ptC ⟨(i 0).val / 1024, by omega⟩, (flush4_iff _).mpr (by show 8 ≤ (i 0).val / 1024 + 8; omega), ?_⟩
    rw [mem_blk4]
    intro a
    match a with
    | ⟨0, _⟩ =>
      show win0_4.index (ptC ⟨(i 0).val / 1024, by omega⟩) (0 : Fin 2) * 1024 ≤ (i 0).val ∧ (i 0).val < win0_4.index (ptC ⟨(i 0).val / 1024, by omega⟩) (0 : Fin 2) * 1024 + 1024
      rw [idx4_C]; show (i 0).val / 1024 * 1024 ≤ (i 0).val ∧ (i 0).val < (i 0).val / 1024 * 1024 + 1024; omega
    | ⟨1, _⟩ =>
      show win0_4.index (ptC ⟨(i 0).val / 1024, by omega⟩) (1 : Fin 2) * 256 ≤ (i 1).val ∧ (i 1).val < win0_4.index (ptC ⟨(i 0).val / 1024, by omega⟩) (1 : Fin 2) * 256 + 256
      rw [idx4_C]; show 0 * 256 ≤ (i 1).val ∧ (i 1).val < 0 * 256 + 256; omega

/-- The run, read: the result array at the closed form, the argument arrays unchanged. -/
theorem run_value : θ_run defs (onTc (τ := τ) (main (F := F))) ⟨m, fun _ => 0, ρ⟩ (fun r => ∀ c : Dev nD,
      r.2.mem ((c.tc : Thread nD τ).loc main_v3) = outAll m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨((h c).1 4).trans (final4 m c),
      ((h c).2 main_arg0 (Pipeline.mem_restRefs_of main_arg0 (by decide) (by decide))).trans (V_main_arg0 m c),
      ((h c).1 0).trans (((dats m 0 c).arrAt_in 0 rfl _).trans ((A_eq m c 0).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩)
    (run_main m ρ)

end Cert.KernelIdeal.Body

end
-- ==== Proof.ChebInputs.lean ====
/-
  The blocks the body finds, as the argument arrays, at the exact instance.

  Before the region the host converts x and the weights to another float format (the identity at the exact instance)
  and reshapes the bias to a row; strip j of L is rows 512 j .. 512 j + 511 of L.
-/
import proofs.«145050_g80676665688617_cont_sun_m_757_33_alg».proof.Proof.ChebFrame
import Idealize.ShloMosaic.Lib.StableHlo.Run
import Idealize.ShloMosaic.Lib.Pipeline.Value
import Idealize.ShloMosaic.Lib.ValueIdx

set_option maxRecDepth 16384

noncomputable section

namespace Cert.KernelIdeal.Body

open Cert.KernelIdeal Cert.KernelIdeal.Gen
open Idealize.ShloMosaic Idealize.ShloMosaic.TcCoe Idealize.ShloMosaic.ValueIdx Idealize.ShloMosaic.StableHlo
open Idealize.SL Idealize.SL.Sem

variable (m : (ℓ : Loc nD τ sig) → Buf (Elt Ideal) ℓ)

theorem V_v0 (c : Dev nD) : (V m c main_v0 : S4096x256.Idx → EReal) = m ((c : Thread nD τ).loc main_arg0) := by
  dsimp only [Gen.V, Gen.hostOps0]; after_results; rfl
theorem V_v1 (c : Dev nD) : (V m c main_v1 : S3x256x256.Idx → EReal) = m ((c : Thread nD τ).loc main_arg2) := by
  dsimp only [Gen.V, Gen.hostOps0]; after_results; rfl
theorem V_v2 (c : Dev nD) : (V m c main_v2 : S1x256.Idx → EReal)
    = shapeCast S1x256 (m ((c : Thread nD τ).loc main_arg3) : S256.Idx → EReal) shapeCasts_S256_S1x256 := by
  dsimp only [Gen.V, Gen.hostOps0]; after_results; rfl

theorem idx0_S : ∀ j : Fin 8, win0_0.index (ptS j) = ![j.val, 0] := by decide +kernel

/-- Strip `j` of L. -/
theorem X0_apply (c : Dev nD) (j : Fin 8) (a : Fin 512) (k : Fin 4096) :
    X0 m c j (ix2 a k) = (m ((c : Thread nD τ).loc main_arg1) : S4096x4096.Idx → EReal) (ix2 ⟨512 * j.val + a.val, by have := j.isLt; omega⟩ k) := by
  unfold X0 iblk
  show V m c main_arg1 (((cfg0.win 0).blk (ptS j)).view.emb (ix2 a k)) = _
  rw [V_main_arg1]
  refine congrArg _ (funext fun d => Fin.ext ?_)
  match d with
  | ⟨0, _⟩ => show win0_0.index (ptS j) (0 : Fin 2) * 512 + 1 * a.val = 512 * j.val + a.val; rw [idx0_S j]; show j.val * 512 + 1 * a.val = _; omega
  | ⟨1, _⟩ => show win0_0.index (ptS j) (1 : Fin 2) * 4096 + 1 * k.val = k.val; rw [idx0_S j]; show 0 * 4096 + 1 * k.val = k.val; omega

/-- x, the weights, and the bias row. -/
theorem X1_eq (c : Dev nD) : X1 m c = (m ((c : Thread nD τ).loc main_arg0) : S4096x256.Idx → EReal) := by
  unfold X1 iblk
  funext y
  show (V m c main_v0 : S4096x256.Idx → EReal) (((cfg0.win 1).blk (ptS 0)).view.emb y) = _
  rw [V_v0]
  refine congrArg _ (funext fun d => Fin.ext ?_)
  match d with
  | ⟨0, _⟩ => show 0 * 4096 + 1 * (y 0).val = (y 0).val; omega
  | ⟨1, _⟩ => show 0 * 256 + 1 * (y 1).val = (y 1).val; omega

theorem X2_eq (c : Dev nD) : X2 m c = (m ((c : Thread nD τ).loc main_arg2) : S3x256x256.Idx → EReal) := by
  unfold X2 iblk
  funext y
  show (V m c main_v1 : S3x256x256.Idx → EReal) (((cfg0.win 2).blk (ptS 0)).view.emb y) = _
  rw [V_v1]
  refine congrArg _ (funext fun d => Fin.ext ?_)
  match d with
  | ⟨0, _⟩ => show 0 * 3 + 1 * (y 0).val = (y 0).val; omega
  | ⟨1, _⟩ => show 0 * 256 + 1 * (y 1).val = (y 1).val; omega
  | ⟨2, _⟩ => show 0 * 256 + 1 * (y 2).val = (y 2).val; omega

theorem X3_apply (c : Dev nD) (q : Fin 256) :
    X3 m c (ix2 (0 : Fin 1) q) = (m ((c : Thread nD τ).loc main_arg3) : S256.Idx → EReal) (ix1 q) := by
  unfold X3 iblk
  show (V m c main_v2 : S1x256.Idx → EReal) (((cfg0.win 3).blk (ptS 0)).view.emb (ix2 (0 : Fin 1) q)) = _
  rw [V_v2]
  have e : ((cfg0.win 3).blk (ptS 0)).view.emb (ix2 (0 : Fin 1) q) = (ix2 (0 : Fin 1) q : S1x256.Idx) :=
    funext fun d => Fin.ext (by
      match d with
      | ⟨0, _⟩ => show 0 * 1 + 1 * 0 = 0; omega
      | ⟨1, _⟩ => show 0 * 256 + 1 * q.val = q.val; omega)
  rw [e]
  refine (shapeCast_addUnit_apply (![256] : Fin 1 → ℕ) _ shapeCasts_S256_S1x256 (ix2 (0 : Fin 1) q)).trans ?_
  exact congrArg _ (funext fun d => by match d with | ⟨0, _⟩ => rfl)

end Cert.KernelIdeal.Body

end
-- ==== Proof.LibMatOps.lean ====
/-
  A PLAIN MATRIX PRODUCT AND A COLUMN BROADCAST, READ AT AN INDEX.

  The product of an `[M, K]` by a `[K, C]` array with no batch axis, contracting the left operand's columns with the
  right operand's rows, is at `(p, q)` the sum over `k < K` of `l (p, k) · r (k, q)` — for the device's matrix unit
  accumulating into zeros and for the host's dot product alike, at the exact instance. A one-column array `[a, 1]`
  broadcast to `[a, b]` reads its row's only entry at every column.
-/
import Idealize.ShloMosaic.PureOps.Ideal.Laws
import Idealize.ShloMosaic.Lib.ValueIdx
import Idealize.ShloMosaic.Lib.Pipeline.Value

noncomputable section

open scoped BigOperators

namespace Cert.MatOps

open Idealize.ShloMosaic Idealize.ShloMosaic.ValueIdx

/-- The dimension numbers of the plain product `[M, K] × [K, C] → [M, C]`. -/
abbrev plainDot (M K C : Nat)
    (wf : DotDims.WF ⟨2, ![M, K]⟩ ⟨2, ![K, C]⟩ ⟨2, ![M, C]⟩ [1] [0] [0] [1] [] []) :
    DotDims ⟨2, ![M, K]⟩ ⟨2, ![K, C]⟩ ⟨2, ![M, C]⟩ where
  lhsContracting := [1]
  rhsContracting := [0]
  lhsNonContracting := [0]
  rhsNonContracting := [1]
  lhsBatch := []
  rhsBatch := []
  wf := wf

section
variable {M K C : Nat} (wf : DotDims.WF ⟨2, ![M, K]⟩ ⟨2, ![K, C]⟩ ⟨2, ![M, C]⟩ [1] [0] [0] [1] [] [])

/-- The contraction sum of the plain product, re-indexed by `k < K`. -/
theorem plainDot_sum (l : (⟨2, ![M, K]⟩ : Shape).Idx → EReal) (r : (⟨2, ![K, C]⟩ : Shape).Idx → EReal) (p : Fin M) (q : Fin C) :
    ∑ k : (plainDot M K C wf).contr.Idx, l ((plainDot M K C wf).lhsIdx (ix2 p q) k) * r ((plainDot M K C wf).rhsIdx (ix2 p q) k)
      = ∑ k : Fin K, l (ix2 p k) * r (ix2 k q) := by
  rw [← Equiv.sum_comp (contrEquiv1 (plainDot M K C wf) K rfl rfl).symm]
  refine Finset.sum_congr rfl fun k _ => ?_
  have hk := contrEquiv1_symm_val (plainDot M K C wf) K rfl rfl k
  have el : (plainDot M K C wf).lhsIdx (ix2 p q) ((contrEquiv1 (plainDot M K C wf) K rfl rfl).symm k) = ix2 p k :=
    funext fun a => Fin.ext (by
      match a with
      | ⟨0, _⟩ =>
        show ((plainDot M K C wf).lhsIdx (ix2 p q) _ 0).val = p.val
        unfold DotDims.lhsIdx
        rw [dif_neg (show ¬(0 : Fin 2) ∈ (plainDot M K C wf).lhsBatch from List.not_mem_nil),
          dif_pos (show (0 : Fin 2) ∈ (plainDot M K C wf).lhsNonContracting from List.mem_singleton.mpr rfl)]
        rfl
      | ⟨1, _⟩ => exact ((plainDot M K C wf).lhsIdx_val_of_single rfl _ _).trans hk)
  have er : (plainDot M K C wf).rhsIdx (ix2 p q) ((contrEquiv1 (plainDot M K C wf) K rfl rfl).symm k) = ix2 k q :=
    funext fun a => Fin.ext (by
      match a with
      | ⟨0, _⟩ => exact ((plainDot M K C wf).rhsIdx_val_of_single rfl _ _).trans hk
      | ⟨1, _⟩ =>
        show ((plainDot M K C wf).rhsIdx (ix2 p q) _ 1).val = q.val
        unfold DotDims.rhsIdx
        rw [dif_neg (show ¬(1 : Fin 2) ∈ (plainDot M K C wf).rhsBatch from List.not_mem_nil),
          dif_pos (show (1 : Fin 2) ∈ (plainDot M K C wf).rhsNonContracting from List.mem_singleton.mpr rfl)]
        rfl)
  rw [el, er]

/-- The device's matrix unit accumulating into zeros. -/
theorem matmul_plain_apply {φ₁ φ₂ : FTy} (prec : Option ContractPrecision) (l : FVec Ideal ⟨2, ![M, K]⟩ φ₁)
    (r : FVec Ideal ⟨2, ![K, C]⟩ φ₂) (p : Fin M) (q : Fin C) :
    FloatOps.matmul (plainDot M K C wf) prec l r (constant ⟨2, ![M, C]⟩ .f32 0x00000000#32) (ix2 p q)
      = ∑ k : Fin K, l (ix2 p k) * r (ix2 k q) := by
  rw [Ideal.matmul_constant_zero_apply]
  exact plainDot_sum wf l r p q

/-- The host's dot product. -/
theorem dotGeneral_plain_apply {φ₁ φ₂ : FTy} (prec : Option ContractPrecision) (sched : HostSchedule)
    (l : FVec Ideal ⟨2, ![M, K]⟩ φ₁) (r : FVec Ideal ⟨2, ![K, C]⟩ φ₂) (p : Fin M) (q : Fin C) :
    FloatOps.dotGeneral (plainDot M K C wf) prec sched l r (ix2 p q) = ∑ k : Fin K, l (ix2 p k) * r (ix2 k q) := by
  rw [Ideal.dotGeneral_apply]
  exact plainDot_sum wf l r p q

end

/-- An `[a, 1]` column broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.MatOps

end
-- ==== Proof.ChebValue.lean ====
/-
  The kernel's stored strips and blocks read at an index, at the exact instance.

  With every float an extended real, every conversion the identity and the matrix unit an exact sum: the stored strip of
  L is the strip; the strip of Y is 2 (T1 W2) with T1 = (strip of L) x; the strip of the accumulator is
  x (W0 - W2) + T1 W1 + b on the strip's own rows of x; a block of the completed accumulator is the streamed block plus
  L[rows, :2048] Y[:2048]; an output block is L[rows, 2048:] Y[2048:] plus the completed accumulator's block.
-/
import proofs.«145050_g80676665688617_cont_sun_m_757_33_alg».proof.Proof.ChebInv
import proofs.«145050_g80676665688617_cont_sun_m_757_33_alg».proof.Proof.LibMatOps
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

open scoped BigOperators

namespace Cert.KernelIdeal.ChebValue

open Cert.KernelIdeal Cert.KernelIdeal.Gen Cert.KernelIdeal.Body Cert.MatOps
open Idealize.ShloMosaic Idealize.ShloMosaic.ValueIdx

/-- A load through a box of an `n × k` matrix at offsets `(o0, o1`), read at `(a, b)`: the matrix at the index `y` with
    those coordinates. -/
theorem ld2 {Val : EltTy → Type} {e : EltTy} {n k W K : ℕ} (X : (⟨2, ![n, k]⟩ : Shape).Idx → Val e) {off : Fin 2 → ℕ}
    (inb : ∀ d : Fin 2, off d + (![W, K] : Fin 2 → ℕ) d ≤ (![n, k] : Fin 2 → ℕ) d) (o0 o1 : ℕ) (hoff : off = ![o0, o1])
    (a : Fin W) (b : Fin K) (y : (⟨2, ![n, k]⟩ : Shape).Idx) (h0 : (y 0).val = o0 + a.val) (h1 : (y 1).val = o1 + b.val) :
    View.ld X (Rect.unit (s := ⟨2, ![n, k]⟩) off ![W, K] inb) (ix2 a b) = X y := by
  subst hoff
  refine congrArg X (funext fun d => Fin.ext ?_)
  match d with
  | ⟨0, _⟩ => show o0 + 1 * a.val = (y 0).val; omega
  | ⟨1, _⟩ => show o1 + 1 * b.val = (y 1).val; omega

/-- A load of one of the three weight matrices out of the stack, read at `(0, j, q)`. -/
theorem ld3 {Val : EltTy → Type} {e : EltTy} (X : S3x256x256.Idx → Val e) {off : Fin 3 → ℕ}
    (inb : ∀ d : Fin 3, off d + S1x256x256.size d ≤ S3x256x256.size d) (s : Fin 3) (hoff : off = ![s.val, 0, 0])
    (j q : Fin 256) :
    View.ld X (Rect.unit (s := S3x256x256) off S1x256x256.size inb) (ix3 (0 : Fin 1) j q) = X (ix3 s j q) := by
  subst hoff
  refine congrArg X (funext fun d => Fin.ext ?_)
  match d with
  | ⟨0, _⟩ => show s.val + 1 * 0 = s.val; omega
  | ⟨1, _⟩ => show 0 + 1 * j.val = j.val; omega
  | ⟨2, _⟩ => show 0 + 1 * q.val = q.val; omega

/-- The matrix unit accumulating into zeros, for the body's three products, read at `(p, q)`. -/
theorem mm1 {φ₁ φ₂ : FTy} (l : FVec Ideal S512x4096 φ₁) (r : FVec Ideal S4096x256 φ₂) (p : Fin 512) (q : Fin 256) :
    matmul dot_S512x4096_S4096x256_S512x256_1_0_0_1_n_n none l r (constant S512x256 .f32 0x00000000#32) (ix2 p q)
      = ∑ k : Fin 4096, l (ix2 p k) * r (ix2 k q) :=
  matmul_plain_apply dot_S512x4096_S4096x256_S512x256_1_0_0_1_n_n_wf none l r p q
theorem mm2 {φ₁ φ₂ : FTy} (l : FVec Ideal S512x256 φ₁) (r : FVec Ideal S256x256 φ₂) (p : Fin 512) (q : Fin 256) :
    matmul dot_S512x256_S256x256_S512x256_1_0_0_1_n_n none l r (constant S512x256 .f32 0x00000000#32) (ix2 p q)
      = ∑ k : Fin 256, l (ix2 p k) * r (ix2 k q) :=
  matmul_plain_apply dot_S512x256_S256x256_S512x256_1_0_0_1_n_n_wf none l r p q
theorem mm3 {φ₁ φ₂ : FTy} (l : FVec Ideal S1024x2048 φ₁) (r : FVec Ideal S2048x256 φ₂) (p : Fin 1024) (q : Fin 256) :
    matmul dot_S1024x2048_S2048x256_S1024x256_1_0_0_1_n_n none l r (constant S1024x256 .f32 0x00000000#32) (ix2 p q)
      = ∑ k : Fin 2048, l (ix2 p k) * r (ix2 k q) :=
  matmul_plain_apply dot_S1024x2048_S2048x256_S1024x256_1_0_0_1_n_n_wf none l r p q

/-- The literal 2.0 as the exact instance reads it. -/
abbrev two : EReal := Ideal.ofBits .f32 0x40000000#32

section Strips

variable (x0 : Vec Ideal S512x4096 .f32) (x1 : Vec Ideal S4096x256 .bf16) (x2 : Vec Ideal S3x256x256 .bf16) (x3 : Vec Ideal S1x256 .f32)

/-- The stored strip of L is the strip. -/
theorem stL_eq : stL x0 = x0 := by
  unfold stL k0_pay5 k0_pay4
  try dsimp only
  rw [shapeCast_self, View.ld_unit_zero (by funext a; match a with | ⟨0, _⟩ => rfl | ⟨1, _⟩ => rfl)]
  rfl

/-- The strip of T1 = L x (as the kernel rounds and keeps it: exactly). -/
theorem pay6_apply (v12 : Vec Ideal S512x4096 .f32) (v18 : Vec Ideal S4096x256 .bf16) (a : Fin 512) (j : Fin 256) :
    k0_pay6 v12 v18 (ix2 a j) = ∑ k : Fin 4096, v12 (ix2 a k) * v18 (ix2 k j) := by
  unfold k0_pay6 k0_pay4
  try dsimp only
  rw [shapeCast_self]
  exact mm1 (φ₁ := .bf16) (φ₂ := .bf16) _ _ a j

theorem hz2 : (![0, 0] : Fin 2 → Nat) = fun _ => 0 := funext fun a => by match a with | ⟨0, _⟩ => rfl | ⟨1, _⟩ => rfl

/-- One weight matrix out of the stack, as the body reshapes it, read at `(j, q)`. -/
theorem w_apply {off : Fin 3 → ℕ} (inb : ∀ d : Fin 3, off d + S1x256x256.size d ≤ S3x256x256.size d) (s : Fin 3)
    (hoff : off = ![s.val, 0, 0]) (h : S1x256x256.ShapeCasts S256x256) (j q : Fin 256) :
    shapeCast S256x256 (View.ld x2 (Rect.unit (s := S3x256x256) off S1x256x256.size inb)) h (ix2 j q) = x2 (ix3 s j q) := by
  refine (shapeCast_dropUnit_apply (![256, 256] : Fin 2 → ℕ) _ h (ix2 j q)).trans ?_
  have e : (Fin.cons ⟨0, Nat.one_pos⟩ (ix2 j q : S256x256.Idx) : S1x256x256.Idx) = ix3 (0 : Fin 1) j q :=
    funext fun a => by match a with | ⟨0, _⟩ => rfl | ⟨1, _⟩ => rfl | ⟨2, _⟩ => rfl
  rw [e]
  exact ld3 x2 inb s hoff j q

theorem w0m (j q : Fin 256) : shapeCast S256x256 (View.ld x2 rW0) shapeCasts_S1x256x256_S256x256 (ix2 j q) = x2 (ix3 0 j q) :=
  w_apply x2 inb_S3x256x256_S1x256x256_0_0_0 0 rfl _ j q
theorem w1m (j q : Fin 256) : shapeCast S256x256 (View.ld x2 rW1) shapeCasts_S1x256x256_S256x256 (ix2 j q) = x2 (ix3 1 j q) :=
  w_apply x2 inb_S3x256x256_S1x256x256_1_0_0 1 rfl _ j q
theorem w2m (j q : Fin 256) : shapeCast S256x256 (View.ld x2 rW2) shapeCasts_S1x256x256_S256x256 (ix2 j q) = x2 (ix3 2 j q) :=
  w_apply x2 inb_S3x256x256_S1x256x256_2_0_0 2 rfl _ j q

/-- The stored strip of Y: 2 (T1 W2). -/
theorem stY_apply (a : Fin 512) (q : Fin 256) :
    stY x0 x1 x2 (ix2 a q) = two * ∑ j : Fin 256, (∑ k : Fin 4096, x0 (ix2 a k) * x1 (ix2 k j)) * x2 (ix3 2 j q) := by
  unfold stY k0_pay7
  try dsimp only
  rw [shapeCast_self, View.ld_unit_zero hz2, View.ld_unit_zero hz2]
  rw [truncf_apply, mulf_apply, broadcast_apply, mm2]
  refine congrArg (two * ·) (Finset.sum_congr rfl fun j _ => ?_)
  rw [pay6_apply, w2m]

/-- The stored strip of the accumulator: x (W0 - W2) + T1 W1 + b, on the rows of x from row `o`. -/
theorem stA_apply (i : grid0.Coords) (h : k0_cond1 i = 1#1) (o : ℕ) (ho : k0_off2 i = ![o, 0]) (a : Fin 512) (q : Fin 256)
    (hoa : o + a.val < 4096) :
    stA x0 x1 x2 x3 i h (ix2 a q)
      = ((∑ j : Fin 256, x1 (ix2 ⟨o + a.val, hoa⟩ j) * (x2 (ix3 0 j q) - x2 (ix3 2 j q)))
          + ∑ j : Fin 256, (∑ k : Fin 4096, x0 (ix2 a k) * x1 (ix2 k j)) * x2 (ix3 1 j q)) + x3 (ix2 0 q) := by
  unfold stA k0_pay1 k0_pay8 k0_pay9
  try dsimp only
  rw [shapeCast_self, shapeCast_self, shapeCast_self, View.ld_unit_zero hz2, View.ld_unit_zero hz2, View.ld_unit_zero hz2]
  rw [truncf_apply, addf_apply, addf_apply, mm2,
    mm2]
  congr 1
  · congr 1
    · refine Finset.sum_congr rfl fun j _ => ?_
      rw [subf_apply, w0m, w2m, ld2 x1 _ o 0 ho a j (ix2 ⟨o + a.val, hoa⟩ j) rfl (Nat.zero_add _).symm]
    · refine Finset.sum_congr rfl fun j _ => ?_
      rw [pay6_apply, w1m]
  · refine broadcastTo_apply _ _ (ix2 a q) (ix2 (0 : Fin 1) q) fun d => ?_
    match d with
    | ⟨0, _⟩ => rfl
    | ⟨1, _⟩ => rfl

end Strips

section Blocks

variable (p : Fin 4) (b6 : Vec Ideal S4096x4096 .bf16) (b7 b8 : Vec Ideal S4096x256 .bf16)

/-- A block of the accumulator with the left half added. -/
theorem accB_apply (a : Fin 1024) (q : Fin 256) :
    accB p b6 b7 b8 (ix2 a q)
      = b8 (ix2 ⟨1024 * p.val + a.val, by have := p.isLt; omega⟩ q)
        + ∑ k : Fin 2048, b6 (ix2 ⟨1024 * p.val + a.val, by have := p.isLt; omega⟩ ⟨k.val, by omega⟩) * b7 (ix2 ⟨k.val, by omega⟩ q) := by
  have hp := p.isLt
  unfold accB k0_pay2
  try dsimp only
  rw [shapeCast_self, truncf_apply, addf_apply, extf_apply,
    mm3]
  congr 1
  · exact ld2 b8 _ (1024 * p.val) 0 (off4_B p) a q _ rfl (Nat.zero_add _).symm
  · refine Finset.sum_congr rfl fun k _ => ?_
    rw [ld2 b6 _ (1024 * p.val) 0 (off3_B p) a k (ix2 ⟨1024 * p.val + a.val, by omega⟩ ⟨k.val, by omega⟩) rfl (Nat.zero_add _).symm,
      ld2 b7 _ 0 0 rfl k q (ix2 ⟨k.val, by omega⟩ q) (Nat.zero_add _).symm (Nat.zero_add _).symm]

/-- An output block. -/
theorem outB_apply (a : Fin 1024) (q : Fin 256) :
    outB p b6 b7 b8 (ix2 a q)
      = (∑ k : Fin 2048, b6 (ix2 ⟨1024 * p.val + a.val, by have := p.isLt; omega⟩ ⟨2048 + k.val, by omega⟩) * b7 (ix2 ⟨2048 + k.val, by omega⟩ q))
        + b8 (ix2 ⟨1024 * p.val + a.val, by have := p.isLt; omega⟩ q) := by
  have hp := p.isLt
  unfold outB k0_pay3
  try dsimp only
  rw [addf_apply, extf_apply, mm3]
  congr 1
  · refine Finset.sum_congr rfl fun k _ => ?_
    rw [ld2 b6 _ (1024 * p.val) 2048 (off5_C p) a k (ix2 ⟨1024 * p.val + a.val, by omega⟩ ⟨2048 + k.val, by omega⟩) rfl rfl,
      ld2 b7 _ 2048 0 rfl k q (ix2 ⟨2048 + k.val, by omega⟩ q) rfl (Nat.zero_add _).symm]
  · exact ld2 b8 _ (1024 * p.val) 0 (off6_C p) a q _ rfl (Nat.zero_add _).symm

end Blocks

/-! ## The closed forms as matrices -/

theorem off2_S : ∀ j : Fin 8, k0_off2 (grid0.coords (ptS j)) = ![512 * j.val, 0] := by decide +kernel

/-- Columns below and from the split point of the second product's contraction. -/
def lo (k : Fin 2048) : Fin 4096 := ⟨k.val, by omega⟩
def hi (k : Fin 2048) : Fin 4096 := ⟨2048 + k.val, by omega⟩

section Whole

variable (X0 : Fin 8 → Vec Ideal S512x4096 .f32) (X1 : Vec Ideal S4096x256 .bf16) (X2 : Vec Ideal S3x256x256 .bf16) (X3 : Vec Ideal S1x256 .f32)

/-- L from its strips; T1 = L x; Y = 2 (T1 W2); the streamed accumulator x (W0 - W2) + T1 W1 + b. -/
def Lm (r k : Fin 4096) : EReal := X0 (stripOf r) (ix2 ⟨r.val % 512, Nat.mod_lt _ (by norm_num)⟩ k)
def T1m (r : Fin 4096) (j : Fin 256) : EReal := ∑ k : Fin 4096, Lm X0 r k * X1 (ix2 k j)
def Ym (k : Fin 4096) (q : Fin 256) : EReal := two * ∑ j : Fin 256, T1m X0 X1 k j * X2 (ix3 2 j q)
def A1m (r : Fin 4096) (q : Fin 256) : EReal :=
  ((∑ j : Fin 256, X1 (ix2 r j) * (X2 (ix3 0 j q) - X2 (ix3 2 j q))) + ∑ j : Fin 256, T1m X0 X1 r j * X2 (ix3 1 j q)) + X3 (ix2 0 q)
/-- The output entry (r, q): the bottom half of L Y, plus the accumulator with the top half added. -/
def Km (r : Fin 4096) (q : Fin 256) : EReal :=
  (∑ k : Fin 2048, Lm X0 r (hi k) * Ym X0 X1 X2 (hi k) q)
    + (A1m X0 X1 X2 X3 r q + ∑ k : Fin 2048, Lm X0 r (lo k) * Ym X0 X1 X2 (lo k) q)

theorem LBn_apply (r k : Fin 4096) : LBn X0 (ix2 r k) = Lm X0 r k := by
  unfold LBn Lm; rw [stL_eq]

theorem YYn_apply (r : Fin 4096) (q : Fin 256) : YYn X0 X1 X2 (ix2 r q) = Ym X0 X1 X2 r q := by
  unfold YYn
  refine (stY_apply _ X1 X2 _ _).trans ?_
  rfl

theorem A1n_apply (r : Fin 4096) (q : Fin 256) : A1n X0 X1 X2 X3 (ix2 r q) = A1m X0 X1 X2 X3 r q := by
  have hr := r.isLt
  have hoa : 512 * (stripOf r).val + r.val % 512 < 4096 := by show 512 * (r.val / 512) + r.val % 512 < 4096; omega
  have e : (⟨512 * (stripOf r).val + r.val % 512, hoa⟩ : Fin 4096) = r :=
    Fin.ext (by show 512 * (r.val / 512) + r.val % 512 = r.val; omega)
  unfold A1n stAj
  refine (stA_apply _ X1 X2 X3 _ _ (512 * (stripOf r).val) (off2_S _) ⟨r.val % 512, Nat.mod_lt _ (by norm_num)⟩ q hoa).trans ?_
  rw [e]; rfl

theorem A2n_apply (r : Fin 4096) (q : Fin 256) :
    A2n X0 X1 X2 X3 (ix2 r q) = A1m X0 X1 X2 X3 r q + ∑ k : Fin 2048, Lm X0 r (lo k) * Ym X0 X1 X2 (lo k) q := by
  have hr := r.isLt
  have hb : 1024 * (blockOf r).val + r.val % 1024 < 4096 := by show 1024 * (r.val / 1024) + r.val % 1024 < 4096; omega
  have e : (⟨1024 * (blockOf r).val + r.val % 1024, hb⟩ : Fin 4096) = r :=
    Fin.ext (by show 1024 * (r.val / 1024) + r.val % 1024 = r.val; omega)
  unfold A2n
  refine (accB_apply _ _ _ _ ⟨r.val % 1024, Nat.mod_lt _ (by norm_num)⟩ q).trans ?_
  rw [e, A1n_apply]
  refine congrArg _ (Finset.sum_congr rfl fun k _ => ?_)
  rw [show (⟨k.val, by omega⟩ : Fin 4096) = lo k from rfl, LBn_apply, YYn_apply]

theorem OUTn_at (r : Fin 4096) (q : Fin 256) :
    OUTn X0 X1 X2 X3 (blockOf r) (ix2 ⟨r.val % 1024, Nat.mod_lt _ (by norm_num)⟩ q) = Km X0 X1 X2 X3 r q := by
  have hr := r.isLt
  have hb : 1024 * (blockOf r).val + r.val % 1024 < 4096 := by show 1024 * (r.val / 1024) + r.val % 1024 < 4096; omega
  have e : (⟨1024 * (blockOf r).val + r.val % 1024, hb⟩ : Fin 4096) = r :=
    Fin.ext (by show 1024 * (r.val / 1024) + r.val % 1024 = r.val; omega)
  unfold OUTn Km
  refine (outB_apply _ _ _ _ ⟨r.val % 1024, Nat.mod_lt _ (by norm_num)⟩ q).trans ?_
  rw [e, A2n_apply]
  refine congrArg (· + _) (Finset.sum_congr rfl fun k _ => ?_)
  rw [show (⟨2048 + k.val, by omega⟩ : Fin 4096) = hi k from rfl, LBn_apply, YYn_apply]

end Whole

end Cert.KernelIdeal.ChebValue

end
-- ==== Proof.ChebRef.lean ====
/-
  The reference's result read at an index, at the exact instance.

  The Chebyshev recurrence of order three: with T1 = L x, the result at (r, q) is
      x W0 + T1 W1 + (2 (L T1) - x) W2 + b,
  every matrix product an exact sum over its contracted axis.
-/
import proofs.«145050_g80676665688617_cont_sun_m_757_33_alg».proof.Proof.Gen.ReferenceIdeal.Read
import Idealize.ShloMosaic.Lib.ValueIdx

noncomputable section

open scoped BigOperators

namespace Cert.ReferenceIdeal.ChebRef

open Cert.ReferenceIdeal Cert.ReferenceIdeal.Read
open Idealize.ShloMosaic Idealize.ShloMosaic.ValueIdx

/-- The literal 2.0 as the exact instance reads it. -/
abbrev two : EReal := Ideal.ofBits .f32 0x40000000#32

variable (x0 : (⟨S4096x256, .f32⟩ : BufTy).Contents (Elt Ideal)) (x1 : (⟨S4096x4096, .f32⟩ : BufTy).Contents (Elt Ideal))
  (x2 : (⟨S3x256x256, .f32⟩ : BufTy).Contents (Elt Ideal)) (x3 : (⟨S256, .f32⟩ : BufTy).Contents (Elt Ideal))

/-- The three weight matrices, sliced out of the stack and reshaped. -/
theorem w0_apply (j q : Fin 256) : val_main_v2 (F := Ideal) x2 (ix2 j q) = x2 (ix3 0 j q) := by
  rw [val_main_v2_apply, val_main_v1_apply]
  refine congrArg x2 (funext fun a => Fin.ext ?_)
  have hj := j.isLt; have hq := q.isLt
  match a with
  | ⟨0, _⟩ => rfl
  | ⟨1, _⟩ => show (j.val * 256 + q.val) / 256 % 256 = j.val; omega
  | ⟨2, _⟩ => show (j.val * 256 + q.val) % 256 = q.val; omega

theorem w1_apply (j q : Fin 256) : val_main_v5 (F := Ideal) x2 (ix2 j q) = x2 (ix3 1 j q) := by
  rw [val_main_v5_apply, val_main_v4_apply]
  refine congrArg x2 (funext fun a => Fin.ext ?_)
  have hj := j.isLt; have hq := q.isLt
  match a with
  | ⟨0, _⟩ => rfl
  | ⟨1, _⟩ => show (j.val * 256 + q.val) / 256 % 256 = j.val; omega
  | ⟨2, _⟩ => show (j.val * 256 + q.val) % 256 = q.val; omega

theorem w2_apply (j q : Fin 256) : val_main_v13 (F := Ideal) x2 (ix2 j q) = x2 (ix3 2 j q) := by
  rw [val_main_v13_apply, val_main_v12_apply]
  refine congrArg x2 (funext fun a => Fin.ext ?_)
  have hj := j.isLt; have hq := q.isLt
  match a with
  | ⟨0, _⟩ => rfl
  | ⟨1, _⟩ => show (j.val * 256 + q.val) / 256 % 256 = j.val; omega
  | ⟨2, _⟩ => show (j.val * 256 + q.val) % 256 = q.val; omega

theorem ix2_eq {n0 n1 : ℕ} (i : (⟨2, ![n0, n1]⟩ : Shape).Idx) (a : Fin n0) (b : Fin n1) (h0 : (i 0).val = a.val) (h1 : (i 1).val = b.val) :
    i = ix2 a b := funext fun d => Fin.ext (by match d with | ⟨0, _⟩ => exact h0 | ⟨1, _⟩ => exact h1)

/-- T1 = L x. -/
theorem t1_apply (r : Fin 4096) (j : Fin 256) :
    val_main_v0 (F := Ideal) x0 x1 (ix2 r j) = ∑ k : Fin 4096, x1 (ix2 r k) * x0 (ix2 k j) := by
  rw [val_main_v0_apply]
  refine Finset.sum_congr rfl fun k _ => ?_
  rw [ix2_eq (lidx_main_v0 (ix2 r j) k) r k rfl rfl, ix2_eq (ridx_main_v0 (ix2 r j) k) k j rfl rfl]

/-- L T1. -/
theorem lt1_apply (r : Fin 4096) (j : Fin 256) :
    val_main_v8 (F := Ideal) x0 x1 (ix2 r j) = ∑ k : Fin 4096, x1 (ix2 r k) * ∑ i : Fin 4096, x1 (ix2 k i) * x0 (ix2 i j) := by
  rw [val_main_v8_apply]
  refine Finset.sum_congr rfl fun k _ => ?_
  rw [ix2_eq (lidx_main_v8 (ix2 r j) k) r k rfl rfl, ix2_eq (ridx_main_v8 (ix2 r j) k) k j rfl rfl, t1_apply]

/-- The reference's result at (r, q). -/
theorem ref_apply (r : Fin 4096) (q : Fin 256) :
    val_main_v18 (F := Ideal) x0 x1 x2 x3 (ix2 r q)
      = (((∑ j : Fin 256, x0 (ix2 r j) * x2 (ix3 0 j q)) + ∑ j : Fin 256, (∑ k : Fin 4096, x1 (ix2 r k) * x0 (ix2 k j)) * x2 (ix3 1 j q))
          + ∑ j : Fin 256, (two * (∑ k : Fin 4096, x1 (ix2 r k) * ∑ i : Fin 4096, x1 (ix2 k i) * x0 (ix2 i j)) - x0 (ix2 r j)) * x2 (ix3 2 j q))
        + x3 (ix1 q) := by
  rw [val_main_v18_apply, val_main_v15_apply, val_main_v7_apply, val_main_v3_apply, val_main_v6_apply, val_main_v14_apply,
    val_main_v17_apply, val_main_v16_apply]
  show ((_ + _) + _) + _ = _
  congr 1
  · congr 1
    · congr 1
      · refine Finset.sum_congr rfl fun j _ => ?_
        rw [ix2_eq (lidx_main_v3 (ix2 r q) j) r j rfl rfl, ix2_eq (ridx_main_v3 (ix2 r q) j) j q rfl rfl, w0_apply]
      · refine Finset.sum_congr rfl fun j _ => ?_
        rw [ix2_eq (lidx_main_v6 (ix2 r q) j) r j rfl rfl, ix2_eq (ridx_main_v6 (ix2 r q) j) j q rfl rfl, w1_apply, t1_apply]
    · refine Finset.sum_congr rfl fun j _ => ?_
      rw [ix2_eq (lidx_main_v14 (ix2 r q) j) r j rfl rfl, ix2_eq (ridx_main_v14 (ix2 r q) j) j q rfl rfl, w2_apply,
        val_main_v11_apply, val_main_v10_apply, val_main_v9_apply, val_main_cst_apply, lt1_apply]
      rfl
  · exact congrArg x3 (funext fun a => Fin.ext (by match a with | ⟨0, _⟩ => rfl))

end Cert.ReferenceIdeal.ChebRef

end
-- ==== Proof.ChebAlgebra.lean ====
/-
  The algebra of the Chebyshev recurrence of order three, over the real numbers.

  With T1 = L x and Y = c (T1 W2) (c any real; the kernels use 2), the kernel's arrangement
      L Y + (x (W0 - W2) + T1 W1 + b)
  and the recurrence's
      x W0 + T1 W1 + (c (L T1) - x) W2 + b
  are equal entry by entry: L (c (T1 W2)) = (c (L T1)) W2 by associativity of the matrix product, and
  x (W0 - W2) = x W0 - x W2 by distributivity. The kernel adds L Y in two halves of the contraction, `T` (columns below a
  split point) and `B` (the rest), around the other terms.
-/
import Mathlib.Algebra.BigOperators.Group.Finset.Basic
import Mathlib.Algebra.BigOperators.Ring.Finset
import Mathlib.Algebra.BigOperators.Fin
import Mathlib.Data.Real.Basic
import Mathlib.Tactic.Ring
import Mathlib.Tactic.Linarith

open scoped BigOperators

namespace Cert.ChebAlgebra

variable {N D : ℕ}

theorem cheb_identity (c : ℝ) (L : Fin N → Fin N → ℝ) (x : Fin N → Fin D → ℝ) (W0 W1 W2 : Fin D → Fin D → ℝ) (b : Fin D → ℝ)
    (r : Fin N) (q : Fin D) (T B : ℝ)
    (hTB : T + B = ∑ k, L r k * (c * ∑ j, (∑ i, L k i * x i j) * W2 j q)) :
    B + (((∑ j, x r j * (W0 j q - W2 j q)) + ∑ j, (∑ i, L r i * x i j) * W1 j q) + b q + T)
      = (((∑ j, x r j * W0 j q) + ∑ j, (∑ i, L r i * x i j) * W1 j q)
          + ∑ j, (c * (∑ k, L r k * ∑ i, L k i * x i j) - x r j) * W2 j q) + b q := by
  have h1 : ∑ k, L r k * (c * ∑ j, (∑ i, L k i * x i j) * W2 j q)
      = ∑ j, (c * ∑ k, L r k * ∑ i, L k i * x i j) * W2 j q := by
    simp only [Finset.mul_sum, Finset.sum_mul]
    rw [Finset.sum_comm]
    refine Finset.sum_congr rfl fun j _ => Finset.sum_congr rfl fun k _ => ?_
    refine Finset.sum_congr rfl fun i _ => ?_
    ring
  have h2 : ∑ j, x r j * (W0 j q - W2 j q) = (∑ j, x r j * W0 j q) - ∑ j, x r j * W2 j q := by
    simp only [mul_sub, Finset.sum_sub_distrib]
  have h3 : ∑ j, (c * (∑ k, L r k * ∑ i, L k i * x i j) - x r j) * W2 j q
      = (∑ j, (c * ∑ k, L r k * ∑ i, L k i * x i j) * W2 j q) - ∑ j, x r j * W2 j q := by
    simp only [sub_mul, Finset.sum_sub_distrib]
  rw [h2, h3, ← h1, ← hTB]
  ring

end Cert.ChebAlgebra
-- ==== Proof.LibReal.lean ====
/-
  Extended reals that are real numbers. An entry of a finite input is one (its absolute value lies below +infinity);
  sums, differences, products, finite sums and quotients by a nonzero real of such entries are again real, and so is the
  value of any f32 pattern whose exponent field is not all ones. What an algebraic law that needs finiteness is applied
  to is first shown to be of this kind.
-/
import Idealize.ShloMosaic.PureOps.Ideal
import Mathlib.Algebra.BigOperators.Group.Finset.Basic

namespace Idealize.ShloMosaic.RealEntries

open Idealize.ShloMosaic

/-- The extended real `a` is a real number. -/
def IsReal (a : EReal) : Prop := ∃ r : ℝ, a = (r : EReal)

theorem IsReal.coe (r : ℝ) : IsReal (r : EReal) := ⟨r, rfl⟩
theorem IsReal.zero : IsReal 0 := ⟨0, rfl⟩
theorem IsReal.one : IsReal 1 := ⟨1, rfl⟩

theorem IsReal.add {a b : EReal} (ha : IsReal a) (hb : IsReal b) : IsReal (a + b) := by
  obtain ⟨x, rfl⟩ := ha; obtain ⟨y, rfl⟩ := hb; exact ⟨x + y, (EReal.coe_add x y).symm⟩
theorem IsReal.sub {a b : EReal} (ha : IsReal a) (hb : IsReal b) : IsReal (a - b) := by
  obtain ⟨x, rfl⟩ := ha; obtain ⟨y, rfl⟩ := hb; exact ⟨x - y, (EReal.coe_sub x y).symm⟩
theorem IsReal.mul {a b : EReal} (ha : IsReal a) (hb : IsReal b) : IsReal (a * b) := by
  obtain ⟨x, rfl⟩ := ha; obtain ⟨y, rfl⟩ := hb; exact ⟨x * y, (EReal.coe_mul x y).symm⟩

theorem IsReal.sum {ι : Type*} (s : Finset ι) (f : ι → EReal) (h : ∀ i ∈ s, IsReal (f i)) : IsReal (∑ i ∈ s, f i) := by
  classical
  induction s using Finset.induction_on with
  | empty => rw [Finset.sum_empty]; exact IsReal.zero
  | insert a s ha ih =>
    rw [Finset.sum_insert ha]
    exact (h a (Finset.mem_insert_self a s)).add (ih fun i hi => h i (Finset.mem_insert_of_mem hi))

/-- A quotient by a nonzero real. -/
theorem IsReal.div_coe {a : EReal} (ha : IsReal a) {y : ℝ} (hy : y ≠ 0) : IsReal (Ideal.div a (y : EReal)) := by
  rw [Ideal.div_coe hy]; exact ha.mul (IsReal.coe _)

/-- An f32 pattern whose exponent field is not all ones denotes a real number. -/
theorem isReal_ofBits_f32 (b : BitVec 32) (h : (b.extractLsb' 23 8).toNat ≠ 2 ^ 8 - 1) : IsReal (Ideal.ofBits .f32 b) := by
  show IsReal (Ideal.ieee 8 23 b)
  unfold Ideal.ieee
  dsimp only
  rw [if_neg h]
  split_ifs <;> exact ⟨_, rfl⟩

/-- An extended real whose absolute value lies below +infinity is a real number. -/
theorem isReal_of_abs_lt_top {a : EReal} (h : max a (-a) < ⊤) : IsReal a := by
  induction a using EReal.rec with
  | bot => simp at h
  | coe r => exact ⟨r, rfl⟩
  | top => simp at h

end Idealize.ShloMosaic.RealEntries
-- ==== Proof.ChebBridge.lean ====
/-
  The two arrangements of the Chebyshev recurrence agree on extended reals that are real numbers.

  The identity of Proof/ChebAlgebra.lean, with every entry the image of a real number: sums and products of such
  extended reals are the images of the real sums and products, so the identity carries over. The contraction of the
  second product over 4096 columns is the sum of its two halves.
-/
import proofs.«145050_g80676665688617_cont_sun_m_757_33_alg».proof.Proof.ChebAlgebra
import proofs.«145050_g80676665688617_cont_sun_m_757_33_alg».proof.Proof.LibReal

noncomputable section

open scoped BigOperators

namespace Cert.ChebBridge

/-- The image of a finite real sum is the sum of the images. -/
@[norm_cast] theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum over 4096 columns is the sum over the first 2048 plus the sum over the last 2048. -/
theorem sum_halves (f : Fin 4096 → ℝ) (lo hi : Fin 2048 → Fin 4096) (hlo : ∀ k, (lo k).val = k.val) (hhi : ∀ k, (hi k).val = 2048 + k.val) :
    (∑ k : Fin 2048, f (lo k)) + ∑ k : Fin 2048, f (hi k) = ∑ k : Fin 4096, f k := by
  have h := Fin.sum_univ_add (a := 2048) (b := 2048) (f := f)
  rw [h]
  congr 1 <;> refine Finset.sum_congr rfl fun k _ => congrArg f (Fin.ext ?_)
  · rw [hlo]; rfl
  · rw [hhi]; rfl

theorem bridge (c : ℝ) (L : Fin 4096 → Fin 4096 → ℝ) (x : Fin 4096 → Fin 256 → ℝ) (W0 W1 W2 : Fin 256 → Fin 256 → ℝ) (b : Fin 256 → ℝ)
    (r : Fin 4096) (q : Fin 256) (lo hi : Fin 2048 → Fin 4096) (hlo : ∀ k, (lo k).val = k.val) (hhi : ∀ k, (hi k).val = 2048 + k.val) :
    (∑ k : Fin 2048, (L r (hi k) : EReal) * ((c : EReal) * ∑ j : Fin 256, (∑ i : Fin 4096, (L (hi k) i : EReal) * (x i j : EReal)) * (W2 j q : EReal)))
      + ((((∑ j : Fin 256, (x r j : EReal) * ((W0 j q : EReal) - (W2 j q : EReal))) + ∑ j : Fin 256, (∑ i : Fin 4096, (L r i : EReal) * (x i j : EReal)) * (W1 j q : EReal)) + (b q : EReal))
          + ∑ k : Fin 2048, (L r (lo k) : EReal) * ((c : EReal) * ∑ j : Fin 256, (∑ i : Fin 4096, (L (lo k) i : EReal) * (x i j : EReal)) * (W2 j q : EReal)))
      = (((∑ j : Fin 256, (x r j : EReal) * (W0 j q : EReal)) + ∑ j : Fin 256, (∑ k : Fin 4096, (L r k : EReal) * (x k j : EReal)) * (W1 j q : EReal))
          + ∑ j : Fin 256, ((c : EReal) * (∑ k : Fin 4096, (L r k : EReal) * ∑ i : Fin 4096, (L k i : EReal) * (x i j : EReal)) - (x r j : EReal)) * (W2 j q : EReal))
        + (b q : EReal) := by
  have key := ChebAlgebra.cheb_identity c L x W0 W1 W2 b r q
    (∑ k : Fin 2048, L r (lo k) * (c * ∑ j, (∑ i, L (lo k) i * x i j) * W2 j q))
    (∑ k : Fin 2048, L r (hi k) * (c * ∑ j, (∑ i, L (hi k) i * x i j) * W2 j q))
    (sum_halves (fun k => L r k * (c * ∑ j, (∑ i, L k i * x i j) * W2 j q)) lo hi hlo hhi)
  exact_mod_cast key

end Cert.ChebBridge
-- ==== Proof.ChebFinite.lean ====
/-
  Finite inputs are real numbers.

  The precondition says, of every entry x of the four argument arrays, that |x| < +infinity; at the exact instance an
  entry is an extended real, so each is a real number.
-/
import proofs.«145050_g80676665688617_cont_sun_m_757_33_alg».proof.Pre_finite_inputs
import proofs.«145050_g80676665688617_cont_sun_m_757_33_alg».proof.Proof.Gen.Pre_finite_inputs
import proofs.«145050_g80676665688617_cont_sun_m_757_33_alg».proof.Proof.LibReal
import Idealize.ShloMosaic.Lib.ReduceAll
import Idealize.ShloMosaic.Lib.ValueIdx
import Idealize.ShloMosaic.Lib.Affine
import Idealize.ShloMosaic.PureOps.Ideal.Laws

set_option maxRecDepth 16384

noncomputable section

namespace Cert.Pre_finite_inputs.ChebFinite

open Cert.Pre_finite_inputs Idealize.ShloMosaic Idealize.ShloMosaic.RealEntries

instance : Subsingleton S_.Idx := ⟨fun a b => funext fun d => d.elim0⟩

/-- An extended real whose absolute value compares below the pattern of +infinity is a real number. -/
theorem isReal_of_lt_inf (x : EReal) (h : Ideal.cmp .olt (max x (-x)) (Ideal.ofBits .f32 0x7F800000#32) = 1#1) : IsReal x := by
  have hinf : Ideal.ofBits .f32 0x7F800000#32 = (⊤ : EReal) := by simp [Ideal.ofBits, Ideal.ieee]
  rw [hinf] at h
  unfold Ideal.cmp at h
  dsimp only at h
  have hlt : max x (-x) < ⊤ := by
    by_contra hn
    rw [decide_eq_false hn] at h
    exact absurd h (by decide)
  exact isReal_of_abs_lt_top hlt

/-- Under the precondition every entry of every argument array is a real number. -/
theorem real_of_pre [Facts] (a0 : FVec Ideal S4096x256 .f32) (a1 : FVec Ideal S4096x4096 .f32) (a2 : FVec Ideal S3x256x256 .f32) (a3 : FVec Ideal S256 .f32)
    (h : fn (F := Ideal) a0 a1 a2 a3 = fun _ => 1#1) :
    (∀ i, IsReal (a0 i)) ∧ (∀ i, IsReal (a1 i)) ∧ (∀ i, IsReal (a2 i)) ∧ (∀ i, IsReal (a3 i)) := by
  have h0 := congrFun h ValueIdx.ix0
  dsimp only [fn, fn_part1] at h0
  obtain ⟨h012, e3⟩ := IntOp.andi_eq_one.mp h0
  obtain ⟨h01, e2⟩ := IntOp.andi_eq_one.mp h012
  obtain ⟨e0, e1⟩ := IntOp.andi_eq_one.mp h01
  exact ⟨fun i => isReal_of_lt_inf _ (Host.reduce_andi_all _ _ _ _ _ e0 i),
    fun i => isReal_of_lt_inf _ (Host.reduce_andi_all _ _ _ _ _ e1 i),
    fun i => isReal_of_lt_inf _ (Host.reduce_andi_all _ _ _ _ _ e2 i),
    fun i => isReal_of_lt_inf _ (Host.reduce_andi_all _ _ _ _ _ e3 i)⟩

end Cert.Pre_finite_inputs.ChebFinite

end
-- ==== Proof.ChebBodyK.lean ====
/-
  The kernel body of the Chebyshev graph convolution, at a symbolic grid point, for any float instance.

  The grid has twelve points. At points 0..7 the body converts strip t of L (rows 512t .. 512t+511) and keeps it in the
  first scratch array, forms the strip of T1 = L x, and stores rows 512t.. of Y = 2 (T1 W2) in the second scratch array and of
  A = x (W0 - W2) + T1 W1 + b in the third. At points 4..7 it then adds, for the 1024-row block p = t - 4, the left half
  of the second product, L[rows, :2048] Y[:2048], into the third array. At points 8..11 it writes the output block
  p = t - 8 as L[rows, 2048:] Y[2048:] plus the third array's rows.

  What each scratch array holds after a point is the array before it with the rows the point stores replaced
  (`setRows`); the three theorems `run_first`, `run_mid`, `run_last` say so for the three kinds of point.
-/
import proofs.«145050_g80676665688617_cont_sun_m_757_33_alg».proof.Proof.Gen.Kernel
import proofs.«145050_g80676665688617_cont_sun_m_757_33_alg».proof.Proof.Gen.Kernel.Skeleton
import proofs.«145050_g80676665688617_cont_sun_m_757_33_alg».proof.Proof.Gen.Kernel.Launch
import proofs.«145050_g80676665688617_cont_sun_m_757_33_alg».proof.Proof.Gen.Kernel.Points
import Idealize.ShloMosaic.Lib.Writes
import Idealize.ShloMosaic.Lib.WritesUnit
import Idealize.ShloMosaic.Lib.ValueIdx
import Idealize.ShloMosaic.Lib.Pipeline.FrameBody
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## Rows of a matrix replaced -/

/-- The matrix `a` with its rows `o .. o + W - 1` replaced by the rows of `w`. -/
def setRows {α : Type} {n k W : ℕ} (o : ℕ) (a : (⟨2, ![n, k]⟩ : Shape).Idx → α) (w : (⟨2, ![W, k]⟩ : Shape).Idx → α) :
    (⟨2, ![n, k]⟩ : Shape).Idx → α :=
  fun y => if h : o ≤ (y 0).val ∧ (y 0).val < o + W then w (ix2 ⟨(y 0).val - o, by omega⟩ (y 1)) else a y

theorem setRows_in {α : Type} {n k W : ℕ} (o : ℕ) (a : (⟨2, ![n, k]⟩ : Shape).Idx → α) (w : (⟨2, ![W, k]⟩ : Shape).Idx → α)
    (y : (⟨2, ![n, k]⟩ : Shape).Idx) (h : o ≤ (y 0).val ∧ (y 0).val < o + W) :
    setRows o a w y = w (ix2 ⟨(y 0).val - o, by omega⟩ (y 1)) := dif_pos h

theorem setRows_out {α : Type} {n k W : ℕ} (o : ℕ) (a : (⟨2, ![n, k]⟩ : Shape).Idx → α) (w : (⟨2, ![W, k]⟩ : Shape).Idx → α)
    (y : (⟨2, ![n, k]⟩ : Shape).Idx) (h : (y 0).val < o ∨ o + W ≤ (y 0).val) : setRows o a w y = a y :=
  dif_neg (by omega)

/-- A store of whole rows `o .. o + W - 1` through a view of an `n × k` buffer, read back: the rows replaced. -/
theorem read_writes_rows {sig' : RefSig} {κ : Kind} {sp : Space} {e : EltTy} {Val : EltTy → Type} {n k W : ℕ}
    (v : View sig' κ sp (⟨2, ![n, k]⟩ : Shape) e) (f : v.ty.Contents Val) {off : Fin 2 → ℕ} (o : ℕ)
    (inb : ∀ a : Fin 2, off a + (![W, k] : Fin 2 → ℕ) a ≤ (![n, k] : Fin 2 → ℕ) a)
    (w : (⟨2, ![W, k]⟩ : Shape).Idx → Val e) (L : List (View.Piece Val (⟨2, ![n, k]⟩ : Shape) e)) (hoff : off = ![o, 0]) :
    v.read Val (v.writes Val f ((⟨Rect.unit (s := ⟨2, ![n, k]⟩) off ![W, k] inb, w⟩ : View.Piece Val (⟨2, ![n, k]⟩ : Shape) e) :: L))
      = setRows o (v.read Val (v.writes Val f L)) w := by
  funext y
  unfold setRows
  by_cases h : o ≤ (y 0).val ∧ (y 0).val < o + W
  · rw [dif_pos h]
    exact View.read_writes_cons_rows_of_mem v f inb w L y (ix2 ⟨(y 0).val - o, by omega⟩ (y 1)) hoff
      (by have := h.1; show (y 0).val = o + ((y 0).val - o); omega) rfl
  · rw [dif_neg h]
    exact View.read_writes_cons_rows_of_not_mem (W := W) v f inb w L y hoff rfl (by omega)

/-! ## The points by kind, and the offsets there -/

/-- Points 0..3, 4..7 and 8..11, by their position `p = 0..3` within the kind. -/
def ptA (p : Fin 4) : Fin grid0.N := ⟨p.val, by have := p.isLt; have : grid0.N = 12 := N_0; omega⟩
def ptB (p : Fin 4) : Fin grid0.N := ⟨p.val + 4, by have := p.isLt; have : grid0.N = 12 := N_0; omega⟩
def ptC (p : Fin 4) : Fin grid0.N := ⟨p.val + 8, by have := p.isLt; have : grid0.N = 12 := N_0; omega⟩

theorem cond_A : ∀ p : Fin 4, k0_cond1 (grid0.coords (ptA p)) = 1#1 ∧ ¬ k0_cond2 (grid0.coords (ptA p)) = 1#1 ∧ ¬ k0_cond3 (grid0.coords (ptA p)) = 1#1 := by decide +kernel
theorem cond_B : ∀ p : Fin 4, k0_cond1 (grid0.coords (ptB p)) = 1#1 ∧ k0_cond2 (grid0.coords (ptB p)) = 1#1 ∧ ¬ k0_cond3 (grid0.coords (ptB p)) = 1#1 := by decide +kernel
theorem cond_C : ∀ p : Fin 4, ¬ k0_cond1 (grid0.coords (ptC p)) = 1#1 ∧ ¬ k0_cond2 (grid0.coords (ptC p)) = 1#1 ∧ k0_cond3 (grid0.coords (ptC p)) = 1#1 := by decide +kernel

theorem off1_A : ∀ p : Fin 4, k0_off1 (grid0.coords (ptA p)) = ![512 * p.val, 0] := by decide +kernel
theorem off2_A : ∀ p : Fin 4, k0_off2 (grid0.coords (ptA p)) = ![512 * p.val, 0] := by decide +kernel
theorem off1_B : ∀ p : Fin 4, k0_off1 (grid0.coords (ptB p)) = ![512 * p.val + 2048, 0] := by decide +kernel
theorem off2_B : ∀ p : Fin 4, k0_off2 (grid0.coords (ptB p)) = ![512 * p.val + 2048, 0] := by decide +kernel
theorem off3_B : ∀ p : Fin 4, k0_off3 (grid0.coords (ptB p)) = ![1024 * p.val, 0] := by decide +kernel
theorem off4_B : ∀ p : Fin 4, k0_off4 (grid0.coords (ptB p)) = ![1024 * p.val, 0] := by decide +kernel
theorem off5_C : ∀ p : Fin 4, k0_off5 (grid0.coords (ptC p)) = ![1024 * p.val, 2048] := by decide +kernel
theorem off6_C : ∀ p : Fin 4, k0_off6 (grid0.coords (ptC p)) = ![1024 * p.val, 0] := by decide +kernel
instance closedOff1_A (p : Fin 4) : ClosedOff (k0_off1 (grid0.coords (ptA p))) := ⟨_, off1_A p⟩
instance closedOff2_A (p : Fin 4) : ClosedOff (k0_off2 (grid0.coords (ptA p))) := ⟨_, off2_A p⟩
instance closedOff1_B (p : Fin 4) : ClosedOff (k0_off1 (grid0.coords (ptB p))) := ⟨_, off1_B p⟩
instance closedOff2_B (p : Fin 4) : ClosedOff (k0_off2 (grid0.coords (ptB p))) := ⟨_, off2_B p⟩
instance closedOff3_B (p : Fin 4) : ClosedOff (k0_off3 (grid0.coords (ptB p))) := ⟨_, off3_B p⟩
instance closedOff4_B (p : Fin 4) : ClosedOff (k0_off4 (grid0.coords (ptB p))) := ⟨_, off4_B p⟩
instance closedOff5_C (p : Fin 4) : ClosedOff (k0_off5 (grid0.coords (ptC p))) := ⟨_, off5_C p⟩
instance closedOff6_C (p : Fin 4) : ClosedOff (k0_off6 (grid0.coords (ptC p))) := ⟨_, off6_C p⟩

/-! ## What a point stores -/

/-- The scratch arrays (whole): the converted L, Y and the accumulator. -/
abbrev sc0 : Memref sig .tc .vmem S4096x4096 .bf16 := Memref.whole cc0_scratch0
abbrev sc1 : Memref sig .tc .vmem S4096x256 .bf16 := Memref.whole cc0_scratch1
abbrev sc2 : Memref sig .tc .vmem S4096x256 .bf16 := Memref.whole cc0_scratch2

/-- The boxes the body loads whole windows through. -/
abbrev rL : Rect S512x4096 := Rect.unit (s := S512x4096) ![0, 0] S512x4096.size inb_S512x4096_S512x4096_0_0
abbrev rX : Rect S4096x256 := Rect.unit (s := S4096x256) ![0, 0] S4096x256.size inb_S4096x256_S4096x256_0_0
abbrev rW0 : Rect S3x256x256 := Rect.unit (s := S3x256x256) ![0, 0, 0] S1x256x256.size inb_S3x256x256_S1x256x256_0_0_0
abbrev rW1 : Rect S3x256x256 := Rect.unit (s := S3x256x256) ![1, 0, 0] S1x256x256.size inb_S3x256x256_S1x256x256_1_0_0
abbrev rW2 : Rect S3x256x256 := Rect.unit (s := S3x256x256) ![2, 0, 0] S1x256x256.size inb_S3x256x256_S1x256x256_2_0_0
abbrev rB : Rect S1x256 := Rect.unit (s := S1x256) ![0, 0] S1x256.size inb_S1x256_S1x256_0_0
abbrev rTop : Rect S4096x256 := Rect.unit (s := S4096x256) ![0, 0] S2048x256.size inb_S4096x256_S2048x256_0_0
abbrev rBot : Rect S4096x256 := Rect.unit (s := S4096x256) ![2048, 0] S2048x256.size inb_S4096x256_S2048x256_2048_0

section Stored

variable (x0 : Vec F S512x4096 .f32) (x1 : Vec F S4096x256 .bf16) (x2 : Vec F S3x256x256 .bf16) (x3 : Vec F S1x256 .f32)

/-- The strip of L as stored, of Y, and of the accumulator (the last reads the strip's own rows of x, so it depends on
    the point `i`, a streaming one: `h`). -/
def stL : Vec F S512x4096 .bf16 := k0_pay5 (View.ld x0 rL)
def stY : Vec F S512x256 .bf16 := k0_pay7 (View.ld x0 rL) (View.ld x1 rX) (View.ld x2 rW2)
def stA (i : grid0.Coords) (h : k0_cond1 i = 1#1) : Vec F S512x256 .bf16 :=
  k0_pay1 (k0_pay8 (View.ld x2 rW0) (View.ld x2 rW2) (View.ld x1 (Rect.unit (s := S4096x256) (k0_off2 i) S512x256.size (k0_off2_inb i h))))
    (k0_pay9 (View.ld x0 rL) (View.ld x1 rX) (View.ld x2 rW1)) (View.ld x3 rB)

end Stored

/-- The accumulator's block `p` after the left half is added: from the three scratch arrays as the streaming part of the
    point left them. -/
def accB (p : Fin 4) (b6 : Vec F S4096x4096 .bf16) (b7 b8 : Vec F S4096x256 .bf16) : Vec F S1024x256 .bf16 :=
  k0_pay2 (View.ld b6 (Rect.unit (s := S4096x4096) (k0_off3 (grid0.coords (ptB p))) S1024x2048.size (k0_off3_inb _ (cond_B p).2.1)))
    (View.ld b7 rTop)
    (View.ld b8 (Rect.unit (s := S4096x256) (k0_off4 (grid0.coords (ptB p))) S1024x256.size (k0_off4_inb _ (cond_B p).2.1)))

/-- The output block `p`: from the three scratch arrays. -/
def outB (p : Fin 4) (a6 : Vec F S4096x4096 .bf16) (a7 a8 : Vec F S4096x256 .bf16) : Vec F S1024x256 .f32 :=
  k0_pay3 (View.ld a6 (Rect.unit (s := S4096x4096) (k0_off5 (grid0.coords (ptC p))) S1024x2048.size (k0_off5_inb _ (cond_C p).2.2)))
    (View.ld a7 rBot)
    (View.ld a8 (Rect.unit (s := S4096x256) (k0_off6 (grid0.coords (ptC p))) S1024x256.size (k0_off6_inb _ (cond_C p).2.2)))

/-! ## The body's three runs -/

section Runs

variable (c : Dev nD) (p : Fin 4)
  (M0 : Memref sig .tc .vmem S512x4096 .f32) (h0 : M0.IsWhole)
  (M1 : Memref sig .tc .vmem S4096x256 .bf16) (h1 : M1.IsWhole)
  (M2 : Memref sig .tc .vmem S3x256x256 .bf16) (h2 : M2.IsWhole)
  (M3 : Memref sig .tc .vmem S1x256 .f32) (h3 : M3.IsWhole)
  (M4 : Memref sig .tc .vmem S1024x256 .f32) (h4 : M4.IsWhole)
  (x0 : Vec F S512x4096 .f32) (x1 : Vec F S4096x256 .bf16) (x2 : Vec F S3x256x256 .bf16) (x3 : Vec F S1x256 .f32)
  (a6 : Vec F S4096x4096 .bf16) (a7 a8 : Vec F S4096x256 .bf16)

/-- The body at a point of grid coordinates `i`, on the five staging buffers and the three scratch arrays. -/
abbrev body (i : grid0.Coords) : Prog (TpuEff nD τ sig (Elt F) Λ₀ .tc) PUnit :=
  cc0__cheb_kernel (F := F) i M0 h0 M1 h1 M2 h2 M3 h3 M4 h4 sc0 (Memref.isWhole_whole _) sc1 (Memref.isWhole_whole _) sc2 (Memref.isWhole_whole _)

/-- Points 0..3: the three strips are stored; the output's buffer (`O`) is not touched. -/
theorem run_first (O : sProp 𝕄) (Q : PUnit → sProp 𝕄) :
    iprop(owns (c : Thread nD τ) M0 fullShare x0 ∗ owns (c : Thread nD τ) M1 fullShare x1 ∗ owns (c : Thread nD τ) M2 fullShare x2
      ∗ owns (c : Thread nD τ) M3 fullShare x3 ∗ O
      ∗ owns (c : Thread nD τ) sc0 fullShare a6 ∗ owns (c : Thread nD τ) sc1 fullShare a7 ∗ owns (c : Thread nD τ) sc2 fullShare a8
      ∗ (iprop(owns (c : Thread nD τ) M0 fullShare x0 ∗ owns (c : Thread nD τ) M1 fullShare x1 ∗ owns (c : Thread nD τ) M2 fullShare x2
          ∗ owns (c : Thread nD τ) M3 fullShare x3 ∗ O
          ∗ owns (c : Thread nD τ) sc0 fullShare (setRows (512 * p.val) a6 (stL x0))
          ∗ owns (c : Thread nD τ) sc1 fullShare (setRows (512 * p.val) a7 (stY x0 x1 x2))
          ∗ owns (c : Thread nD τ) sc2 fullShare (setRows (512 * p.val) a8 (stA x0 x1 x2 x3 (grid0.coords (ptA p)) (cond_A p).1))) -∗ Q ⟨⟩))
      ⊢ wp frame (wpE (defs₀ (F := F)) Variants.none c none) Set.univ (body M0 h0 M1 h1 M2 h2 M3 h3 M4 h4 (grid0.coords (ptA p))) Q := by
  have hc1 := (cond_A p).1
  have hc2 := (cond_A p).2.1
  have hc3 := (cond_A p).2.2
  unfold owns
  iintro ⟨⟨%f0, %hf0, H0⟩, ⟨%f1, %hf1, H1⟩, ⟨%f2, %hf2, H2⟩, ⟨%f3, %hf3, H3⟩, HO, ⟨%f6, %hf6, H6⟩, ⟨%f7, %hf7, H7⟩, ⟨%f8, %hf8, H8⟩, Hk⟩
  subst hf0 hf1 hf2 hf3 hf6 hf7 hf8
  sl_exec! (disch := assumption)
  sl_step
  iapply Hk
  isplitl [H0]; · iexists f0; isplitr; (· ipureintro; rfl); iexact H0
  isplitl [H1]; · iexists f1; isplitr; (· ipureintro; rfl); iexact H1
  isplitl [H2]; · iexists f2; isplitr; (· ipureintro; rfl); iexact H2
  isplitl [H3]; · iexists f3; isplitr; (· ipureintro; rfl); iexact H3
  isplitl [HO]; · iexact HO
  isplitl [H6]
  · iexists _; isplitr; swap; (· iexact H6); ipureintro
    exact read_writes_rows sc0.view f6 (512 * p.val) _ _ [] (off1_A p)
  isplitl [H7]
  · iexists _; isplitr; swap; (· iexact H7); ipureintro
    exact read_writes_rows sc1.view f7 (512 * p.val) _ _ [] (off2_A p)
  · iexists _; isplitr; swap; (· iexact H8); ipureintro
    exact read_writes_rows sc2.view f8 (512 * p.val) _ _ [] (off2_A p)

/-- Points 4..7: the three strips are stored, then block `p` of the accumulator gets the left half added. -/
theorem run_mid (O : sProp 𝕄) (Q : PUnit → sProp 𝕄) :
    iprop(owns (c : Thread nD τ) M0 fullShare x0 ∗ owns (c : Thread nD τ) M1 fullShare x1 ∗ owns (c : Thread nD τ) M2 fullShare x2
      ∗ owns (c : Thread nD τ) M3 fullShare x3 ∗ O
      ∗ owns (c : Thread nD τ) sc0 fullShare a6 ∗ owns (c : Thread nD τ) sc1 fullShare a7 ∗ owns (c : Thread nD τ) sc2 fullShare a8
      ∗ (iprop(owns (c : Thread nD τ) M0 fullShare x0 ∗ owns (c : Thread nD τ) M1 fullShare x1 ∗ owns (c : Thread nD τ) M2 fullShare x2
          ∗ owns (c : Thread nD τ) M3 fullShare x3 ∗ O
          ∗ owns (c : Thread nD τ) sc0 fullShare (setRows (512 * p.val + 2048) a6 (stL x0))
          ∗ owns (c : Thread nD τ) sc1 fullShare (setRows (512 * p.val + 2048) a7 (stY x0 x1 x2))
          ∗ owns (c : Thread nD τ) sc2 fullShare (setRows (1024 * p.val) (setRows (512 * p.val + 2048) a8 (stA x0 x1 x2 x3 (grid0.coords (ptB p)) (cond_B p).1))
              (accB p (setRows (512 * p.val + 2048) a6 (stL x0)) (setRows (512 * p.val + 2048) a7 (stY x0 x1 x2))
                (setRows (512 * p.val + 2048) a8 (stA x0 x1 x2 x3 (grid0.coords (ptB p)) (cond_B p).1))))) -∗ Q ⟨⟩))
      ⊢ wp frame (wpE (defs₀ (F := F)) Variants.none c none) Set.univ (body M0 h0 M1 h1 M2 h2 M3 h3 M4 h4 (grid0.coords (ptB p))) Q := by
  have hc1 := (cond_B p).1
  have hc2 := (cond_B p).2.1
  have hc3 := (cond_B p).2.2
  unfold owns
  iintro ⟨⟨%f0, %hf0, H0⟩, ⟨%f1, %hf1, H1⟩, ⟨%f2, %hf2, H2⟩, ⟨%f3, %hf3, H3⟩, HO, ⟨%f6, %hf6, H6⟩, ⟨%f7, %hf7, H7⟩, ⟨%f8, %hf8, H8⟩, Hk⟩
  subst hf0 hf1 hf2 hf3 hf6 hf7 hf8
  sl_exec! (disch := assumption)
  sl_step
  iapply Hk
  have e6 := read_writes_rows sc0.view f6 (512 * p.val + 2048) (k0_off1_inb _ hc1) (stL (M0.view.read (Elt F) f0)) [] (off1_B p)
  have e7 := read_writes_rows sc1.view f7 (512 * p.val + 2048) (k0_off2_inb _ hc1) (stY (M0.view.read (Elt F) f0) (M1.view.read (Elt F) f1) (M2.view.read (Elt F) f2)) [] (off2_B p)
  have e8 := read_writes_rows sc2.view f8 (512 * p.val + 2048) (k0_off2_inb _ hc1)
    (stA (M0.view.read (Elt F) f0) (M1.view.read (Elt F) f1) (M2.view.read (Elt F) f2) (M3.view.read (Elt F) f3) (grid0.coords (ptB p)) hc1) [] (off2_B p)
  isplitl [H0]; · iexists f0; isplitr; (· ipureintro; rfl); iexact H0
  isplitl [H1]; · iexists f1; isplitr; (· ipureintro; rfl); iexact H1
  isplitl [H2]; · iexists f2; isplitr; (· ipureintro; rfl); iexact H2
  isplitl [H3]; · iexists f3; isplitr; (· ipureintro; rfl); iexact H3
  isplitl [HO]; · iexact HO
  isplitl [H6]
  · iexists _; isplitr; swap; (· iexact H6); ipureintro
    exact e6
  isplitl [H7]
  · iexists _; isplitr; swap; (· iexact H7); ipureintro
    exact e7
  · iexists _; isplitr; swap; (· iexact H8); ipureintro
    refine (read_writes_rows sc2.view f8 (1024 * p.val) (k0_off4_inb _ hc2) _ _ (off4_B p)).trans ?_
    have key : ∀ (u6 : Vec F S4096x4096 .bf16) (u7 u8 : Vec F S4096x256 .bf16),
        u6 = setRows (512 * p.val + 2048) (sc0.view.read (Elt F) f6) (stL (M0.view.read (Elt F) f0)) →
        u7 = setRows (512 * p.val + 2048) (sc1.view.read (Elt F) f7) (stY (M0.view.read (Elt F) f0) (M1.view.read (Elt F) f1) (M2.view.read (Elt F) f2)) →
        u8 = setRows (512 * p.val + 2048) (sc2.view.read (Elt F) f8) (stA (M0.view.read (Elt F) f0) (M1.view.read (Elt F) f1) (M2.view.read (Elt F) f2) (M3.view.read (Elt F) f3) (grid0.coords (ptB p)) hc1) →
        setRows (1024 * p.val) u8 (accB p u6 u7 u8)
          = setRows (1024 * p.val) (setRows (512 * p.val + 2048) (sc2.view.read (Elt F) f8) (stA (M0.view.read (Elt F) f0) (M1.view.read (Elt F) f1) (M2.view.read (Elt F) f2) (M3.view.read (Elt F) f3) (grid0.coords (ptB p)) (cond_B p).1))
              (accB p (setRows (512 * p.val + 2048) (sc0.view.read (Elt F) f6) (stL (M0.view.read (Elt F) f0))) (setRows (512 * p.val + 2048) (sc1.view.read (Elt F) f7) (stY (M0.view.read (Elt F) f0) (M1.view.read (Elt F) f1) (M2.view.read (Elt F) f2)))
                (setRows (512 * p.val + 2048) (sc2.view.read (Elt F) f8) (stA (M0.view.read (Elt F) f0) (M1.view.read (Elt F) f1) (M2.view.read (Elt F) f2) (M3.view.read (Elt F) f3) (grid0.coords (ptB p)) (cond_B p).1))) := by
      intro u6 u7 u8 h6 h7 h8; subst h6 h7 h8; rfl
    exact key _ _ _ e6 e7 e8

/-- Every row replaced: the new rows. -/
theorem setRows_all {α : Type} {n k : ℕ} (a w : (⟨2, ![n, k]⟩ : Shape).Idx → α) : setRows 0 a w = w := by
  funext y
  rw [setRows_in 0 a w y ⟨Nat.zero_le _, by have := idx2_lt0 y; omega⟩]
  exact congrArg w (funext fun d => Fin.ext (by match d with | ⟨0, _⟩ => rfl | ⟨1, _⟩ => rfl))

/-- Points 8..11: the output's buffer gets block `p`; the scratch arrays are only read. -/
theorem run_last (Q : PUnit → sProp 𝕄) :
    iprop(owns (c : Thread nD τ) M0 fullShare x0 ∗ owns (c : Thread nD τ) M1 fullShare x1 ∗ owns (c : Thread nD τ) M2 fullShare x2
      ∗ owns (c : Thread nD τ) M3 fullShare x3 ∗ (∃ d, owns (c : Thread nD τ) M4 fullShare d)
      ∗ owns (c : Thread nD τ) sc0 fullShare a6 ∗ owns (c : Thread nD τ) sc1 fullShare a7 ∗ owns (c : Thread nD τ) sc2 fullShare a8
      ∗ (iprop(owns (c : Thread nD τ) M0 fullShare x0 ∗ owns (c : Thread nD τ) M1 fullShare x1 ∗ owns (c : Thread nD τ) M2 fullShare x2
          ∗ owns (c : Thread nD τ) M3 fullShare x3 ∗ owns (c : Thread nD τ) M4 fullShare (outB p a6 a7 a8)
          ∗ owns (c : Thread nD τ) sc0 fullShare a6 ∗ owns (c : Thread nD τ) sc1 fullShare a7 ∗ owns (c : Thread nD τ) sc2 fullShare a8) -∗ Q ⟨⟩))
      ⊢ wp frame (wpE (defs₀ (F := F)) Variants.none c none) Set.univ (body M0 h0 M1 h1 M2 h2 M3 h3 M4 h4 (grid0.coords (ptC p))) Q := by
  have hc1 := (cond_C p).1
  have hc2 := (cond_C p).2.1
  have hc3 := (cond_C p).2.2
  unfold owns
  iintro ⟨⟨%f0, %hf0, H0⟩, ⟨%f1, %hf1, H1⟩, ⟨%f2, %hf2, H2⟩, ⟨%f3, %hf3, H3⟩, ⟨%d4, %f4, %hf4, H4⟩, ⟨%f6, %hf6, H6⟩, ⟨%f7, %hf7, H7⟩, ⟨%f8, %hf8, H8⟩, Hk⟩
  subst hf0 hf1 hf2 hf3 hf6 hf7 hf8
  sl_exec! (disch := assumption)
  sl_step
  iapply Hk
  isplitl [H0]; · iexists f0; isplitr; (· ipureintro; rfl); iexact H0
  isplitl [H1]; · iexists f1; isplitr; (· ipureintro; rfl); iexact H1
  isplitl [H2]; · iexists f2; isplitr; (· ipureintro; rfl); iexact H2
  isplitl [H3]; · iexists f3; isplitr; (· ipureintro; rfl); iexact H3
  isplitl [H4]
  · iexists _; isplitr; swap; (· iexact H4); ipureintro
    exact (read_writes_rows M4.view M4.view.junk 0 inb_S1024x256_S1024x256_0_0 _ [] rfl).trans (setRows_all _ _)
  isplitl [H6]; · iexists f6; isplitr; (· ipureintro; rfl); iexact H6
  isplitl [H7]; · iexists f7; isplitr; (· ipureintro; rfl); iexact H7
  · iexists f8; isplitr; (· ipureintro; rfl); iexact H8

end Runs

end Cert.Kernel.Body

end
-- ==== Proof.ChebInvK.lean ====
/-
  The scratch arrays in closed form, for any float instance.

  Row r of the converted L, of Y and of the streamed accumulator depends only on strip r / 512 of L (and on x, the
  weights and the bias); block q of the accumulator after the left half is added, and output block q, depend on
  those whole arrays. `Inv s` says that after `s` strips (and `s - 4` left halves) the three scratch arrays agree
  with these closed forms on the rows written so far; each kind of point preserves it, and once all eight strips are in,
  the output block a point writes is the closed form's.
-/
import proofs.«145050_g80676665688617_cont_sun_m_757_33_alg».proof.Proof.ChebBodyK

set_option maxRecDepth 16384

noncomputable section

namespace Cert.Kernel.Body

open Cert.Kernel Cert.Kernel.Gen
open Idealize.ShloMosaic Idealize.ShloMosaic.ValueIdx

variable {F : FTy → Type} [FloatOps F]

/-- The strip (of 512 rows) and the block (of 1024 rows) a row lies in. -/
def stripOf (r : Fin 4096) : Fin 8 := ⟨r.val / 512, by have := r.isLt; omega⟩
def blockOf (r : Fin 4096) : Fin 4 := ⟨r.val / 1024, by have := r.isLt; omega⟩
/-- The streaming point of strip `j`. -/
def ptS (j : Fin 8) : Fin grid0.N := ⟨j.val, by have := j.isLt; have : grid0.N = 12 := N_0; omega⟩
theorem cond1_S : ∀ j : Fin 8, k0_cond1 (grid0.coords (ptS j)) = 1#1 := by decide +kernel

/-- Two matrices that agree on rows `o .. o + W - 1` load the same through a box of those rows. -/
theorem ld_congr_rows {α : EltTy} {n k W K : ℕ} (a b : (⟨2, ![n, k]⟩ : Shape).Idx → Elt F α) {off : Fin 2 → ℕ}
    (inb : ∀ d : Fin 2, off d + (![W, K] : Fin 2 → ℕ) d ≤ (![n, k] : Fin 2 → ℕ) d) (o : ℕ) (hoff : off 0 = o)
    (h : ∀ y : (⟨2, ![n, k]⟩ : Shape).Idx, o ≤ (y 0).val → (y 0).val < o + W → a y = b y) :
    View.ld a (Rect.unit (s := ⟨2, ![n, k]⟩) off ![W, K] inb) = View.ld b (Rect.unit (s := ⟨2, ![n, k]⟩) off ![W, K] inb) :=
  funext fun x => h _ (by show o ≤ off 0 + 1 * (x 0).val; omega)
    (by have hx : (x 0).val < W := (x 0).isLt; show off 0 + 1 * (x 0).val < o + W; omega)

section Spec

variable (X0 : Fin 8 → Vec F S512x4096 .f32) (X1 : Vec F S4096x256 .bf16) (X2 : Vec F S3x256x256 .bf16) (X3 : Vec F S1x256 .f32)

/-- The converted L, Y = 2 (T1 W2), and the streamed accumulator x (W0 - W2) + T1 W1 + b, row by row from the strips. -/
def LBn : Vec F S4096x4096 .bf16 := fun y =>
  stL (X0 (stripOf (y 0))) (ix2 ⟨(y 0).val % 512, Nat.mod_lt _ (by norm_num)⟩ (y 1))
def YYn : Vec F S4096x256 .bf16 := fun y =>
  stY (X0 (stripOf (y 0))) X1 X2 (ix2 ⟨(y 0).val % 512, Nat.mod_lt _ (by norm_num)⟩ (y 1))
def stAj (j : Fin 8) : Vec F S512x256 .bf16 := stA (X0 j) X1 X2 X3 (grid0.coords (ptS j)) (cond1_S j)
def A1n : Vec F S4096x256 .bf16 := fun y =>
  stAj X0 X1 X2 X3 (stripOf (y 0)) (ix2 ⟨(y 0).val % 512, Nat.mod_lt _ (by norm_num)⟩ (y 1))
/-- The accumulator with the left half of the second product added, block by block. -/
def A2n : Vec F S4096x256 .bf16 := fun y =>
  accB (blockOf (y 0)) (LBn X0) (YYn X0 X1 X2) (A1n X0 X1 X2 X3) (ix2 ⟨(y 0).val % 1024, Nat.mod_lt _ (by norm_num)⟩ (y 1))
/-- Output block `q`. -/
def OUTn (q : Fin 4) : Vec F S1024x256 .f32 := outB q (LBn X0) (YYn X0 X1 X2) (A2n X0 X1 X2 X3)

theorem LBn_row (j : Fin 8) (y : S4096x4096.Idx) (h : 512 * j.val ≤ (y 0).val ∧ (y 0).val < 512 * j.val + 512) :
    LBn X0 y = stL (X0 j) (ix2 ⟨(y 0).val - 512 * j.val, by omega⟩ (y 1)) := by
  unfold LBn
  have hs : stripOf (y 0) = j := Fin.ext (by show (y 0).val / 512 = j.val; omega)
  rw [hs]
  exact congrArg (fun a => stL (X0 j) (ix2 a (y 1))) (Fin.ext (by show (y 0).val % 512 = (y 0).val - 512 * j.val; omega))

theorem YYn_row (j : Fin 8) (y : S4096x256.Idx) (h : 512 * j.val ≤ (y 0).val ∧ (y 0).val < 512 * j.val + 512) :
    YYn X0 X1 X2 y = stY (X0 j) X1 X2 (ix2 ⟨(y 0).val - 512 * j.val, by omega⟩ (y 1)) := by
  unfold YYn
  have hs : stripOf (y 0) = j := Fin.ext (by show (y 0).val / 512 = j.val; omega)
  rw [hs]
  exact congrArg (fun a => stY (X0 j) X1 X2 (ix2 a (y 1))) (Fin.ext (by show (y 0).val % 512 = (y 0).val - 512 * j.val; omega))

theorem A1n_row (j : Fin 8) (y : S4096x256.Idx) (h : 512 * j.val ≤ (y 0).val ∧ (y 0).val < 512 * j.val + 512) :
    A1n X0 X1 X2 X3 y = stA (X0 j) X1 X2 X3 (grid0.coords (ptS j)) (cond1_S j) (ix2 ⟨(y 0).val - 512 * j.val, by omega⟩ (y 1)) := by
  unfold A1n
  have hs : stripOf (y 0) = j := Fin.ext (by show (y 0).val / 512 = j.val; omega)
  rw [hs]
  exact congrArg (fun a => stAj X0 X1 X2 X3 j (ix2 a (y 1)))
    (Fin.ext (by show (y 0).val % 512 = (y 0).val - 512 * j.val; omega))

theorem A2n_row (q : Fin 4) (y : S4096x256.Idx) (h : 1024 * q.val ≤ (y 0).val ∧ (y 0).val < 1024 * q.val + 1024) :
    A2n X0 X1 X2 X3 y = accB q (LBn X0) (YYn X0 X1 X2) (A1n X0 X1 X2 X3) (ix2 ⟨(y 0).val - 1024 * q.val, by omega⟩ (y 1)) := by
  unfold A2n
  have hs : blockOf (y 0) = q := Fin.ext (by show (y 0).val / 1024 = q.val; omega)
  rw [hs]
  exact congrArg (fun a => accB q (LBn X0) (YYn X0 X1 X2) (A1n X0 X1 X2 X3) (ix2 a (y 1)))
    (Fin.ext (by show (y 0).val % 1024 = (y 0).val - 1024 * q.val; omega))

/-- After `s` strips: the first two scratch arrays agree with the closed forms on rows below `512 s`; the third with the
    completed accumulator on the blocks whose left half is in (`s - 4` of them), with the streamed one on the rest. -/
structure Inv (s : ℕ) (a6 : Vec F S4096x4096 .bf16) (a7 a8 : Vec F S4096x256 .bf16) : Prop where
  h6 : ∀ y : S4096x4096.Idx, (y 0).val < 512 * s → a6 y = LBn X0 y
  h7 : ∀ y : S4096x256.Idx, (y 0).val < 512 * s → a7 y = YYn X0 X1 X2 y
  h8a : ∀ y : S4096x256.Idx, (y 0).val < 1024 * (s - 4) → a8 y = A2n X0 X1 X2 X3 y
  h8b : ∀ y : S4096x256.Idx, 1024 * (s - 4) ≤ (y 0).val → (y 0).val < 512 * s → a8 y = A1n X0 X1 X2 X3 y

theorem inv_zero (a6 : Vec F S4096x4096 .bf16) (a7 a8 : Vec F S4096x256 .bf16) : Inv X0 X1 X2 X3 0 a6 a7 a8 :=
  ⟨fun y h => absurd h (by omega), fun y h => absurd h (by omega), fun y h => absurd h (by omega), fun y _ h => absurd h (by omega)⟩

variable {a6 : Vec F S4096x4096 .bf16} {a7 a8 : Vec F S4096x256 .bf16}

/-- A strip stored keeps agreement on the earlier rows and adds its own. -/
theorem agree_strip6 (j : Fin 8) (o : ℕ) (ho : o = 512 * j.val) (h : ∀ y : S4096x4096.Idx, (y 0).val < 512 * j.val → a6 y = LBn X0 y) (y : S4096x4096.Idx)
    (hy : (y 0).val < 512 * (j.val + 1)) : setRows o a6 (stL (X0 j)) y = LBn X0 y := by
  subst ho
  by_cases hlt : (y 0).val < 512 * j.val
  · rw [setRows_out _ _ _ y (Or.inl hlt)]; exact h y hlt
  · rw [setRows_in _ _ _ y ⟨by omega, by omega⟩, LBn_row X0 j y ⟨by omega, by omega⟩]

theorem agree_strip7 (j : Fin 8) (o : ℕ) (ho : o = 512 * j.val) (h : ∀ y : S4096x256.Idx, (y 0).val < 512 * j.val → a7 y = YYn X0 X1 X2 y) (y : S4096x256.Idx)
    (hy : (y 0).val < 512 * (j.val + 1)) : setRows o a7 (stY (X0 j) X1 X2) y = YYn X0 X1 X2 y := by
  subst ho
  by_cases hlt : (y 0).val < 512 * j.val
  · rw [setRows_out _ _ _ y (Or.inl hlt)]; exact h y hlt
  · rw [setRows_in _ _ _ y ⟨by omega, by omega⟩, YYn_row X0 X1 X2 j y ⟨by omega, by omega⟩]

theorem agree_strip8 (j : Fin 8) (o : ℕ) (ho : o = 512 * j.val) (lo : ℕ) (h : ∀ y : S4096x256.Idx, lo ≤ (y 0).val → (y 0).val < 512 * j.val → a8 y = A1n X0 X1 X2 X3 y)
    (y : S4096x256.Idx) (hlo : lo ≤ (y 0).val) (hy : (y 0).val < 512 * (j.val + 1)) :
    setRows o a8 (stA (X0 j) X1 X2 X3 (grid0.coords (ptS j)) (cond1_S j)) y = A1n X0 X1 X2 X3 y := by
  subst ho
  by_cases hlt : (y 0).val < 512 * j.val
  · rw [setRows_out _ _ _ y (Or.inl hlt)]; exact h y hlo hlt
  · rw [setRows_in _ _ _ y ⟨by omega, by omega⟩, A1n_row X0 X1 X2 X3 j y ⟨by omega, by omega⟩]

/-- Points 0..3 (strip `p`): no left half yet. -/
theorem inv_first (p : Fin 4) (hI : Inv X0 X1 X2 X3 p.val a6 a7 a8) :
    Inv X0 X1 X2 X3 (p.val + 1) (setRows (512 * p.val) a6 (stL (X0 ⟨p.val, by have := p.isLt; omega⟩)))
      (setRows (512 * p.val) a7 (stY (X0 ⟨p.val, by have := p.isLt; omega⟩) X1 X2))
      (setRows (512 * p.val) a8 (stA (X0 ⟨p.val, by have := p.isLt; omega⟩) X1 X2 X3 (grid0.coords (ptA p)) (cond_A p).1)) := by
  have hp := p.isLt
  exact ⟨fun y hy => agree_strip6 X0 ⟨p.val, by omega⟩ _ rfl hI.h6 y hy,
    fun y hy => agree_strip7 X0 X1 X2 ⟨p.val, by omega⟩ _ rfl hI.h7 y hy,
    fun y hy => absurd hy (by omega),
    fun y _ hy => agree_strip8 X0 X1 X2 X3 ⟨p.val, by omega⟩ _ rfl 0 (fun y _ h => hI.h8b y (by omega) h) y (Nat.zero_le _) hy⟩

/-- Points 4..7 (strip `p + 4`, then the left half of block `p`): the block's rows of the first and third arrays, and the
    top 2048 rows of the second, are all in by then, so the block added is the closed form's. -/
theorem inv_mid (p : Fin 4) (hI : Inv X0 X1 X2 X3 (p.val + 4) a6 a7 a8)
    (b6 : Vec F S4096x4096 .bf16) (b7 b8 : Vec F S4096x256 .bf16)
    (hb6 : b6 = setRows (512 * p.val + 2048) a6 (stL (X0 ⟨p.val + 4, by have := p.isLt; omega⟩)))
    (hb7 : b7 = setRows (512 * p.val + 2048) a7 (stY (X0 ⟨p.val + 4, by have := p.isLt; omega⟩) X1 X2))
    (hb8 : b8 = setRows (512 * p.val + 2048) a8 (stA (X0 ⟨p.val + 4, by have := p.isLt; omega⟩) X1 X2 X3 (grid0.coords (ptB p)) (cond_B p).1)) :
    Inv X0 X1 X2 X3 (p.val + 5) b6 b7 (setRows (1024 * p.val) b8 (accB p b6 b7 b8)) := by
  have hp := p.isLt
  have g6 : ∀ y : S4096x4096.Idx, (y 0).val < 512 * (p.val + 5) → b6 y = LBn X0 y := fun y hy => by
    rw [hb6]; exact agree_strip6 X0 ⟨p.val + 4, by omega⟩ _ (by show 512 * p.val + 2048 = 512 * (p.val + 4); omega) hI.h6 y hy
  have g7 : ∀ y : S4096x256.Idx, (y 0).val < 512 * (p.val + 5) → b7 y = YYn X0 X1 X2 y := fun y hy => by
    rw [hb7]; exact agree_strip7 X0 X1 X2 ⟨p.val + 4, by omega⟩ _ (by show 512 * p.val + 2048 = 512 * (p.val + 4); omega) hI.h7 y hy
  have g8 : ∀ y : S4096x256.Idx, 1024 * p.val ≤ (y 0).val → (y 0).val < 512 * (p.val + 5) → b8 y = A1n X0 X1 X2 X3 y := fun y hlo hy => by
    rw [hb8]; exact agree_strip8 X0 X1 X2 X3 ⟨p.val + 4, by omega⟩ _ (by show 512 * p.val + 2048 = 512 * (p.val + 4); omega) (1024 * p.val)
      (fun y hl h => hI.h8b y (by omega) h) y hlo hy
  have g8lo : ∀ y : S4096x256.Idx, (y 0).val < 1024 * p.val → b8 y = A2n X0 X1 X2 X3 y := fun y h => by
    rw [hb8, setRows_out _ _ _ y (Or.inl (by omega))]; exact hI.h8a y (by omega)
  have e6 : View.ld b6 (Rect.unit (s := S4096x4096) (k0_off3 (grid0.coords (ptB p))) S1024x2048.size (k0_off3_inb _ (cond_B p).2.1))
      = View.ld (LBn X0) (Rect.unit (s := S4096x4096) (k0_off3 (grid0.coords (ptB p))) S1024x2048.size (k0_off3_inb _ (cond_B p).2.1)) :=
    ld_congr_rows b6 (LBn X0) _ (1024 * p.val) (by rw [off3_B]; rfl) (fun y h1 h2 => g6 y (by omega))
  have e7 : View.ld b7 rTop = View.ld (YYn X0 X1 X2) rTop :=
    ld_congr_rows b7 (YYn X0 X1 X2) _ 0 rfl (fun y h1 h2 => g7 y (by omega))
  have e8 : View.ld b8 (Rect.unit (s := S4096x256) (k0_off4 (grid0.coords (ptB p))) S1024x256.size (k0_off4_inb _ (cond_B p).2.1))
      = View.ld (A1n X0 X1 X2 X3) (Rect.unit (s := S4096x256) (k0_off4 (grid0.coords (ptB p))) S1024x256.size (k0_off4_inb _ (cond_B p).2.1)) :=
    ld_congr_rows b8 (A1n X0 X1 X2 X3) _ (1024 * p.val) (by rw [off4_B]; rfl) (fun y h1 h2 => g8 y h1 (by omega))
  have hacc : accB p b6 b7 b8 = accB p (LBn X0) (YYn X0 X1 X2) (A1n X0 X1 X2 X3) := by
    unfold accB; rw [e6, e7, e8]
  refine ⟨g6, g7, fun y hy => ?_, fun y hlo hy => ?_⟩
  · by_cases hlt : (y 0).val < 1024 * p.val
    · rw [setRows_out _ _ _ y (Or.inl hlt)]; exact g8lo y hlt
    · rw [setRows_in _ _ _ y ⟨by omega, by omega⟩, A2n_row X0 X1 X2 X3 p y ⟨by omega, by omega⟩, hacc]
  · rw [setRows_out _ _ _ y (Or.inr (by omega))]; exact g8 y (by omega) hy

/-- Points 8..11: all eight strips and all four left halves are in, so the block written is the closed form's. -/
theorem out_last (p : Fin 4) (hI : Inv X0 X1 X2 X3 8 a6 a7 a8) : outB p a6 a7 a8 = OUTn X0 X1 X2 X3 p := by
  have e6 : a6 = LBn X0 := funext fun y => hI.h6 y (by have := idx2_lt0 y; omega)
  have e7 : a7 = YYn X0 X1 X2 := funext fun y => hI.h7 y (by have := idx2_lt0 y; omega)
  have e8 : a8 = A2n X0 X1 X2 X3 := funext fun y => hI.h8a y (by have := idx2_lt0 y; omega)
  subst e6 e7 e8; rfl

end Spec

end Cert.Kernel.Body

end
-- ==== Proof.ChebFrameK.lean ====
/-
  The frame run of the Chebyshev graph-convolution kernel, for any float instance.

  The proof data: every input window's staging buffer holds the window's block of its array at every point; the
  region's invariant before point n > 0 holds the three scratch arrays at contents that agree with the closed forms
  of Proof/ChebInv.lean on the rows written by then (before point 0 they hold anything); the output window is
  idle at points 0..7 and at point 8 + p holds the closed form's block p. The body obligation is the three runs of
  Proof/ChebBody.lean, one per kind of point.
-/
import proofs.«145050_g80676665688617_cont_sun_m_757_33_alg».proof.Proof.Gen.Kernel.Frame
import proofs.«145050_g80676665688617_cont_sun_m_757_33_alg».proof.Proof.ChebInvK

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The points, and the output window's schedule -/

theorem pt_cases (t : Fin cfg0.N) : (∃ p, t = ptA p) ∨ (∃ p, t = ptB p) ∨ (∃ p, t = ptC p) := by
  have hN : t.val < 12 := lt_of_lt_of_eq t.isLt N_0
  by_cases h1 : t.val < 4
  · exact Or.inl ⟨⟨t.val, h1⟩, Fin.ext rfl⟩
  · by_cases h2 : t.val < 8
    · exact Or.inr (Or.inl ⟨⟨t.val - 4, by omega⟩, Fin.ext (by show t.val = t.val - 4 + 4; omega)⟩)
    · exact Or.inr (Or.inr ⟨⟨t.val - 8, by omega⟩, Fin.ext (by show t.val = t.val - 8 + 8; omega)⟩)

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem idle4_A : ∀ p : Fin 4, cfg0.idle 4 (grid0.coords (ptA p)) = true := by decide +kernel
theorem idle4_B : ∀ p : Fin 4, cfg0.idle 4 (grid0.coords (ptB p)) = true := by decide +kernel
theorem live4_C : ∀ p : Fin 4, cfg0.idle 4 (grid0.coords (ptC p)) = false := by decide +kernel
theorem noFlush4_A : ∀ p : Fin 4, (cfg0.win 4).flush (ptA p) = false := by decide +kernel
theorem noFlush4_B : ∀ p : Fin 4, (cfg0.win 4).flush (ptB p) = false := by decide +kernel

/-! ## The inputs as the body finds them -/

/-- Strip `j` of L, and x, the weights and the bias row (each the one block of its window). -/
def X0 (c : Dev nD) (j : Fin 8) : Vec F S512x4096 .f32 := iblk m c 0 (ptS j)
def X1 (c : Dev nD) : Vec F S4096x256 .bf16 := iblk m c 1 (ptS 0)
def X2 (c : Dev nD) : Vec F S3x256x256 .bf16 := iblk m c 2 (ptS 0)
def X3 (c : Dev nD) : Vec F S1x256 .f32 := iblk m c 3 (ptS 0)

theorem iblk1_eq (c : Dev nD) (t : Fin cfg0.N) : (iblk m c 1 t : Vec F S4096x256 .bf16) = X1 m c := rfl
theorem iblk2_eq (c : Dev nD) (t : Fin cfg0.N) : (iblk m c 2 t : Vec F S3x256x256 .bf16) = X2 m c := rfl
theorem iblk3_eq (c : Dev nD) (t : Fin cfg0.N) : (iblk m c 3 t : Vec F S1x256 .f32) = X3 m c := rfl

/-- The block of the output window a point leaves: block `p` at point `8 + p` (at the idle points nothing reads it). -/
def outAt (c : Dev nD) (t : Fin cfg0.N) : Vec F S1024x256 .f32 :=
  OUTn (X0 m c) (X1 m c) (X2 m c) (X3 m c) ⟨(t.val - 8) % 4, Nat.mod_lt _ (by norm_num)⟩

theorem outAt_C (c : Dev nD) (p : Fin 4) : outAt m c (ptC p) = OUTn (X0 m c) (X1 m c) (X2 m c) (X3 m c) p := by
  unfold outAt
  exact congrArg _ (Fin.ext (by show (p.val + 8 - 8) % 4 = p.val; have := p.isLt; omega))

/-! ## The invariant and the proof data -/

/-- The class invariant with the three scratch arrays as memrefs owned at some contents. -/
theorem PhiA0_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d)) ∗ (∃ r, prngReg c r)) := by
  unfold Pipeline.ΦA; rw [scopedRest0_eq]; simp only [sc0, sc1, sc2, owns_whole]; try rfl

/-- The scratch arrays at contents that agree with the closed forms after `s` strips, and the generator register. -/
def Held (c : Dev nD) (s : ℕ) : sProp 𝕄 :=
  iprop((∃ a6 a7 a8, owns (c : Thread nD τ) sc0 fullShare a6 ∗ owns (c : Thread nD τ) sc1 fullShare a7 ∗ owns (c : Thread nD τ) sc2 fullShare a8
      ∗ ⌜Inv (X0 m c) (X1 m c) (X2 m c) (X3 m c) s a6 a7 a8⌝) ∗ (∃ r, prngReg c r))

/-- The region invariant before point `n`. -/
def PhiS (c : Dev nD) : ℕ → sProp 𝕄
  | 0 => Pipeline.ΦA spec0 c
  | n + 1 => Held m c (min (n + 1) 8)

/-- Before any point the scratch arrays are held in agreement with the closed forms on the rows written so far. -/
theorem PhiS_held (c : Dev nD) (n : ℕ) : PhiS m c n ⊢ Held m c (min n 8) := by
  cases n with
  | zero =>
    show Pipeline.ΦA spec0 c ⊢ Held m c 0
    rw [PhiA0_eq]; unfold Held
    iintro ⟨⟨⟨%a6, H6⟩, ⟨%a7, H7⟩, ⟨%a8, H8⟩⟩, Hg⟩
    isplitr [Hg]
    · iexists a6; iexists a7; iexists a8
      isplitl [H6]; · iexact H6
      isplitl [H7]; · iexact H7
      isplitl [H8]; · iexact H8
      ipureintro; exact inv_zero _ _ _ _ _ _ _
    · iexact Hg
  | succ n => exact Entails.refl _

/-- The scratch arrays held in any agreement give the class invariant back. -/
theorem Held_out (c : Dev nD) (s : ℕ) : Held m c s ⊢ Pipeline.ΦA spec0 c := by
  rw [PhiA0_eq]; unfold Held
  iintro ⟨⟨%a6, %a7, %a8, H6, H7, H8, -⟩, Hg⟩
  isplitr [Hg]
  · isplitl [H6]; · iexists a6; iexact H6
    isplitl [H7]; · iexists a7; iexact H7
    iexists a8; iexact H8
  · iexact Hg

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ t := PhiS m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

theorem iblk0_A (c : Dev nD) (p : Fin 4) : (iblk m c 0 (ptA p) : Vec F S512x4096 .f32) = X0 m c ⟨p.val, by have := p.isLt; omega⟩ := rfl
theorem iblk0_B (c : Dev nD) (p : Fin 4) : (iblk m c 0 (ptB p) : Vec F S512x4096 .f32) = X0 m c ⟨p.val + 4, by have := p.isLt; omega⟩ := rfl

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

set_option maxHeartbeats 1600000 in
/-- Points 0..3. -/
theorem sound_A (c : Dev nD) (p : Fin 4) :
    bodyPre m c (ptA p) ⊢ wp frame (wpE (defs₀ (F := F)) Variants.none c none) Set.univ (bodyAt0 (ptA p)) (fun _ => bodyPost m c (ptA p)) := by
  unfold bodyPre bodyPost bodyAt0
  simp only [before0_0, before0_1, before0_2, before0_3]
  rw [show (dats m 0 c).owesAt () (ptA p).succ = (dats m 0 c).owesAt () (ptA p).castSucc from rfl]
  rw [show (dats m 0 c).leavesExact 0 (ptA p) = owns (c : Thread nD τ) (st0_0 (ptA p)) fullShare ((dats m 0 c).after 0 (ptA p)) from by
    unfold Dat.leavesExact; rw [live0 (ptA p)], after0_0]
  rw [show (dats m 0 c).leavesExact 1 (ptA p) = owns (c : Thread nD τ) (st0_1 (ptA p)) fullShare ((dats m 0 c).after 1 (ptA p)) from by
    unfold Dat.leavesExact; rw [live1 (ptA p)], after0_1]
  rw [show (dats m 0 c).leavesExact 2 (ptA p) = owns (c : Thread nD τ) (st0_2 (ptA p)) fullShare ((dats m 0 c).after 2 (ptA p)) from by
    unfold Dat.leavesExact; rw [live2 (ptA p)], after0_2]
  rw [show (dats m 0 c).leavesExact 3 (ptA p) = owns (c : Thread nD τ) (st0_3 (ptA p)) fullShare ((dats m 0 c).after 3 (ptA p)) from by
    unfold Dat.leavesExact; rw [live3 (ptA p)], after0_3]
  rw [Dat.leavesExact_idle (dats m 0 c) 4 (ptA p) (idle4_A p) (noFlush4_A p)]
  rw [iblk0_A m c p, iblk1_eq m c (ptA p), iblk2_eq m c (ptA p), iblk3_eq m c (ptA p)]
  have hmin : min (p.val + 1) 8 = p.val + 1 := by have := p.isLt; omega
  have hmin' : min p.val 8 = p.val := by have := p.isLt; omega
  rw [show (dats m 0 c).Φ (ptA p).succ = Held m c (min (p.val + 1) 8) from rfl,
    show (dats m 0 c).Φ (ptA p).castSucc = PhiS m c p.val from rfl, hmin]
  have hΦ : PhiS m c p.val ⊢ Held m c p.val := (PhiS_held m c p.val).trans (by rw [hmin'])
  unfold Held at hΦ ⊢
  iintro ⟨HP, Ho, ⟨%d0, H0⟩, ⟨%d1, H1⟩, ⟨%d2, H2⟩, ⟨%d3, H3⟩, H4⟩
  ihave HP' := (hΦ) $$ HP
  icases HP' with ⟨⟨%a6, %a7, %a8, H6, H7, H8, %hI⟩, Hg⟩
  iapply (run_first c p _ _ _ _ _ _ _ _ _ _ (X0 m c ⟨p.val, by have := p.isLt; omega⟩) (X1 m c) (X2 m c) (X3 m c) a6 a7 a8 _ _)
  isplitl [H0]; · iexact H0
  isplitl [H1]; · iexact H1
  isplitl [H2]; · iexact H2
  isplitl [H3]; · iexact H3
  isplitl [H4]; · iexact H4
  isplitl [H6]; · iexact H6
  isplitl [H7]; · iexact H7
  isplitl [H8]; · iexact H8
  iintro ⟨H0, H1, H2, H3, H4, H6, H7, H8⟩
  isplitl [H6 H7 H8 Hg]
  · isplitr [Hg]
    · iexists _; iexists _; iexists _
      isplitl [H6]; · iexact H6
      isplitl [H7]; · iexact H7
      isplitl [H8]; · iexact H8
      ipureintro
      exact inv_first (X0 m c) (X1 m c) (X2 m c) (X3 m c) p hI
    · iexact Hg
  isplitl [Ho]; · iexact Ho
  isplitl [H0]; · iexact H0
  isplitl [H1]; · iexact H1
  isplitl [H2]; · iexact H2
  isplitl [H3]; · iexact H3
  iexact H4

set_option maxHeartbeats 1600000 in
/-- Points 4..7. -/
theorem sound_B (c : Dev nD) (p : Fin 4) :
    bodyPre m c (ptB p) ⊢ wp frame (wpE (defs₀ (F := F)) Variants.none c none) Set.univ (bodyAt0 (ptB p)) (fun _ => bodyPost m c (ptB p)) := by
  unfold bodyPre bodyPost bodyAt0
  simp only [before0_0, before0_1, before0_2, before0_3]
  rw [show (dats m 0 c).owesAt () (ptB p).succ = (dats m 0 c).owesAt () (ptB p).castSucc from rfl]
  rw [show (dats m 0 c).leavesExact 0 (ptB p) = owns (c : Thread nD τ) (st0_0 (ptB p)) fullShare ((dats m 0 c).after 0 (ptB p)) from by
    unfold Dat.leavesExact; rw [live0 (ptB p)], after0_0]
  rw [show (dats m 0 c).leavesExact 1 (ptB p) = owns (c : Thread nD τ) (st0_1 (ptB p)) fullShare ((dats m 0 c).after 1 (ptB p)) from by
    unfold Dat.leavesExact; rw [live1 (ptB p)], after0_1]
  rw [show (dats m 0 c).leavesExact 2 (ptB p) = owns (c : Thread nD τ) (st0_2 (ptB p)) fullShare ((dats m 0 c).after 2 (ptB p)) from by
    unfold Dat.leavesExact; rw [live2 (ptB p)], after0_2]
  rw [show (dats m 0 c).leavesExact 3 (ptB p) = owns (c : Thread nD τ) (st0_3 (ptB p)) fullShare ((dats m 0 c).after 3 (ptB p)) from by
    unfold Dat.leavesExact; rw [live3 (ptB p)], after0_3]
  rw [Dat.leavesExact_idle (dats m 0 c) 4 (ptB p) (idle4_B p) (noFlush4_B p)]
  rw [iblk0_B m c p, iblk1_eq m c (ptB p), iblk2_eq m c (ptB p), iblk3_eq m c (ptB p)]
  have hmin : min (p.val + 4 + 1) 8 = p.val + 5 := by have := p.isLt; omega
  have hmin' : min (p.val + 4) 8 = p.val + 4 := by have := p.isLt; omega
  rw [show (dats m 0 c).Φ (ptB p).succ = Held m c (min (p.val + 4 + 1) 8) from rfl,
    show (dats m 0 c).Φ (ptB p).castSucc = PhiS m c (p.val + 4) from rfl, hmin]
  have hΦ : PhiS m c (p.val + 4) ⊢ Held m c (p.val + 4) := (PhiS_held m c (p.val + 4)).trans (by rw [hmin'])
  unfold Held at hΦ ⊢
  iintro ⟨HP, Ho, ⟨%d0, H0⟩, ⟨%d1, H1⟩, ⟨%d2, H2⟩, ⟨%d3, H3⟩, H4⟩
  ihave HP' := (hΦ) $$ HP
  icases HP' with ⟨⟨%a6, %a7, %a8, H6, H7, H8, %hI⟩, Hg⟩
  iapply (run_mid c p _ _ _ _ _ _ _ _ _ _ (X0 m c ⟨p.val + 4, by have := p.isLt; omega⟩) (X1 m c) (X2 m c) (X3 m c) a6 a7 a8 _ _)
  isplitl [H0]; · iexact H0
  isplitl [H1]; · iexact H1
  isplitl [H2]; · iexact H2
  isplitl [H3]; · iexact H3
  isplitl [H4]; · iexact H4
  isplitl [H6]; · iexact H6
  isplitl [H7]; · iexact H7
  isplitl [H8]; · iexact H8
  iintro ⟨H0, H1, H2, H3, H4, H6, H7, H8⟩
  isplitl [H6 H7 H8 Hg]
  · isplitr [Hg]
    · iexists _; iexists _; iexists _
      isplitl [H6]; · iexact H6
      isplitl [H7]; · iexact H7
      isplitl [H8]; · iexact H8
      ipureintro
      exact inv_mid (X0 m c) (X1 m c) (X2 m c) (X3 m c) p hI _ _ _ rfl rfl rfl
    · iexact Hg
  isplitl [Ho]; · iexact Ho
  isplitl [H0]; · iexact H0
  isplitl [H1]; · iexact H1
  isplitl [H2]; · iexact H2
  isplitl [H3]; · iexact H3
  iexact H4

set_option maxHeartbeats 1600000 in
/-- Points 8..11. -/
theorem sound_C (c : Dev nD) (p : Fin 4) :
    bodyPre m c (ptC p) ⊢ wp frame (wpE (defs₀ (F := F)) Variants.none c none) Set.univ (bodyAt0 (ptC p)) (fun _ => bodyPost m c (ptC p)) := by
  unfold bodyPre bodyPost bodyAt0
  simp only [before0_0, before0_1, before0_2, before0_3]
  rw [show (dats m 0 c).owesAt () (ptC p).succ = (dats m 0 c).owesAt () (ptC p).castSucc from rfl]
  rw [show (dats m 0 c).leavesExact 0 (ptC p) = owns (c : Thread nD τ) (st0_0 (ptC p)) fullShare ((dats m 0 c).after 0 (ptC p)) from by
    unfold Dat.leavesExact; rw [live0 (ptC p)], after0_0]
  rw [show (dats m 0 c).leavesExact 1 (ptC p) = owns (c : Thread nD τ) (st0_1 (ptC p)) fullShare ((dats m 0 c).after 1 (ptC p)) from by
    unfold Dat.leavesExact; rw [live1 (ptC p)], after0_1]
  rw [show (dats m 0 c).leavesExact 2 (ptC p) = owns (c : Thread nD τ) (st0_2 (ptC p)) fullShare ((dats m 0 c).after 2 (ptC p)) from by
    unfold Dat.leavesExact; rw [live2 (ptC p)], after0_2]
  rw [show (dats m 0 c).leavesExact 3 (ptC p) = owns (c : Thread nD τ) (st0_3 (ptC p)) fullShare ((dats m 0 c).after 3 (ptC p)) from by
    unfold Dat.leavesExact; rw [live3 (ptC p)], after0_3]
  rw [show (dats m 0 c).leavesExact 4 (ptC p) = owns (c : Thread nD τ) (st0_4 (ptC p)) fullShare ((dats m 0 c).after 4 (ptC p)) from by
    unfold Dat.leavesExact; rw [live4_C p], after0_4, outAt_C m c p]
  rw [iblk1_eq m c (ptC p), iblk2_eq m c (ptC p), iblk3_eq m c (ptC p)]
  have hmin : min (p.val + 8 + 1) 8 = 8 := by omega
  have hmin' : min (p.val + 8) 8 = 8 := by omega
  rw [show (dats m 0 c).Φ (ptC p).succ = Held m c (min (p.val + 8 + 1) 8) from rfl,
    show (dats m 0 c).Φ (ptC p).castSucc = PhiS m c (p.val + 8) from rfl, hmin]
  have hΦ : PhiS m c (p.val + 8) ⊢ Held m c 8 := (PhiS_held m c (p.val + 8)).trans (by rw [hmin'])
  unfold Held at hΦ ⊢
  iintro ⟨HP, Ho, ⟨%d0, H0⟩, ⟨%d1, H1⟩, ⟨%d2, H2⟩, ⟨%d3, H3⟩, ⟨%d4, H4⟩⟩
  ihave HP' := (hΦ) $$ HP
  icases HP' with ⟨⟨%a6, %a7, %a8, H6, H7, H8, %hI⟩, Hg⟩
  rw [← out_last (X0 m c) (X1 m c) (X2 m c) (X3 m c) p hI]
  iapply (run_last c p _ _ _ _ _ _ _ _ _ _ (iblk m c 0 (ptC p)) (X1 m c) (X2 m c) (X3 m c) a6 a7 a8 _)
  isplitl [H0]; · iexact H0
  isplitl [H1]; · iexact H1
  isplitl [H2]; · iexact H2
  isplitl [H3]; · iexact H3
  isplitl [H4]; · iexists _; iexact H4
  isplitl [H6]; · iexact H6
  isplitl [H7]; · iexact H7
  isplitl [H8]; · iexact H8
  iintro ⟨H0, H1, H2, H3, H4, H6, H7, H8⟩
  isplitl [H6 H7 H8 Hg]
  · isplitr [Hg]
    · iexists _; iexists _; iexists _
      isplitl [H6]; · iexact H6
      isplitl [H7]; · iexact H7
      isplitl [H8]; · iexact H8
      ipureintro
      exact hI
    · iexact Hg
  isplitl [Ho]; · iexact Ho
  isplitl [H0]; · iexact H0
  isplitl [H1]; · iexact H1
  isplitl [H2]; · iexact H2
  isplitl [H3]; · iexact H3
  iexact H4

/-- The body at any point. -/
theorem sound_body (c : Dev nD) (t : Fin cfg0.N) :
    bodyPre m c t ⊢ wp frame (wpE (defs₀ (F := F)) Variants.none c none) Set.univ (bodyAt0 t) (fun _ => bodyPost m c t) := by
  rcases pt_cases t with ⟨p, rfl⟩ | ⟨p, rfl⟩ | ⟨p, rfl⟩
  · exact sound_A m c p
  · exact sound_B m c p
  · exact sound_C m c p

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := Entails.refl _

/-- After the last point the invariant gives the class invariant back: the scratch arrays' contents are forgotten. -/
theorem hout (c : Dev nD) : (dats m 0 c).Φ (Fin.last cfg0.N) ⊢ Pipeline.ΦA spec0 c :=
  Held_out m c _

/-! ## The run and the frame -/

set_option backward.isDefEq.respectTransparency.types false in
/-- Every weakly fair execution of @main terminates, and every final state has every array of the pipeline at what the
    library computes from the proof data and every other unscoped buffer at its contents at the region's entry. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame claim's post, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Body

end
-- ==== Proof.ChebMain.lean ====
/-
  The kernel's result is the reference's, at the exact instance, for finite inputs.

  Entry (r, q) of the kernel's output is L[r, 2048:] Y[2048:, q] + (x (W0 - W2) + T1 W1 + b)[r, q] + L[r, :2048] Y[:2048, q]
  with T1 = L x and Y = 2 (T1 W2) (Proof/ChebValue.lean over the arrays of Proof/ChebInputs.lean); the reference's is
  (x W0 + T1 W1 + (2 (L T1) - x) W2 + b)[r, q] (Proof/ChebRef.lean). Every entry of a finite input is a real number
  (Proof/ChebFinite.lean), and on real numbers the two agree (Proof/ChebBridge.lean).
-/
import proofs.«145050_g80676665688617_cont_sun_m_757_33_alg».proof.Defs
import proofs.«145050_g80676665688617_cont_sun_m_757_33_alg».proof.Proof.ChebFinal
import proofs.«145050_g80676665688617_cont_sun_m_757_33_alg».proof.Proof.ChebInputs
import proofs.«145050_g80676665688617_cont_sun_m_757_33_alg».proof.Proof.ChebValue
import proofs.«145050_g80676665688617_cont_sun_m_757_33_alg».proof.Proof.ChebRef
import proofs.«145050_g80676665688617_cont_sun_m_757_33_alg».proof.Proof.ChebBridge
import proofs.«145050_g80676665688617_cont_sun_m_757_33_alg».proof.Proof.ChebFinite
import proofs.«145050_g80676665688617_cont_sun_m_757_33_alg».proof.Proof.ChebFrameK
import proofs.«145050_g80676665688617_cont_sun_m_757_33_alg».proof.Proof.Gen.ReferenceIdeal.Run
import proofs.«145050_g80676665688617_cont_sun_m_757_33_alg».proof.Proof.Gen.ReferenceIdeal.Read

set_option maxRecDepth 16384

noncomputable section

open scoped BigOperators

namespace Cert.Proof.Cheb

open Idealize.ShloMosaic Idealize.ShloMosaic.TcCoe Idealize.ShloMosaic.ValueIdx Idealize.ShloMosaic.RealEntries
open Idealize.SL.Sem
open Cert.KernelIdeal Cert.KernelIdeal.Body Cert.KernelIdeal.ChebValue

/-- One output entry of the kernel, over blocks that are the argument arrays' and hold real numbers, is the reference's. -/
theorem result_eq (a0 : S4096x256.Idx → EReal) (a1 : S4096x4096.Idx → EReal) (a2 : S3x256x256.Idx → EReal) (a3 : S256.Idx → EReal)
    (h0 : ∀ i, IsReal (a0 i)) (h1 : ∀ i, IsReal (a1 i)) (h2 : ∀ i, IsReal (a2 i)) (h3 : ∀ i, IsReal (a3 i))
    (X0 : Fin 8 → Vec Ideal S512x4096 .f32) (X1 : Vec Ideal S4096x256 .bf16) (X2 : Vec Ideal S3x256x256 .bf16) (X3 : Vec Ideal S1x256 .f32)
    (hX0 : ∀ (j : Fin 8) (a : Fin 512) (k : Fin 4096), X0 j (ix2 a k) = a1 (ix2 ⟨512 * j.val + a.val, by have := j.isLt; omega⟩ k))
    (hX1 : X1 = a0) (hX2 : X2 = a2) (hX3 : ∀ q : Fin 256, X3 (ix2 (0 : Fin 1) q) = a3 (ix1 q)) (r : Fin 4096) (q : Fin 256) :
    Km X0 X1 X2 X3 r q = Cert.ReferenceIdeal.Read.val_main_v18 (F := Ideal) a0 a1 a2 a3 (ix2 r q) := by
  subst hX1 hX2
  have hL : ∀ r k : Fin 4096, Lm X0 r k = a1 (ix2 r k) := fun r k => by
    have hr := r.isLt
    unfold Lm; rw [hX0]
    exact congrArg (fun z => a1 (ix2 z k)) (Fin.ext (by show 512 * (r.val / 512) + r.val % 512 = r.val; omega))
  choose L' hL' using h1
  choose x' hx' using h0
  choose W' hW' using h2
  choose b' hb' using h3
  obtain ⟨c, hc⟩ := isReal_ofBits_f32 0x40000000#32 (by decide)
  rw [Cert.ReferenceIdeal.ChebRef.ref_apply]
  unfold Km A1m Ym T1m
  simp only [hL, hX3, hL', hx', hW', hb', hc]
  exact Cert.ChebBridge.bridge c (fun r k => L' (ix2 r k)) (fun k j => x' (ix2 k j)) (fun j q => W' (ix3 0 j q)) (fun j q => W' (ix3 1 j q))
    (fun j q => W' (ix3 2 j q)) (fun q => b' (ix1 q)) r q lo hi (fun _ => rfl) (fun _ => rfl)

/-! ## The claims -/

theorem frame_k : Cert.frame_Kernel := fun m ρ _ => Cert.Kernel.Body.frame m ρ
theorem frame_ki : Cert.frame_KernelIdeal := fun m ρ _ => Cert.KernelIdeal.Body.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The two idealized programs, from memories that agree on finite arguments, end with equal results. -/
theorem algebraic : Cert.algebraic_KernelIdeal_ReferenceIdeal := by
  intro m ρ m' ρ' hpre hagree
  refine ⟨fun c => Cert.KernelIdeal.Body.outAll m c, Cert.KernelIdeal.Body.run_value m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  refine (Cert.ReferenceIdeal.Read.val_main_v18_eq _ _ _ _).trans ?_
  obtain ⟨r0, r1, r2, r3⟩ := Cert.Pre_finite_inputs.ChebFinite.real_of_pre _ _ _ _ (hpre c)
  funext i
  obtain ⟨r, q, rfl⟩ : ∃ (r : Fin 4096) (q : Fin 256), i = ix2 r q := ⟨i 0, i 1, eq_ix2 i⟩
  refine Eq.symm ?_
  show OUTn (X0 m c) (X1 m c) (X2 m c) (X3 m c) (blockOf r) (ix2 ⟨r.val % 1024, _⟩ q) = _
  rw [OUTn_at]
  exact result_eq _ _ _ _ r0 r1 r2 r3 _ _ _ _ (fun j a k => X0_apply m c j a k) (X1_eq m c) (X2_eq m c) (X3_apply m c) r q

end Cert.Proof.Cheb

end
-- ==== Proof.lean ====
/-
  The certificate of the Chebyshev graph convolution (order three) against its reference.

  The kernel streams L in eight strips, keeping a converted copy, Y = 2 (L x) W2 and an accumulator
  x (W0 - W2) + (L x) W1 + b in scratch arrays carried across twelve grid points, and forms L Y in two halves of the
  contraction; the reference runs the recurrence T0 = x, T1 = L x, T2 = 2 L T1 - x and sums T_k W_k + b.
  The frames of both kernel programs are Proof/ChebFrame.lean's run (one body obligation per kind of grid point);
  the reference's frame is its run; the two results are equal entry by entry on finite inputs (Proof/ChebMain.lean).
-/
import proofs.«145050_g80676665688617_cont_sun_m_757_33_alg».proof.Defs
import proofs.«145050_g80676665688617_cont_sun_m_757_33_alg».proof.Proof.Gen.Kernel
import proofs.«145050_g80676665688617_cont_sun_m_757_33_alg».proof.Proof.Gen.KernelIdeal
import proofs.«145050_g80676665688617_cont_sun_m_757_33_alg».proof.Proof.Gen.ReferenceIdeal
import proofs.«145050_g80676665688617_cont_sun_m_757_33_alg».proof.Proof.Gen.Pre_finite_inputs
import proofs.«145050_g80676665688617_cont_sun_m_757_33_alg».proof.Proof.ChebMain

noncomputable section

namespace Cert.Proof

theorem claim : Cert.Claim := ⟨Cert.Kernel.Gen.facts, Cert.KernelIdeal.Gen.facts, Cert.ReferenceIdeal.Gen.facts, Cert.Pre_finite_inputs.Gen.facts,
  Cert.Proof.Cheb.frame_k, Cert.Proof.Cheb.frame_ki, Cert.Proof.Cheb.frame_ri, Cert.Proof.Cheb.preserves, Cert.Proof.Cheb.algebraic⟩

end Cert.Proof

end
